-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64x128 .f32) (main_arg13 : FVec F S64x128 .f32) (main_arg14 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S64x128 .f32 := Host.absf main_arg12
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S64x128 .f32 := Host.absf main_arg13
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg8 : FVec F S128x128 .f32) (main_arg9 : FVec F S128 .f32) (main_arg10 : FVec F S128 .f32) (main_arg11 : FVec F S128 .f32) (main_arg12 : FVec F S64x128 .f32) (main_arg13 : FVec F S64x128 .f32) (main_arg14 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_v48 main_v49 main_v50

def fn_part1 {F : FTy → Type} [FloatOps F] (main_arg5 : FVec F S128 .f32) (main_arg6 : FVec F S128 .f32) (main_arg7 : FVec F S128x128 .f32) (main_arg8 : FVec F S128x128 .f32) (main_arg9 : FVec F S128 .f32) (main_arg10 : FVec F S128 .f32) (main_arg11 : FVec F S128 .f32) (main_arg12 : FVec F S64x128 .f32) (main_arg13 : FVec F S64x128 .f32) (main_arg14 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128 .f32) (main_arg6 : FVec F S128 .f32) (main_arg7 : FVec F S128x128 .f32) (main_arg8 : FVec F S128x128 .f32) (main_arg9 : FVec F S128 .f32) (main_arg10 : FVec F S128 .f32) (main_arg11 : FVec F S128 .f32) (main_arg12 : FVec F S64x128 .f32) (main_arg13 : FVec F S64x128 .f32) (main_arg14 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S4000x128 : Shape := ⟨2, ![4000, 128]⟩
abbrev S4000 : Shape := ⟨1, ![4000]⟩
abbrev S4000x1 : Shape := ⟨2, ![4000, 1]⟩
abbrev S100000x64 : Shape := ⟨2, ![100000, 64]⟩
abbrev S4000x64 : Shape := ⟨2, ![4000, 64]⟩
abbrev S128x64 : Shape := ⟨2, ![128, 64]⟩
abbrev S1600000x64 : Shape := ⟨2, ![1600000, 64]⟩
abbrev S1x64 : Shape := ⟨2, ![1, 64]⟩

abbrev nBuf : Space → Nat
  | .hbm => 93
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S64x128, .f32⟩
  | .hbm, ⟨13, _⟩ => ⟨S64x128, .f32⟩
  | .hbm, ⟨14, _⟩ => ⟨S64, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S_, .i32⟩
  | .hbm, ⟨22, _⟩ => ⟨S100000, .i32⟩
  | .hbm, ⟨23, _⟩ => ⟨S1600000x1, .i32⟩
  | .hbm, ⟨24, _⟩ => ⟨S100000, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S100000x128, .bf16⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .bf16⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S100000x128, .bf16⟩
  | .hbm, ⟨73, _⟩ => ⟨S100000x64, .bf16⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x64, .bf16⟩
  | .hbm, ⟨83, _⟩ => ⟨S1600000x64, .f32⟩
  | .hbm, ⟨84, _⟩ => ⟨S_, .f32⟩
  | .hbm, ⟨85, _⟩ => ⟨S100000x64, .f32⟩
  | .hbm, ⟨86, _⟩ => ⟨S1600000x1, .i32⟩
  | .hbm, ⟨87, _⟩ => ⟨S100000x64, .f32⟩
  | .hbm, ⟨88, _⟩ => ⟨S100000x1, .f32⟩
  | .hbm, ⟨89, _⟩ => ⟨S100000x64, .f32⟩
  | .hbm, ⟨90, _⟩ => ⟨S100000x64, .f32⟩
  | .hbm, ⟨91, _⟩ => ⟨S1x64, .f32⟩
  | .hbm, ⟨92, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S4000x128, .bf16⟩
  | .local _ .vmem, ⟨10, _⟩ => ⟨S4000x128, .bf16⟩
  | .local _ .vmem, ⟨11, _⟩ => ⟨S4000x128, .f32⟩
  | .local _ .vmem, ⟨12, _⟩ => ⟨S4000x128, .f32⟩
  | .local _ .vmem, ⟨13, _⟩ => ⟨S4000x128, .bf16⟩
  | .local _ .vmem, ⟨14, _⟩ => ⟨S4000x128, .bf16⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S4000x128, .bf16⟩
  | .local _ .vmem, ⟨21, _⟩ => ⟨S4000x128, .bf16⟩
  | .local _ .vmem, ⟨22, _⟩ => ⟨S4000x128, .bf16⟩
  | .local _ .vmem, ⟨23, _⟩ => ⟨S4000x128, .bf16⟩
  | .local _ .vmem, ⟨24, _⟩ => ⟨S64x128, .f32⟩
  | .local _ .vmem, ⟨25, _⟩ => ⟨S4000x64, .bf16⟩
  | .local _ .vmem, ⟨26, _⟩ => ⟨S4000x64, .bf16⟩
  | .local _ .vmem, ⟨27, _⟩ => ⟨S4000x64, .f32⟩
  | .local _ .vmem, ⟨28, _⟩ => ⟨S4000x64, .f32⟩
  | .local _ .vmem, ⟨29, _⟩ => ⟨S4000x128, .bf16⟩
  | .local _ .vmem, ⟨30, _⟩ => ⟨S4000x128, .bf16⟩
  | .local _ .vmem, ⟨31, _⟩ => ⟨S64x128, .f32⟩
  | .local _ .vmem, ⟨32, _⟩ => ⟨S1x64, .f32⟩
  | .local _ .vmem, ⟨33, _⟩ => ⟨S4000x64, .f32⟩
  | .local _ .vmem, ⟨34, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_c_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_8 : Ref sig .tc := ⟨.hbm, 74, rfl⟩
abbrev main_v49 : Ref sig .tc := ⟨.hbm, 75, rfl⟩
abbrev main_v50 : Ref sig .tc := ⟨.hbm, 76, rfl⟩
abbrev main_c_9 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_10 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg4_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem4_1 : DmaSem sig := 34

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  packedbf16_S4000x128_S4000x128_0_0 : (Rect.unit (s := S4000x128) ![0, 0] S4000x128.size inb_S4000x128_S4000x128_0_0).PackedRows (EltTy.packing .bf16)
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S100000x128.size a
  hwx0_7 : ∀ i : grid0.Coords, EltTy.bits .bf16 = 32 ∨ (Rect.block (s := S100000x128) S4000x128.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .bf16 = 32 ∨ (Rect.block (s := S100000x128) S4000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S100000x128.size a
  hwx1_7 : ∀ i : grid1.Coords, EltTy.bits .bf16 = 32 ∨ (Rect.block (s := S100000x128) S4000x128.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .bf16 = 32 ∨ (Rect.block (s := S100000x128) S4000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .bf16 = 32 ∨ (Rect.block (s := S100000x64) S4000x64.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .bf16 = 32 ∨ (Rect.block (s := S100000x128) S4000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x64.size a ≤ S100000x64.size a
  hwx3_4 : ∀ i : grid3.Coords, EltTy.bits .f32 = 32 ∨ (Rect.block (s := S100000x64) S4000x64.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v25) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v43) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v47) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v47) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S64x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S4000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 182
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128x128, .f32⟩
  | 4 => ⟨S128, .f32⟩
  | 5 => ⟨S128, .f32⟩
  | 6 => ⟨S128, .f32⟩
  | 7 => ⟨S128x128, .f32⟩
  | 8 => ⟨S128x128, .f32⟩
  | 9 => ⟨S128, .f32⟩
  | 10 => ⟨S128, .f32⟩
  | 11 => ⟨S128, .f32⟩
  | 12 => ⟨S64x128, .f32⟩
  | 13 => ⟨S64x128, .f32⟩
  | 14 => ⟨S64, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S_, .f32⟩
  | 33 => ⟨S1600000, .f32⟩
  | 34 => ⟨S_, .f32⟩
  | 35 => ⟨S100000, .f32⟩
  | 36 => ⟨S1600000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x128, .f32⟩
  | 43 => ⟨S100000x128, .f32⟩
  | 44 => ⟨S128x128, .f32⟩
  | 45 => ⟨S100000x128, .f32⟩
  | 46 => ⟨S128x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S_, .f32⟩
  | 56 => ⟨S100000, .f32⟩
  | 57 => ⟨S100000x1, .f32⟩
  | 58 => ⟨S_, .f32⟩
  | 59 => ⟨S100000x1, .f32⟩
  | 60 => ⟨S100000x1, .f32⟩
  | 61 => ⟨S100000x128, .f32⟩
  | 62 => ⟨S100000x128, .f32⟩
  | 63 => ⟨S100000x128, .f32⟩
  | 64 => ⟨S_, .f32⟩
  | 65 => ⟨S100000, .f32⟩
  | 66 => ⟨S100000x1, .f32⟩
  | 67 => ⟨S_, .f32⟩
  | 68 => ⟨S100000x1, .f32⟩
  | 69 => ⟨S100000x1, .f32⟩
  | 70 => ⟨S100000x128, .f32⟩
  | 71 => ⟨S100000x128, .f32⟩
  | 72 => ⟨S_, .f32⟩
  | 73 => ⟨S100000x1, .f32⟩
  | 74 => ⟨S100000x1, .f32⟩
  | 75 => ⟨S100000x1, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000x128, .f32⟩
  | 93 => ⟨S_, .f32⟩
  | 94 => ⟨S100000x128, .f32⟩
  | 95 => ⟨S1600000x1, .i32⟩
  | 96 => ⟨S100000x128, .f32⟩
  | 97 => ⟨S_, .f32⟩
  | 98 => ⟨S1600000, .f32⟩
  | 99 => ⟨S_, .f32⟩
  | 100 => ⟨S100000, .f32⟩
  | 101 => ⟨S1600000x1, .i32⟩
  | 102 => ⟨S100000, .f32⟩
  | 103 => ⟨S_, .f32⟩
  | 104 => ⟨S100000, .f32⟩
  | 105 => ⟨S100000, .f32⟩
  | 106 => ⟨S100000x1, .f32⟩
  | 107 => ⟨S100000x128, .f32⟩
  | 108 => ⟨S100000x128, .f32⟩
  | 109 => ⟨S128x128, .f32⟩
  | 110 => ⟨S100000x128, .f32⟩
  | 111 => ⟨S128x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S_, .f32⟩
  | 121 => ⟨S100000, .f32⟩
  | 122 => ⟨S100000x1, .f32⟩
  | 123 => ⟨S_, .f32⟩
  | 124 => ⟨S100000x1, .f32⟩
  | 125 => ⟨S100000x1, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S100000, .f32⟩
  | 3 => ⟨S100000x1, .f32⟩
  | 4 => ⟨S_, .f32⟩
  | 5 => ⟨S100000x1, .f32⟩
  | 6 => ⟨S100000x1, .f32⟩
  | 7 => ⟨S100000x128, .f32⟩
  | 8 => ⟨S100000x128, .f32⟩
  | 9 => ⟨S_, .f32⟩
  | 10 => ⟨S100000x1, .f32⟩
  | 11 => ⟨S100000x1, .f32⟩
  | 12 => ⟨S100000x1, .f32⟩
  | 13 => ⟨S100000x128, .f32⟩
  | 14 => ⟨S100000x128, .f32⟩
  | 15 => ⟨S1x128, .f32⟩
  | 16 => ⟨S100000x128, .f32⟩
  | 17 => ⟨S100000x128, .f32⟩
  | 18 => ⟨S1x128, .f32⟩
  | 19 => ⟨S100000x128, .f32⟩
  | 20 => ⟨S100000x128, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S_, .f32⟩
  | 31 => ⟨S100000x128, .f32⟩
  | 32 => ⟨S1600000x1, .i32⟩
  | 33 => ⟨S100000x128, .f32⟩
  | 34 => ⟨S_, .f32⟩
  | 35 => ⟨S1600000, .f32⟩
  | 36 => ⟨S_, .f32⟩
  | 37 => ⟨S100000, .f32⟩
  | 38 => ⟨S1600000x1, .i32⟩
  | 39 => ⟨S100000, .f32⟩
  | 40 => ⟨S_, .f32⟩
  | 41 => ⟨S100000, .f32⟩
  | 42 => ⟨S100000, .f32⟩
  | 43 => ⟨S100000x1, .f32⟩
  | 44 => ⟨S100000x128, .f32⟩
  | 45 => ⟨S100000x128, .f32⟩
  | 46 => ⟨S128x64, .f32⟩
  | 47 => ⟨S100000x64, .f32⟩
  | 48 => ⟨S128x64, .f32⟩
  | 49 => ⟨S100000x64, .f32⟩
  | 50 => ⟨S100000x64, .f32⟩
  | 51 => ⟨S1x64, .f32⟩
  | 52 => ⟨S100000x64, .f32⟩
  | 53 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call0_cst : Ref sig .tc := ⟨.hbm, 52, rfl⟩
abbrev main_call0_v0 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_9 : Ref sig .tc := ⟨.hbm, 84, rfl⟩
abbrev main_v56 : Ref sig .tc := ⟨.hbm, 85, rfl⟩
abbrev main_v57 : Ref sig .tc := ⟨.hbm, 86, rfl⟩
abbrev main_c_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_11 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_12 : Ref sig .tc := ⟨.hbm, 97, rfl⟩
abbrev main_v66 : Ref sig .tc := ⟨.hbm, 98, rfl⟩
abbrev main_cst_13 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_14 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call1_cst : Ref sig .tc := ⟨.hbm, 117, rfl⟩
abbrev main_call1_v0 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_v85 : Ref sig .tc := ⟨.hbm, 122, rfl⟩
abbrev main_cst_16 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_17 : Ref sig .tc := ⟨.hbm, 129, rfl⟩
abbrev main_v91 : Ref sig .tc := ⟨.hbm, 130, rfl⟩
abbrev main_v92 : Ref sig .tc := ⟨.hbm, 131, rfl⟩
abbrev main_cst_18 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_19 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_c_20 : Ref sig .tc := ⟨.hbm, 149, rfl⟩
abbrev main_v108 : Ref sig .tc := ⟨.hbm, 150, rfl⟩
abbrev main_v109 : Ref sig .tc := ⟨.hbm, 151, rfl⟩
abbrev main_c_21 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_22 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_23 : Ref sig .tc := ⟨.hbm, 162, rfl⟩
abbrev main_v118 : Ref sig .tc := ⟨.hbm, 163, rfl⟩
abbrev main_cst_24 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_25 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result named.

  Every weakly fair execution of the program ends, without a fault, with the arguments as launched and the result
  array holding what the last region's write-backs leave in it: the fold of the host stretches and the four regions
  from the launch memory, read at the result's buffer. The run is the same composition of segments as the frame's;
  only the final read keeps one more buffer.
-/
import proofs.«109273_j84954453114989_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, the result array at the last boundary's contents, the arguments unchanged. -/
theorem run_result : θ_run defs (onTc (τ := τ) (main (F := F))) ⟨m, fun _ => 0, ρ⟩ (fun r => ∀ c : Dev nD,
      r.2.mem ((c.tc : Thread nD τ).loc main_v64) = W7 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v64 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c)⟩)

end Cert.KernelIdeal.RunValue

end
-- ==== Proof.RowLayer.lean ====
/-
  One node's row through a layer, on the extended reals, and what holds of it when every input is a real number.

  A layer takes, for a node, the row `a` of averaged neighbour features and the node's own row `x`, forms
  `a · Wlᵀ + x · Wrᵀ + b`, clips it below at zero, and normalises the clipped row: subtract its mean, divide
  by the square root of its variance plus a small positive constant, scale by `g` and shift by `be`. The
  mean over 128 columns is the sum divided by 128.

  Two laws are used later. A finite sum of reals times the reciprocal of a nonzero real is the sum divided by
  that real. And averaging over a node's incoming edges commutes with a fixed linear map of the columns: both
  are finite sums of products of reals, in different orders.
-/
import Idealize.ShloMosaic.PureOps.Ideal
import Idealize.ShloMosaic.PureOps.Ideal.Laws

noncomputable section

open scoped BigOperators

namespace Cert.RowLayer

open Idealize.ShloMosaic

/-- 128, as the binary32 word both programs divide a row sum by. -/
abbrev c128 : EReal := Ideal.ofBits .f32 0x43000000#32
/-- The small constant added to the variance, as the binary32 word both programs carry. -/
abbrev ceps : EReal := Ideal.ofBits .f32 0x3727C5AC#32
/-- 1, as a binary32 word. -/
abbrev c1 : EReal := Ideal.ofBits .f32 0x3F800000#32

/-- An extended real that is a real number. -/
def IsR (x : EReal) : Prop := ∃ r : ℝ, x = (r : EReal)

variable {J K : Nat}

/-- Column `j` of `a · Wlᵀ + x · Wrᵀ + b`. -/
def lin (a x : Fin K → EReal) (Wl Wr : Fin J → Fin K → EReal) (b : Fin J → EReal) (j : Fin J) : EReal :=
  (∑ k, a k * Wl j k) + (∑ k, x k * Wr j k) + b j

/-- The mean of a row of 128 entries. -/
def mean128 (z : Fin 128 → EReal) : EReal := Ideal.div (∑ j, z j) c128

/-- The clipped row. -/
def clip (a x : Fin 128 → EReal) (Wl Wr : Fin 128 → Fin 128 → EReal) (b : Fin 128 → EReal) (j : Fin 128) : EReal :=
  max (lin a x Wl Wr b j) 0

/-- Column `j` of the layer's output row. -/
def lnrow (a x : Fin 128 → EReal) (Wl Wr : Fin 128 → Fin 128 → EReal) (b g be : Fin 128 → EReal) (j : Fin 128) : EReal :=
  (clip a x Wl Wr b j - mean128 (clip a x Wl Wr b))
    * Ideal.rsqrt (mean128 (fun j' => (clip a x Wl Wr b j' - mean128 (clip a x Wl Wr b)) * (clip a x Wl Wr b j' - mean128 (clip a x Wl Wr b))) + ceps)
    * g j + be j

theorem c1_eq : c1 = ((1 : ℝ) : EReal) := by
  simp [Ideal.ofBits, Ideal.ieee, -EReal.coe_mul]; norm_num

/-- The word `0x43000000` has exponent field 134 and zero fraction: `2^23 · 2^(134 - 127 - 23) = 128`. -/
theorem c128_eq : c128 = ((128 : ℝ) : EReal) := by
  simp [Ideal.ofBits, Ideal.ieee, -EReal.coe_mul]; norm_num

/-- The word `0x3727C5AC` has exponent field 110 and fraction 2606508: `(2^23 + 2606508) · 2^(110 - 127 - 23)`,
    that is `10995116 · 2^(-40)`, just under `10^(-5)`. -/
theorem ceps_eq : ceps = ((10995116 * (2 : ℝ) ^ (-40 : Int) : ℝ) : EReal) := by
  simp [Ideal.ofBits, Ideal.ieee, -EReal.coe_mul]

/-- The small constant is a positive real. -/
theorem ceps_pos : ∃ e : ℝ, ceps = (e : EReal) ∧ 0 < e :=
  ⟨_, ceps_eq, by positivity⟩

/-- The coercion of the reals into the extended reals commutes with finite sums. -/
theorem coe_sum {ι : Type} (E : Finset ι) (f : ι → ℝ) :
    ∑ e ∈ E, ((f e : ℝ) : EReal) = ((∑ e ∈ E, f e : ℝ) : EReal) := by
  classical
  induction E using Finset.induction_on with
  | empty => simp
  | insert a s ha ih => rw [Finset.sum_insert ha, Finset.sum_insert ha, ih, EReal.coe_add]

/-- The coercion of the reals into the extended reals is monotone, so it commutes with the maximum. -/
theorem coe_max (x y : ℝ) : max (x : EReal) (y : EReal) = ((max x y : ℝ) : EReal) :=
  (EReal.coe_strictMono.monotone.map_max).symm

/-- The mean of a row of reals is the real mean. -/
theorem mean128_coe (z : Fin 128 → ℝ) :
    mean128 (fun j => ((z j : ℝ) : EReal)) = (((∑ j, z j) * (1 / 128) : ℝ) : EReal) := by
  rw [mean128, c128_eq, Ideal.div_coe (by norm_num), coe_sum, ← EReal.coe_mul]

/-- A column of the linear part at real inputs is real. -/
theorem lin_coe (a x : Fin K → ℝ) (Wl Wr : Fin J → Fin K → ℝ) (b : Fin J → ℝ) (j : Fin J) :
    lin (fun k => ((a k : ℝ) : EReal)) (fun k => ((x k : ℝ) : EReal)) (fun j k => ((Wl j k : ℝ) : EReal))
      (fun j k => ((Wr j k : ℝ) : EReal)) (fun j => ((b j : ℝ) : EReal)) j
      = (((∑ k, a k * Wl j k) + (∑ k, x k * Wr j k) + b j : ℝ) : EReal) := by
  simp only [lin, ← EReal.coe_mul, coe_sum, ← EReal.coe_add]

/-- A column of the clipped row at real inputs is real. -/
theorem clip_coe (a x : Fin 128 → ℝ) (Wl Wr : Fin 128 → Fin 128 → ℝ) (b : Fin 128 → ℝ) (j : Fin 128) :
    clip (fun k => ((a k : ℝ) : EReal)) (fun k => ((x k : ℝ) : EReal)) (fun j k => ((Wl j k : ℝ) : EReal))
      (fun j k => ((Wr j k : ℝ) : EReal)) (fun j => ((b j : ℝ) : EReal)) j
      = ((max ((∑ k, a k * Wl j k) + (∑ k, x k * Wr j k) + b j) 0 : ℝ) : EReal) := by
  rw [clip, lin_coe, ← EReal.coe_zero, coe_max]

/-- A column of the clipped row is real when every input is. -/
theorem clip_real (a x : Fin 128 → EReal) (Wl Wr : Fin 128 → Fin 128 → EReal) (b : Fin 128 → EReal)
    (ha : ∀ k, IsR (a k)) (hx : ∀ k, IsR (x k)) (hWl : ∀ j k, IsR (Wl j k)) (hWr : ∀ j k, IsR (Wr j k))
    (hb : ∀ j, IsR (b j)) (j : Fin 128) : IsR (clip a x Wl Wr b j) := by
  choose a' ha' using ha
  choose x' hx' using hx
  choose Wl' hWl' using hWl
  choose Wr' hWr' using hWr
  choose b' hb' using hb
  obtain rfl : a = fun k => ((a' k : ℝ) : EReal) := funext ha'
  obtain rfl : x = fun k => ((x' k : ℝ) : EReal) := funext hx'
  obtain rfl : Wl = fun j k => ((Wl' j k : ℝ) : EReal) := by funext j k; exact hWl' j k
  obtain rfl : Wr = fun j k => ((Wr' j k : ℝ) : EReal) := by funext j k; exact hWr' j k
  obtain rfl : b = fun j => ((b' j : ℝ) : EReal) := funext hb'
  exact ⟨_, clip_coe a' x' Wl' Wr' b' j⟩

/-- The reciprocal square root of a positive real is the real `(√r)⁻¹`. -/
theorem rsqrt_pos_real {r : ℝ} (h : 0 < r) : Ideal.rsqrt (r : EReal) = (((Real.sqrt r)⁻¹ : ℝ) : EReal) := by
  rw [Ideal.rsqrt_coe, if_neg (not_lt.mpr h.le), if_neg h.ne']

/-- The layer's output is real when every input is. -/
theorem lnrow_real (a x : Fin 128 → EReal) (Wl Wr : Fin 128 → Fin 128 → EReal) (b g be : Fin 128 → EReal)
    (ha : ∀ k, IsR (a k)) (hx : ∀ k, IsR (x k)) (hWl : ∀ j k, IsR (Wl j k)) (hWr : ∀ j k, IsR (Wr j k))
    (hb : ∀ j, IsR (b j)) (hg : ∀ j, IsR (g j)) (hbe : ∀ j, IsR (be j)) (j : Fin 128) :
    IsR (lnrow a x Wl Wr b g be j) := by
  -- the clipped row is a row of reals `c`
  choose c hc using clip_real a x Wl Wr b ha hx hWl hWr hb
  have hc' : clip a x Wl Wr b = fun j => ((c j : ℝ) : EReal) := funext hc
  obtain ⟨g', hg'⟩ := hg j
  obtain ⟨be', hbe'⟩ := hbe j
  obtain ⟨e, he, hepos⟩ := ceps_pos
  -- so its mean `m` is real, each `(c j' - m)²` is real, and the variance `v` is real
  simp only [lnrow, hc', mean128_coe, ← EReal.coe_sub, ← EReal.coe_mul, he, hg', hbe', ← EReal.coe_add]
  -- `v` is a sum of squares times `1/128`, hence nonnegative, and `v + e` is positive
  have hpos : 0 < (∑ j', (c j' - (∑ j, c j) * (1 / 128)) * (c j' - (∑ j, c j) * (1 / 128))) * (1 / 128) + e :=
    add_pos_of_nonneg_of_pos
      (mul_nonneg (Finset.sum_nonneg fun i _ => mul_self_nonneg _) (by norm_num)) hepos
  rw [rsqrt_pos_real hpos]
  simp only [← EReal.coe_mul, ← EReal.coe_add]
  exact ⟨_, rfl⟩

/-- Multiplying by the reciprocal of a nonzero real is dividing by it. -/
theorem mul_recip (s dn : EReal) (hd : ∃ r : ℝ, dn = (r : EReal) ∧ r ≠ 0) :
    s * Ideal.div c1 dn = Ideal.div s dn := by
  obtain ⟨r, rfl, hr⟩ := hd
  rw [Ideal.div_coe hr, Ideal.div_coe hr, c1_eq, EReal.coe_one, one_mul]

/-- A finite sum of reals, from zero, times the reciprocal of a nonzero real, is real. -/
theorem mean_real {ι : Type} (E : Finset ι) (f : ι → EReal) (dn : EReal) (hf : ∀ e, IsR (f e))
    (hd : ∃ r : ℝ, dn = (r : EReal) ∧ r ≠ 0) : IsR ((0 + ∑ e ∈ E, f e) * Ideal.div c1 dn) := by
  obtain ⟨d, rfl, hd⟩ := hd
  choose f' hf' using hf
  obtain rfl : f = fun e => ((f' e : ℝ) : EReal) := funext hf'
  refine ⟨(∑ e ∈ E, f' e) * (1 * (1 / d)), ?_⟩
  rw [zero_add, coe_sum, Ideal.div_coe hd, c1_eq, ← EReal.coe_mul, ← EReal.coe_mul]

/-- Averaging over incoming edges commutes with a fixed linear map of the columns. -/
theorem mean_then_map {ι : Type} {N : Nat} (E : Finset ι) (ρ : ι → Fin N) (h : Fin N → Fin K → EReal) (W : Fin K → EReal)
    (dn : EReal) (hh : ∀ r k, IsR (h r k)) (hW : ∀ k, IsR (W k)) (hd : ∃ r : ℝ, dn = (r : EReal) ∧ r ≠ 0) :
    (0 + ∑ e ∈ E, ∑ k, h (ρ e) k * W k) * Ideal.div c1 dn = ∑ k, Ideal.div (0 + ∑ e ∈ E, h (ρ e) k) dn * W k := by
  obtain ⟨d, rfl, hd⟩ := hd
  choose h' hh' using hh
  choose W' hW' using hW
  obtain rfl : h = fun r k => ((h' r k : ℝ) : EReal) := by funext r k; exact hh' r k
  obtain rfl : W = fun k => ((W' k : ℝ) : EReal) := funext hW'
  -- both sides are coercions of real expressions: `(∑ₑ ∑ₖ h·W) · (1 · (1/d))` and `∑ₖ (∑ₑ h) · (1/d) · W`
  simp only [zero_add, Ideal.div_coe hd, c1_eq, ← EReal.coe_mul, coe_sum]
  congr 1
  -- in the reals: distribute the factor into the sums, swap the two sums, compare term by term
  simp only [Finset.sum_mul]
  rw [Finset.sum_comm]
  refine Finset.sum_congr rfl fun k _ => Finset.sum_congr rfl fun e _ => ?_
  ring

end Cert.RowLayer

end
-- ==== Proof.KernelRows.lean ====
/-
  The four kernel bodies read at one element, on the extended reals.

  Every body works on a block of 4000 node rows. Read at row `p` and column `j` of the block, the two
  normalising bodies give the layer's row function of row `p` of the two feature blocks; the transform body gives
  the dot product of row `p` with row `j` of the weight; the combining body adds the aggregated entry, that dot
  product and the bias. A change of float format does nothing here, a product into a zero accumulator is a plain sum over the
  contracted column, and a lane sum is the sum over the row.
-/
import proofs.«109273_j84954453114989_2_alg».proof.Proof.Gen.KernelIdeal.Skeleton
import proofs.«109273_j84954453114989_2_alg».proof.Proof.RowLayer
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Rows

open Cert.KernelIdeal Cert.KernelIdeal.Gen Idealize.ShloMosaic Idealize.ShloMosaic.ValueIdx Cert.RowLayer

variable {α : Type}

/-! ## Column layouts -/

/-- A vector of `a` entries reshaped to one column reads, at row `p`, entry `p`. -/
theorem col_cast {a : ℕ} (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) := by
  refine shapeCast_apply v h _ _ ?_
  rw [Shape.rowMajor_val_one, Shape.rowMajor_val_two]
  show p.val = p.val * 1 + 0
  omega

/-- A column broadcast along the rows' entries reads, at (p, c), the column's entry `p`. -/
theorem col_bcast {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem rsqrt_at {s : Shape} {φ : FTy} (v : FVec Ideal s φ) (i : s.Idx) : rsqrt v i = Ideal.rsqrt (v i) := rfl

/-! ## A product into a zero accumulator, and a lane sum, at an element -/

theorem mm128_l0 (i : S4000x128.Idx) (q : dot_S4000x128_S128x128_S4000x128_1_0_0_1_n_n.contr.Idx) : (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem mm128_r1 (i : S4000x128.Idx) (q : dot_S4000x128_S128x128_S4000x128_1_0_0_1_n_n.contr.Idx) : (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The 4000×128 by 128×128 product into a zero accumulator at (p, j): the sum over the contracted column. -/
theorem mm128 {φ₁ φ₂ : FTy} (l : FVec Ideal S4000x128 φ₁) (r : FVec Ideal S128x128 φ₂) (p : Fin 4000) (j : Fin 128) :
    FloatOps.matmul dot_S4000x128_S128x128_S4000x128_1_0_0_1_n_n none l r (constant S4000x128 .f32 0x00000000#32) (ix2 p j)
      = ∑ k : Fin 128, l (ix2 p k) * r (ix2 k j) := by
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p j) ((ValueIdx.contrEquiv1 dot_S4000x128_S128x128_S4000x128_1_0_0_1_n_n 128 rfl rfl).symm k) = ix2 p k :=
    funext fun a => Fin.ext (by
      match a with
      | ⟨0, _⟩ => exact mm128_l0 _ _
      | ⟨1, _⟩ => exact (dot_S4000x128_S128x128_S4000x128_1_0_0_1_n_n.lhsIdx_val_of_single rfl _ _).trans hk)
  have er : dot_S4000x128_S128x128_S4000x128_1_0_0_1_n_n.rhsIdx (ix2 p j) ((ValueIdx.contrEquiv1 dot_S4000x128_S128x128_S4000x128_1_0_0_1_n_n 128 rfl rfl).symm k) = ix2 k j :=
    funext fun a => Fin.ext (by
      match a with
      | ⟨0, _⟩ => exact (dot_S4000x128_S128x128_S4000x128_1_0_0_1_n_n.rhsIdx_val_of_single rfl _ _).trans hk
      | ⟨1, _⟩ => exact mm128_r1 _ _)
  rw [el, er]

theorem mm64_l0 (i : S4000x64.Idx) (q : dot_S4000x128_S128x64_S4000x64_1_0_0_1_n_n.contr.Idx) : (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem mm64_r1 (i : S4000x64.Idx) (q : dot_S4000x128_S128x64_S4000x64_1_0_0_1_n_n.contr.Idx) : (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- The 4000×128 by 128×64 product into a zero accumulator at (p, j): the sum over the contracted column. -/
theorem mm64 {φ₁ φ₂ : FTy} (l : FVec Ideal S4000x128 φ₁) (r : FVec Ideal S128x64 φ₂) (p : Fin 4000) (j : Fin 64) :
    FloatOps.matmul dot_S4000x128_S128x64_S4000x64_1_0_0_1_n_n none l r (constant S4000x64 .f32 0x00000000#32) (ix2 p j)
      = ∑ k : Fin 128, l (ix2 p k) * r (ix2 k j) := by
  rw [Ideal.matmul_constant_zero_apply, ← Equiv.sum_comp (ValueIdx.contrEquiv1 dot_S4000x128_S128x64_S4000x64_1_0_0_1_n_n 128 rfl rfl).symm]
  refine Finset.sum_congr rfl fun k _ => ?_
  have hk := ValueIdx.contrEquiv1_symm_val dot_S4000x128_S128x64_S4000x64_1_0_0_1_n_n 128 rfl rfl k
  have el : dot_S4000x128_S128x64_S4000x64_1_0_0_1_n_n.lhsIdx (ix2 p j) ((ValueIdx.contrEquiv1 dot_S4000x128_S128x64_S4000x64_1_0_0_1_n_n 128 rfl rfl).symm k) = ix2 p k :=
    funext fun a => Fin.ext (by
      match a with
      | ⟨0, _⟩ => exact mm64_l0 _ _
      | ⟨1, _⟩ => exact (dot_S4000x128_S128x64_S4000x64_1_0_0_1_n_n.lhsIdx_val_of_single rfl _ _).trans hk)
  have er : dot_S4000x128_S128x64_S4000x64_1_0_0_1_n_n.rhsIdx (ix2 p j) ((ValueIdx.contrEquiv1 dot_S4000x128_S128x64_S4000x64_1_0_0_1_n_n 128 rfl rfl).symm k) = ix2 k j :=
    funext fun a => Fin.ext (by
      match a with
      | ⟨0, _⟩ => exact (dot_S4000x128_S128x64_S4000x64_1_0_0_1_n_n.rhsIdx_val_of_single rfl _ _).trans hk
      | ⟨1, _⟩ => exact mm64_r1 _ _)
  rw [el, er]

/-- A row's lane sum: the sum of the row's 128 entries. -/
theorem lane_sum (v : FVec Ideal S4000x128 .f32) (hφ : FKind.Formats FTy.f32)
    (hacc : (0x00000000#32 : BitVec 32) = FKind.add.neutral FTy.f32 hφ) (p : Fin 4000) :
    multiReduction .add [1] S4000 v 0x00000000#32 reduces_S4000x128_S4000 hφ hacc (ix1 p) = ∑ k : Fin 128, v (ix2 p k) := by
  refine (Ideal.multiReduction_add_single v 0x00000000#32 reduces_S4000x128_S4000 hφ hacc (ix1 p)).trans ?_
  refine Finset.sum_congr rfl fun k _ => ?_
  exact congrArg v (funext fun a => Fin.ext (by match a with | ⟨0, _⟩ => rfl | ⟨1, _⟩ => rfl))

/-- A 128×128 weight transposed reads, at (k, j), the weight at (j, k). -/
theorem tr128 {φ : FTy} (x : FVec Ideal S128x128 φ) (k j : Fin 128) :
    transpose S128x128 [1, 0] x transposes_S128x128_p1_0_S128x128 (ix2 k j) = x (ix2 j k) :=
  transpose_ix2_apply x _ k j

/-- A 64×128 weight transposed reads, at (k, j), the weight at (j, k). -/
theorem tr64 {φ : FTy} (x : FVec Ideal S64x128 φ) (k : Fin 128) (j : Fin 64) :
    transpose S128x64 [1, 0] x transposes_S64x128_p1_0_S128x64 (ix2 k j) = x (ix2 j k) :=
  transpose_ix2_apply x _ k j

/-! ## The normalising body in named pieces -/

/-- The body's pre-activation from the operands that enter the two products: both products and the bias row. -/
def preact (l1 l2 : FVec Ideal S4000x128 .bf16) (r1 r2 : FVec Ideal S128x128 .bf16) (bb : FVec Ideal S1x128 .f32) :
    FVec Ideal S4000x128 .f32 :=
  addf (addf (matmul dot_S4000x128_S128x128_S4000x128_1_0_0_1_n_n none l1
        (transpose S128x128 [1, 0] r1 transposes_S128x128_p1_0_S128x128) (constant S4000x128 .f32 0x00000000#32))
      (matmul dot_S4000x128_S128x128_S4000x128_1_0_0_1_n_n none l2
        (transpose S128x128 [1, 0] r2 transposes_S128x128_p1_0_S128x128) (constant S4000x128 .f32 0x00000000#32)))
    (broadcastTo S4000x128 bb broadcasts_S1x128_S4000x128)

theorem preact_at (l1 l2 : FVec Ideal S4000x128 .bf16) (r1 r2 : FVec Ideal S128x128 .bf16) (bb : FVec Ideal S1x128 .f32)
    (p : Fin 4000) (j : Fin 128) :
    preact l1 l2 r1 r2 bb (ix2 p j)
      = (∑ k : Fin 128, l1 (ix2 p k) * r1 (ix2 j k)) + (∑ k : Fin 128, l2 (ix2 p k) * r2 (ix2 j k)) + bb (ix2 (0 : Fin 1) j) := by
  show FloatOps.matmul _ none l1 _ _ (ix2 p j) + FloatOps.matmul _ none l2 _ _ (ix2 p j) + broadcastTo S4000x128 bb _ (ix2 p j) = _
  rw [mm128, mm128, broadcastTo_1b_ab_apply]
  refine congrArg₂ (· + ·) (congrArg₂ (· + ·) ?_ ?_) rfl
  · exact Finset.sum_congr rfl fun k _ => congrArg (l1 (ix2 p k) * ·) (tr128 r1 k j)
  · exact Finset.sum_congr rfl fun k _ => congrArg (l2 (ix2 p k) * ·) (tr128 r2 k j)

/-- The mean over the 128 columns of every row of a block, as a column. -/
def rowmean (z : FVec Ideal S4000x128 .f32) : FVec Ideal S4000x1 .f32 :=
  divf (shapeCast S4000x1 (multiReduction .add [1] S4000 z 0x00000000#32 reduces_S4000x128_S4000 (.inl rfl) rfl) shapeCasts_S4000_S4000x1)
    (broadcast S4000x1 (Scalar.ofBits .f32 0x43000000#32))

theorem rowmean_at (z : FVec Ideal S4000x128 .f32) (p : Fin 4000) :
    rowmean z (ix2 p (0 : Fin 1)) = mean128 (fun j => z (ix2 p j)) := by
  show Ideal.div (shapeCast S4000x1 _ shapeCasts_S4000_S4000x1 (ix2 p (0 : Fin 1))) c128 = Ideal.div _ c128
  refine congrArg (Ideal.div · c128) ?_
  refine (col_cast _ shapeCasts_S4000_S4000x1 p).trans ?_
  exact lane_sum z _ _ p

/-- The normalisation of a block of pre-activations: clip at zero, centre each row, scale by the reciprocal root of
    the row's variance plus the small constant. -/
def normed (y : FVec Ideal S4000x128 .f32) : FVec Ideal S4000x128 .f32 :=
  mulf (subf (maximumf y (broadcast S4000x128 (Scalar.ofBits .f32 0x00000000#32)))
      (broadcastTo S4000x128 (rowmean (maximumf y (broadcast S4000x128 (Scalar.ofBits .f32 0x00000000#32)))) broadcasts_S4000x1_S4000x128))
    (broadcastTo S4000x128
      (rsqrt (addf
        (rowmean (mulf
          (subf (maximumf y (broadcast S4000x128 (Scalar.ofBits .f32 0x00000000#32)))
            (broadcastTo S4000x128 (rowmean (maximumf y (broadcast S4000x128 (Scalar.ofBits .f32 0x00000000#32)))) broadcasts_S4000x1_S4000x128))
          (subf (maximumf y (broadcast S4000x128 (Scalar.ofBits .f32 0x00000000#32)))
            (broadcastTo S4000x128 (rowmean (maximumf y (broadcast S4000x128 (Scalar.ofBits .f32 0x00000000#32)))) broadcasts_S4000x1_S4000x128))))
        (broadcast S4000x1 (Scalar.ofBits .f32 0x3727C5AC#32))))
      broadcasts_S4000x1_S4000x128)

/-- The clipped entry of a block of pre-activations. -/
theorem clipped_at (y : FVec Ideal S4000x128 .f32) (i : S4000x128.Idx) :
    maximumf y (broadcast S4000x128 (Scalar.ofBits .f32 0x00000000#32)) i = max (y i) 0 := by
  show max (y i) (Ideal.ofBits .f32 0x00000000#32) = _
  rw [Ideal.ofBits_zero_f32]

theorem normed_at (y : FVec Ideal S4000x128 .f32) (p : Fin 4000) (j : Fin 128) :
    normed y (ix2 p j)
      = (max (y (ix2 p j)) 0 - mean128 (fun j' => max (y (ix2 p j')) 0))
        * Ideal.rsqrt (mean128 (fun j' => (max (y (ix2 p j')) 0 - mean128 (fun j'' => max (y (ix2 p j'')) 0))
            * (max (y (ix2 p j')) 0 - mean128 (fun j'' => max (y (ix2 p j'')) 0))) + ceps) := by
  unfold normed
  simp only [mulf_apply, subf_apply, addf_apply, rsqrt_at, col_bcast, rowmean_at, clipped_at, broadcast_apply]
  rfl

theorem pay2_eq (v0 v3 : Vec Ideal S4000x128 .f32) (v5 v7 : Vec Ideal S128x128 .f32) (v14 : Vec Ideal S1x128 .f32) :
    k0_pay2 (F := Ideal) v0 v3 v5 v7 v14
      = normed (preact (truncf .bf16 (shapeCast S4000x128 v0 shapeCasts_S4000x128_S4000x128) bitsLt_bf16_f32) (truncf .bf16 v3 bitsLt_bf16_f32)
          (truncf .bf16 v5 bitsLt_bf16_f32) (truncf .bf16 v7 bitsLt_bf16_f32) (shapeCast S1x128 v14 shapeCasts_S1x128_S1x128)) := rfl

/-! ## The bodies at an element -/

/-- The scale-and-shift payload at (p, j). -/
theorem pay1_at (v37 : FVec Ideal S4000x128 .f32) (v38 v42 : Vec Ideal S1x128 .f32) (p : Fin 4000) (j : Fin 128) :
    (k0_pay1 (F := Ideal) v37 v38 v42 (ix2 p j) : EReal) = v37 (ix2 p j) * v38 (ix2 (0 : Fin 1) j) + v42 (ix2 (0 : Fin 1) j) := by
  show v37 (ix2 p j) * broadcastTo S4000x128 (shapeCast S1x128 v38 shapeCasts_S1x128_S1x128) broadcasts_S1x128_S4000x128 (ix2 p j)
    + broadcastTo S4000x128 (shapeCast S1x128 v42 shapeCasts_S1x128_S1x128) broadcasts_S1x128_S4000x128 (ix2 p j) = _
  rw [broadcastTo_1b_ab_apply, broadcastTo_1b_ab_apply, shapeCast_self, shapeCast_self]

/-- The first normalising body at (p, j): the layer's row function of row `p` of the aggregated block and of the
    feature block. -/
theorem body0_at (x0 x1 : Vec Ideal S4000x128 .f32) (x2 x3 : Vec Ideal S128x128 .f32) (x4 x5 x6 : Vec Ideal S1x128 .f32)
    (p : Fin 4000) (j : Fin 128) :
    (k0_pay1 (F := Ideal) (k0_pay2 x0 x1 x2 x3 x4) x5 x6 (ix2 p j) : EReal)
      = lnrow (fun k => x0 (ix2 p k)) (fun k => x1 (ix2 p k)) (fun j k => x2 (ix2 j k)) (fun j k => x3 (ix2 j k))
          (fun j => x4 (ix2 (0 : Fin 1) j)) (fun j => x5 (ix2 (0 : Fin 1) j)) (fun j => x6 (ix2 (0 : Fin 1) j)) j := by
  rw [pay1_at, pay2_eq, normed_at]
  simp only [preact_at, truncf_apply, shapeCast_self]
  rfl

theorem pay2_eq' (v0 : Vec Ideal S4000x128 .f32) (v3 : Vec Ideal S4000x128 .bf16) (v5 v7 : Vec Ideal S128x128 .f32) (v14 : Vec Ideal S1x128 .f32) :
    k1_pay2 (F := Ideal) v0 v3 v5 v7 v14
      = normed (preact (truncf .bf16 (shapeCast S4000x128 v0 shapeCasts_S4000x128_S4000x128) bitsLt_bf16_f32) (shapeCast S4000x128 v3 shapeCasts_S4000x128_S4000x128)
          (truncf .bf16 v5 bitsLt_bf16_f32) (truncf .bf16 v7 bitsLt_bf16_f32) (shapeCast S1x128 v14 shapeCasts_S1x128_S1x128)) := rfl

theorem pay1_at' (v37 : FVec Ideal S4000x128 .f32) (v38 v42 : Vec Ideal S1x128 .f32) (p : Fin 4000) (j : Fin 128) :
    (k1_pay1 (F := Ideal) v37 v38 v42 (ix2 p j) : EReal) = v37 (ix2 p j) * v38 (ix2 (0 : Fin 1) j) + v42 (ix2 (0 : Fin 1) j) := by
  show v37 (ix2 p j) * broadcastTo S4000x128 (shapeCast S1x128 v38 shapeCasts_S1x128_S1x128) broadcasts_S1x128_S4000x128 (ix2 p j)
    + broadcastTo S4000x128 (shapeCast S1x128 v42 shapeCasts_S1x128_S1x128) broadcasts_S1x128_S4000x128 (ix2 p j) = _
  rw [broadcastTo_1b_ab_apply, broadcastTo_1b_ab_apply, shapeCast_self, shapeCast_self]

/-- The second normalising body at (p, j): the same row function, its feature block held in the narrow format. -/
theorem body1_at (x0 : Vec Ideal S4000x128 .f32) (x1 : Vec Ideal S4000x128 .bf16) (x2 x3 : Vec Ideal S128x128 .f32) (x4 x5 x6 : Vec Ideal S1x128 .f32)
    (p : Fin 4000) (j : Fin 128) :
    (k1_pay1 (F := Ideal) (k1_pay2 x0 x1 x2 x3 x4) x5 x6 (ix2 p j) : EReal)
      = lnrow (fun k => x0 (ix2 p k)) (fun k => x1 (ix2 p k)) (fun j k => x2 (ix2 j k)) (fun j k => x3 (ix2 j k))
          (fun j => x4 (ix2 (0 : Fin 1) j)) (fun j => x5 (ix2 (0 : Fin 1) j)) (fun j => x6 (ix2 (0 : Fin 1) j)) j := by
  rw [pay1_at', pay2_eq', normed_at]
  simp only [preact_at, truncf_apply, shapeCast_self]
  rfl

/-- The transform body at (p, j): row `p` of the block against row `j` of the weight. -/
theorem body2_at (v0 : Vec Ideal S4000x128 .bf16) (v2 : Vec Ideal S64x128 .f32) (p : Fin 4000) (j : Fin 64) :
    (k2_pay1 (F := Ideal) v0 v2 (ix2 p j) : EReal) = ∑ k : Fin 128, (v0 (ix2 p k) : EReal) * v2 (ix2 j k) := by
  show FloatOps.matmul (F := Ideal) dot_S4000x128_S128x64_S4000x64_1_0_0_1_n_n none (shapeCast S4000x128 v0 shapeCasts_S4000x128_S4000x128)
      (transpose S128x64 [1, 0] (truncf (F := Ideal) .bf16 v2 bitsLt_bf16_f32) transposes_S64x128_p1_0_S128x64) (constant S4000x64 .f32 0x00000000#32) (ix2 p j) = _
  rw [mm64, shapeCast_self]
  exact Finset.sum_congr rfl fun k _ => congrArg ((v0 (ix2 p k) : EReal) * ·) (tr64 (truncf (F := Ideal) .bf16 v2 bitsLt_bf16_f32) k j)

/-- The combining body at (p, j): the aggregated entry, plus row `p` against row `j` of the weight, plus the bias. -/
theorem body3_at (v0 : Vec Ideal S4000x64 .f32) (v2 : Vec Ideal S4000x128 .bf16) (v4 : Vec Ideal S64x128 .f32) (v9 : Vec Ideal S1x64 .f32)
    (p : Fin 4000) (j : Fin 64) :
    (k3_pay1 (F := Ideal) v0 v2 v4 v9 (ix2 p j) : EReal)
      = v0 (ix2 p j) + (∑ k : Fin 128, (v2 (ix2 p k) : EReal) * v4 (ix2 j k)) + v9 (ix2 (0 : Fin 1) j) := by
  show shapeCast S4000x64 v0 shapeCasts_S4000x64_S4000x64 (ix2 p j)
      + FloatOps.matmul (F := Ideal) dot_S4000x128_S128x64_S4000x64_1_0_0_1_n_n none (shapeCast S4000x128 v2 shapeCasts_S4000x128_S4000x128)
        (transpose S128x64 [1, 0] (truncf (F := Ideal) .bf16 v4 bitsLt_bf16_f32) transposes_S64x128_p1_0_S128x64) (constant S4000x64 .f32 0x00000000#32) (ix2 p j)
      + broadcastTo S4000x64 (shapeCast S1x64 v9 shapeCasts_S1x64_S1x64) broadcasts_S1x64_S4000x64 (ix2 p j) = _
  rw [mm64, broadcastTo_1b_ab_apply, shapeCast_self, shapeCast_self, shapeCast_self]
  refine congrArg₂ (· + ·) (congrArg (v0 (ix2 p j) + ·) ?_) rfl
  exact Finset.sum_congr rfl fun k _ => congrArg ((v2 (ix2 p k) : EReal) * ·) (tr64 (truncf (F := Ideal) .bf16 v4 bitsLt_bf16_f32) k j)

/-! ## The bodies at a general element of the block -/

theorem body0_at' (x0 x1 : Vec Ideal S4000x128 .f32) (x2 x3 : Vec Ideal S128x128 .f32) (x4 x5 x6 : Vec Ideal S1x128 .f32)
    (y : S4000x128.Idx) :
    (k0_pay1 (F := Ideal) (k0_pay2 x0 x1 x2 x3 x4) x5 x6 y : EReal)
      = lnrow (fun k => x0 (ix2 (y 0) k)) (fun k => x1 (ix2 (y 0) k)) (fun j k => x2 (ix2 j k)) (fun j k => x3 (ix2 j k))
          (fun j => x4 (ix2 (0 : Fin 1) j)) (fun j => x5 (ix2 (0 : Fin 1) j)) (fun j => x6 (ix2 (0 : Fin 1) j)) (y 1) := by
  exact (congrArg (k0_pay1 (F := Ideal) (k0_pay2 x0 x1 x2 x3 x4) x5 x6) (eq_ix2 y)).trans (body0_at x0 x1 x2 x3 x4 x5 x6 (y 0) (y 1))

theorem body1_at' (x0 : Vec Ideal S4000x128 .f32) (x1 : Vec Ideal S4000x128 .bf16) (x2 x3 : Vec Ideal S128x128 .f32) (x4 x5 x6 : Vec Ideal S1x128 .f32)
    (y : S4000x128.Idx) :
    (k1_pay1 (F := Ideal) (k1_pay2 x0 x1 x2 x3 x4) x5 x6 y : EReal)
      = lnrow (fun k => x0 (ix2 (y 0) k)) (fun k => x1 (ix2 (y 0) k)) (fun j k => x2 (ix2 j k)) (fun j k => x3 (ix2 j k))
          (fun j => x4 (ix2 (0 : Fin 1) j)) (fun j => x5 (ix2 (0 : Fin 1) j)) (fun j => x6 (ix2 (0 : Fin 1) j)) (y 1) := by
  exact (congrArg (k1_pay1 (F := Ideal) (k1_pay2 x0 x1 x2 x3 x4) x5 x6) (eq_ix2 y)).trans (body1_at x0 x1 x2 x3 x4 x5 x6 (y 0) (y 1))

theorem body2_at' (v0 : Vec Ideal S4000x128 .bf16) (v2 : Vec Ideal S64x128 .f32) (y : S4000x64.Idx) :
    (k2_pay1 (F := Ideal) v0 v2 y : EReal) = ∑ k : Fin 128, (v0 (ix2 (y 0) k) : EReal) * v2 (ix2 (y 1) k) := by
  exact (congrArg (k2_pay1 (F := Ideal) v0 v2) (eq_ix2 y)).trans (body2_at v0 v2 (y 0) (y 1))

theorem body3_at' (v0 : Vec Ideal S4000x64 .f32) (v2 : Vec Ideal S4000x128 .bf16) (v4 : Vec Ideal S64x128 .f32) (v9 : Vec Ideal S1x64 .f32)
    (y : S4000x64.Idx) :
    (k3_pay1 (F := Ideal) v0 v2 v4 v9 y : EReal)
      = v0 (ix2 (y 0) (y 1)) + (∑ k : Fin 128, (v2 (ix2 (y 0) k) : EReal) * v4 (ix2 (y 1) k)) + v9 (ix2 (0 : Fin 1) (y 1)) := by
  exact (congrArg (k3_pay1 (F := Ideal) v0 v2 v4 v9) (eq_ix2 y)).trans (body3_at v0 v2 v4 v9 (y 0) (y 1))

end Cert.KernelIdeal.Rows

end
-- ==== Proof.KernelBlocks.lean ====
/-
  From blocks to arrays: what each region leaves in its output array, as one function of the arrays it finds.

  Each region runs over 25 grid points; point `t` works on node rows 4000·t … 4000·t + 3999 and writes them back.
  The row blocks of the inputs move with the output's block, the weights and the bias rows are the same whole block
  at every point, and the 25 output blocks tile the 100000 rows. So the output array holds, at node `n`, the body's
  row function of row `n` of the row-blocked inputs.
  (The steps — the index maps decided over the grid, what a point writes back, membership in a block, the cover —
  are those of a closed form over blocks that tile the array.)
-/
import proofs.«109273_j84954453114989_2_alg».proof.Proof.Gen.KernelIdeal.Frame
import proofs.«109273_j84954453114989_2_alg».proof.Proof.KernelRows

set_option maxRecDepth 16384

noncomputable section

open scoped BigOperators

namespace Cert.KernelIdeal.Blocks

open Cert.KernelIdeal Cert.KernelIdeal.Gen Cert.KernelIdeal.Rows Cert.RowLayer
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)

variable (V : (c : Dev nD) → (b : Ref sig .tc) → Buf (Elt Ideal) ((c : Thread nD τ).loc b))

/-- A row against a row: the sum of the products of their 128 entries. -/
abbrev dotRow (a b : Fin 128 → EReal) : EReal := ∑ k : Fin 128, a k * b k

/-- An entry plus a row against a row plus a bias entry. -/
abbrev combRow (x : EReal) (a b : Fin 128 → EReal) (bias : EReal) : EReal := x + dotRow a b + bias

theorem hz : (![0, 0] : Fin 2 → Nat) = fun _ => 0 := funext fun a => by fin_cases a <;> rfl

/-- The layer's row function respects equal inputs. -/
theorem lnrow_congr {a a' x x' : Fin 128 → EReal} {Wl Wl' Wr Wr' : Fin 128 → Fin 128 → EReal} {b b' g g' be be' : Fin 128 → EReal}
    {j j' : Fin 128} (ha : ∀ k, a k = a' k) (hx : ∀ k, x k = x' k) (hWl : ∀ j k, Wl j k = Wl' j k) (hWr : ∀ j k, Wr j k = Wr' j k)
    (hb : ∀ j, b j = b' j) (hg : ∀ j, g j = g' j) (hbe : ∀ j, be j = be' j) (hj : j = j') :
    lnrow a x Wl Wr b g be j = lnrow a' x' Wl' Wr' b' g' be' j' := by
  obtain rfl : a = a' := funext ha
  obtain rfl : x = x' := funext hx
  obtain rfl : Wl = Wl' := funext fun j => funext (hWl j)
  obtain rfl : Wr = Wr' := funext fun j => funext (hWr j)
  obtain rfl : b = b' := funext hb
  obtain rfl : g = g' := funext hg
  obtain rfl : be = be' := funext hbe
  rw [hj]

/-! ## Region 0 -/

/-- What region 0 leaves at node `i 0`, column `i 1`: the first layer's row function of the node's aggregated row and its own feature row. -/
def G0 (c : Dev nD) : S100000x128.Idx → EReal := fun i =>
  lnrow (fun k => V c main_v25 (ix2 (⟨(i 0).val, (i 0).isLt⟩ : Fin 100000) k))
    (fun k => V c main_arg0 (ix2 (⟨(i 0).val, (i 0).isLt⟩ : Fin 100000) k))
    (fun j k => V c main_arg2 (ix2 j k)) (fun j k => V c main_arg3 (ix2 j k))
    (fun j => V c main_v26 (ix2 (0 : Fin 1) j)) (fun j => V c main_v27 (ix2 (0 : Fin 1) j)) (fun j => V c main_v28 (ix2 (0 : Fin 1) j))
    (⟨(i 1).val, (i 1).isLt⟩ : Fin 128)

set_option maxHeartbeats 4000000 in
/-- The index maps over the grid: the two row-blocked inputs move with the output, everything else stays. -/
theorem idx_facts0 : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

set_option maxHeartbeats 4000000 in
/-- What point `t` writes back is block `t` of `G0`. -/
theorem flushed0_eq (c : Dev nD) (t : Fin cfg0.N) :
    (dat0 V c).flushed 7 t = ((cfg0.win 7).blk t).view.read (Elt Ideal) (G0 V c) := by
  show (cfg0.win 7).cut (grid0.coords t) ((dat0 V c).after 7 t) = _
  rw [after0_7]
  unfold out0_7
  rw [View.canon_unit_zero hz]
  simp only [View.ld_unit_zero (S := S4000x128) hz, View.ld_unit_zero (S := S128x128) hz, View.ld_unit_zero (S := S1x128) hz]
  obtain ⟨e00, e01, e10, e11, e20, e21, e30, e31, e40, e41, e50, e51, e60, e61, e70, e71⟩ := idx_facts0 t
  funext y
  show k0_pay1 (k0_pay2 (iblk0 V c 0 t) (iblk0 V c 1 t) (iblk0 V c 2 t) (iblk0 V c 3 t) (iblk0 V c 4 t)) (iblk0 V c 5 t) (iblk0 V c 6 t) y
    = G0 V c (((cfg0.win 7).blk t).view.emb y)
  refine (body0_at' (iblk0 V c 0 t) (iblk0 V c 1 t) (iblk0 V c 2 t) (iblk0 V c 3 t) (iblk0 V c 4 t) (iblk0 V c 5 t) (iblk0 V c 6 t) y).trans ?_
  refine lnrow_congr (fun k => ?_) (fun k => ?_) (fun j k => ?_) (fun j k => ?_) (fun j => ?_) (fun j => ?_) (fun j => ?_) ?_
  · show V c main_v25 (((cfg0.win 0).blk t).view.emb (ix2 (y 0) k)) = V c main_v25 _
    refine congrArg (V c main_v25) (funext fun a => Fin.ext ?_)
    match a with
    | ⟨0, _⟩ => show win0_0.index t (0 : Fin 2) * 4000 + 1 * (y 0).val = win0_7.index t (0 : Fin 2) * 4000 + 1 * (y 0).val; omega
    | ⟨1, _⟩ => show win0_0.index t (1 : Fin 2) * 128 + 1 * k.val = k.val; omega
  · show V c main_arg0 (((cfg0.win 1).blk t).view.emb (ix2 (y 0) k)) = V c main_arg0 _
    refine congrArg (V c main_arg0) (funext fun a => Fin.ext ?_)
    match a with
    | ⟨0, _⟩ => show win0_1.index t (0 : Fin 2) * 4000 + 1 * (y 0).val = win0_7.index t (0 : Fin 2) * 4000 + 1 * (y 0).val; omega
    | ⟨1, _⟩ => show win0_1.index t (1 : Fin 2) * 128 + 1 * k.val = k.val; omega
  · show V c main_arg2 (((cfg0.win 2).blk t).view.emb (ix2 j k)) = V c main_arg2 _
    refine congrArg (V c main_arg2) (funext fun a => Fin.ext ?_)
    match a with
    | ⟨0, _⟩ => show win0_2.index t (0 : Fin 2) * 128 + 1 * j.val = j.val; omega
    | ⟨1, _⟩ => show win0_2.index t (1 : Fin 2) * 128 + 1 * k.val = k.val; omega
  · show V c main_arg3 (((cfg0.win 3).blk t).view.emb (ix2 j k)) = V c main_arg3 _
    refine congrArg (V c main_arg3) (funext fun a => Fin.ext ?_)
    match a with
    | ⟨0, _⟩ => show win0_3.index t (0 : Fin 2) * 128 + 1 * j.val = j.val; omega
    | ⟨1, _⟩ => show win0_3.index t (1 : Fin 2) * 128 + 1 * k.val = k.val; omega
  · show V c main_v26 (((cfg0.win 4).blk t).view.emb (ix2 (0 : Fin 1) j)) = V c main_v26 _
    refine congrArg (V c main_v26) (funext fun a => Fin.ext ?_)
    match a with
    | ⟨0, _⟩ => show win0_4.index t (0 : Fin 2) * 1 + 1 * 0 = 0; omega
    | ⟨1, _⟩ => show win0_4.index t (1 : Fin 2) * 128 + 1 * j.val = j.val; omega
  · show V c main_v27 (((cfg0.win 5).blk t).view.emb (ix2 (0 : Fin 1) j)) = V c main_v27 _
    refine congrArg (V c main_v27) (funext fun a => Fin.ext ?_)
    match a with
    | ⟨0, _⟩ => show win0_5.index t (0 : Fin 2) * 1 + 1 * 0 = 0; omega
    | ⟨1, _⟩ => show win0_5.index t (1 : Fin 2) * 128 + 1 * j.val = j.val; omega
  · show V c main_v28 (((cfg0.win 6).blk t).view.emb (ix2 (0 : Fin 1) j)) = V c main_v28 _
    refine congrArg (V c main_v28) (funext fun a => Fin.ext ?_)
    match a with
    | ⟨0, _⟩ => show win0_6.index t (0 : Fin 2) * 1 + 1 * 0 = 0; omega
    | ⟨1, _⟩ => show win0_6.index t (1 : Fin 2) * 128 + 1 * j.val = j.val; omega
  · refine Fin.ext ?_
    show (y 1).val = win0_7.index t (1 : Fin 2) * 128 + 1 * (y 1).val
    omega

/-- An index is in point `t`'s output block iff each coordinate is in the block's range. -/
theorem mem_blk0 (t : Fin cfg0.N) (i : S100000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v29).slice (win0_7.rect t)).set ↔ _
  rw [View.set_slice_whole, Rect.mem_set_unit]
  exact Iff.rfl

/-- The 25 output blocks cover the array: node `n` is in block `n / 4000`. -/
theorem cover0 (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  refine ⟨⟨(i 0).val / 4000, by show (i 0).val / 4000 < 25; omega⟩, flush0_7 _, ?_⟩
  rw [mem_blk0]
  obtain ⟨-, -, -, -, -, -, -, -, -, -, -, -, -, -, e70, e71⟩ := idx_facts0 ⟨(i 0).val / 4000, by show (i 0).val / 4000 < 25; omega⟩
  intro a
  match a with
  | ⟨0, _⟩ =>
    show win0_7.index _ (0 : Fin 2) * 4000 ≤ (i 0).val ∧ (i 0).val < win0_7.index _ (0 : Fin 2) * 4000 + 4000
    rw [e70]; show (i 0).val / 4000 * 4000 ≤ (i 0).val ∧ (i 0).val < (i 0).val / 4000 * 4000 + 4000; omega
  | ⟨1, _⟩ =>
    show win0_7.index _ (1 : Fin 2) * 128 ≤ (i 1).val ∧ (i 1).val < win0_7.index _ (1 : Fin 2) * 128 + 128
    rw [e71]; omega

/-- Region 0's output array after the region. -/
theorem final0 (c : Dev nD) : (dat0 V c).arrAt 7 cfg0.N = G0 V c :=
  (dat0 V c).arrAt_eq_of_cover 7 (G0 V c) (fun t _ => flushed0_eq V c t) (cover0)

/-! ## Region 1 -/

/-- What region 1 leaves at node `i 0`, column `i 1`: the second layer's row function of the node's aggregated row and its first-layer row. -/
def G1 (c : Dev nD) : S100000x128.Idx → EReal := fun i =>
  lnrow (fun k => V c main_v43 (ix2 (⟨(i 0).val, (i 0).isLt⟩ : Fin 100000) k))
    (fun k => V c main_v29 (ix2 (⟨(i 0).val, (i 0).isLt⟩ : Fin 100000) k))
    (fun j k => V c main_arg7 (ix2 j k)) (fun j k => V c main_arg8 (ix2 j k))
    (fun j => V c main_v44 (ix2 (0 : Fin 1) j)) (fun j => V c main_v45 (ix2 (0 : Fin 1) j)) (fun j => V c main_v46 (ix2 (0 : Fin 1) j))
    (⟨(i 1).val, (i 1).isLt⟩ : Fin 128)

set_option maxHeartbeats 4000000 in
/-- The index maps over the grid: the two row-blocked inputs move with the output, everything else stays. -/
theorem idx_facts1 : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

set_option maxHeartbeats 4000000 in
/-- What point `t` writes back is block `t` of `G1`. -/
theorem flushed1_eq (c : Dev nD) (t : Fin cfg1.N) :
    (dat1 V c).flushed 7 t = ((cfg1.win 7).blk t).view.read (Elt Ideal) (G1 V c) := by
  show (cfg1.win 7).cut (grid1.coords t) ((dat1 V c).after 7 t) = _
  rw [after1_7]
  unfold out1_7
  rw [View.canon_unit_zero hz]
  simp only [View.ld_unit_zero (S := S4000x128) hz, View.ld_unit_zero (S := S128x128) hz, View.ld_unit_zero (S := S1x128) hz]
  obtain ⟨e00, e01, e10, e11, e20, e21, e30, e31, e40, e41, e50, e51, e60, e61, e70, e71⟩ := idx_facts1 t
  funext y
  show k1_pay1 (k1_pay2 (iblk1 V c 0 t) (iblk1 V c 1 t) (iblk1 V c 2 t) (iblk1 V c 3 t) (iblk1 V c 4 t)) (iblk1 V c 5 t) (iblk1 V c 6 t) y
    = G1 V c (((cfg1.win 7).blk t).view.emb y)
  refine (body1_at' (iblk1 V c 0 t) (iblk1 V c 1 t) (iblk1 V c 2 t) (iblk1 V c 3 t) (iblk1 V c 4 t) (iblk1 V c 5 t) (iblk1 V c 6 t) y).trans ?_
  refine lnrow_congr (fun k => ?_) (fun k => ?_) (fun j k => ?_) (fun j k => ?_) (fun j => ?_) (fun j => ?_) (fun j => ?_) ?_
  · show V c main_v43 (((cfg1.win 0).blk t).view.emb (ix2 (y 0) k)) = V c main_v43 _
    refine congrArg (V c main_v43) (funext fun a => Fin.ext ?_)
    match a with
    | ⟨0, _⟩ => show win1_0.index t (0 : Fin 2) * 4000 + 1 * (y 0).val = win1_7.index t (0 : Fin 2) * 4000 + 1 * (y 0).val; omega
    | ⟨1, _⟩ => show win1_0.index t (1 : Fin 2) * 128 + 1 * k.val = k.val; omega
  · show V c main_v29 (((cfg1.win 1).blk t).view.emb (ix2 (y 0) k)) = V c main_v29 _
    refine congrArg (V c main_v29) (funext fun a => Fin.ext ?_)
    match a with
    | ⟨0, _⟩ => show win1_1.index t (0 : Fin 2) * 4000 + 1 * (y 0).val = win1_7.index t (0 : Fin 2) * 4000 + 1 * (y 0).val; omega
    | ⟨1, _⟩ => show win1_1.index t (1 : Fin 2) * 128 + 1 * k.val = k.val; omega
  · show V c main_arg7 (((cfg1.win 2).blk t).view.emb (ix2 j k)) = V c main_arg7 _
    refine congrArg (V c main_arg7) (funext fun a => Fin.ext ?_)
    match a with
    | ⟨0, _⟩ => show win1_2.index t (0 : Fin 2) * 128 + 1 * j.val = j.val; omega
    | ⟨1, _⟩ => show win1_2.index t (1 : Fin 2) * 128 + 1 * k.val = k.val; omega
  · show V c main_arg8 (((cfg1.win 3).blk t).view.emb (ix2 j k)) = V c main_arg8 _
    refine congrArg (V c main_arg8) (funext fun a => Fin.ext ?_)
    match a with
    | ⟨0, _⟩ => show win1_3.index t (0 : Fin 2) * 128 + 1 * j.val = j.val; omega
    | ⟨1, _⟩ => show win1_3.index t (1 : Fin 2) * 128 + 1 * k.val = k.val; omega
  · show V c main_v44 (((cfg1.win 4).blk t).view.emb (ix2 (0 : Fin 1) j)) = V c main_v44 _
    refine congrArg (V c main_v44) (funext fun a => Fin.ext ?_)
    match a with
    | ⟨0, _⟩ => show win1_4.index t (0 : Fin 2) * 1 + 1 * 0 = 0; omega
    | ⟨1, _⟩ => show win1_4.index t (1 : Fin 2) * 128 + 1 * j.val = j.val; omega
  · show V c main_v45 (((cfg1.win 5).blk t).view.emb (ix2 (0 : Fin 1) j)) = V c main_v45 _
    refine congrArg (V c main_v45) (funext fun a => Fin.ext ?_)
    match a with
    | ⟨0, _⟩ => show win1_5.index t (0 : Fin 2) * 1 + 1 * 0 = 0; omega
    | ⟨1, _⟩ => show win1_5.index t (1 : Fin 2) * 128 + 1 * j.val = j.val; omega
  · show V c main_v46 (((cfg1.win 6).blk t).view.emb (ix2 (0 : Fin 1) j)) = V c main_v46 _
    refine congrArg (V c main_v46) (funext fun a => Fin.ext ?_)
    match a with
    | ⟨0, _⟩ => show win1_6.index t (0 : Fin 2) * 1 + 1 * 0 = 0; omega
    | ⟨1, _⟩ => show win1_6.index t (1 : Fin 2) * 128 + 1 * j.val = j.val; omega
  · refine Fin.ext ?_
    show (y 1).val = win1_7.index t (1 : Fin 2) * 128 + 1 * (y 1).val
    omega

/-- An index is in point `t`'s output block iff each coordinate is in the block's range. -/
theorem mem_blk1 (t : Fin cfg1.N) (i : S100000x128.Idx) :
    i ∈ ((cfg1.win 7).blk t).view.set ↔ ∀ a : Fin 2, win1_7.index t a * S4000x128.size a ≤ (i a).val ∧ (i a).val < win1_7.index t a * S4000x128.size a + S4000x128.size a := by
  show i ∈ ((View.whole main_v47).slice (win1_7.rect t)).set ↔ _
  rw [View.set_slice_whole, Rect.mem_set_unit]
  exact Iff.rfl

/-- The 25 output blocks cover the array: node `n` is in block `n / 4000`. -/
theorem cover1 (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  refine ⟨⟨(i 0).val / 4000, by show (i 0).val / 4000 < 25; omega⟩, flush1_7 _, ?_⟩
  rw [mem_blk1]
  obtain ⟨-, -, -, -, -, -, -, -, -, -, -, -, -, -, e70, e71⟩ := idx_facts1 ⟨(i 0).val / 4000, by show (i 0).val / 4000 < 25; omega⟩
  intro a
  match a with
  | ⟨0, _⟩ =>
    show win1_7.index _ (0 : Fin 2) * 4000 ≤ (i 0).val ∧ (i 0).val < win1_7.index _ (0 : Fin 2) * 4000 + 4000
    rw [e70]; show (i 0).val / 4000 * 4000 ≤ (i 0).val ∧ (i 0).val < (i 0).val / 4000 * 4000 + 4000; omega
  | ⟨1, _⟩ =>
    show win1_7.index _ (1 : Fin 2) * 128 ≤ (i 1).val ∧ (i 1).val < win1_7.index _ (1 : Fin 2) * 128 + 128
    rw [e71]; omega

/-- Region 1's output array after the region. -/
theorem final1 (c : Dev nD) : (dat1 V c).arrAt 7 cfg1.N = G1 V c :=
  (dat1 V c).arrAt_eq_of_cover 7 (G1 V c) (fun t _ => flushed1_eq V c t) (cover1)

/-! ## Region 2 -/

/-- What region 2 leaves at node `i 0`, column `i 1`: the node's second-layer row against row `i 1` of the last
    neighbour weight. -/
def G2 (c : Dev nD) : S100000x64.Idx → EReal := fun i =>
  dotRow (fun k => V c main_v47 (ix2 (⟨(i 0).val, (i 0).isLt⟩ : Fin 100000) k)) (fun k => V c main_arg12 (ix2 (⟨(i 1).val, (i 1).isLt⟩ : Fin 64) k))

set_option maxHeartbeats 4000000 in
theorem idx_facts2 : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

set_option maxHeartbeats 4000000 in
/-- What point `t` writes back is block `t` of `G2`. -/
theorem flushed2_eq (c : Dev nD) (t : Fin cfg2.N) :
    (dat2 V c).flushed 2 t = ((cfg2.win 2).blk t).view.read (Elt Ideal) (G2 V c) := by
  show (cfg2.win 2).cut (grid2.coords t) ((dat2 V c).after 2 t) = _
  rw [after2_2]
  unfold out2_2
  rw [View.canon_unit_zero hz]
  simp only [View.ld_unit_zero (S := S4000x128) hz, View.ld_unit_zero (S := S64x128) hz]
  obtain ⟨e00, e01, e10, e11, e20, e21⟩ := idx_facts2 t
  funext y
  show k2_pay1 (iblk2 V c 0 t) (iblk2 V c 1 t) y = G2 V c (((cfg2.win 2).blk t).view.emb y)
  refine (body2_at' (iblk2 V c 0 t) (iblk2 V c 1 t) y).trans ?_
  show _ = dotRow _ _
  refine Finset.sum_congr rfl fun k _ => congrArg₂ (· * ·) ?_ ?_
  · show V c main_v47 (((cfg2.win 0).blk t).view.emb (ix2 (y 0) k)) = V c main_v47 _
    refine congrArg (V c main_v47) (funext fun a => Fin.ext ?_)
    match a with
    | ⟨0, _⟩ => show win2_0.index t (0 : Fin 2) * 4000 + 1 * (y 0).val = win2_2.index t (0 : Fin 2) * 4000 + 1 * (y 0).val; omega
    | ⟨1, _⟩ => show win2_0.index t (1 : Fin 2) * 128 + 1 * k.val = k.val; omega
  · show V c main_arg12 (((cfg2.win 1).blk t).view.emb (ix2 (y 1) k)) = V c main_arg12 _
    refine congrArg (V c main_arg12) (funext fun a => Fin.ext ?_)
    match a with
    | ⟨0, _⟩ => show win2_1.index t (0 : Fin 2) * 64 + 1 * (y 1).val = win2_2.index t (1 : Fin 2) * 64 + 1 * (y 1).val; omega
    | ⟨1, _⟩ => show win2_1.index t (1 : Fin 2) * 128 + 1 * k.val = k.val; omega

theorem mem_blk2 (t : Fin cfg2.N) (i : S100000x64.Idx) :
    i ∈ ((cfg2.win 2).blk t).view.set ↔ ∀ a : Fin 2, win2_2.index t a * S4000x64.size a ≤ (i a).val ∧ (i a).val < win2_2.index t a * S4000x64.size a + S4000x64.size a := by
  show i ∈ ((View.whole main_v48).slice (win2_2.rect t)).set ↔ _
  rw [View.set_slice_whole, Rect.mem_set_unit]
  exact Iff.rfl

theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  refine ⟨⟨(i 0).val / 4000, by show (i 0).val / 4000 < 25; omega⟩, flush2_2 _, ?_⟩
  rw [mem_blk2]
  obtain ⟨-, -, -, -, e20, e21⟩ := idx_facts2 ⟨(i 0).val / 4000, by show (i 0).val / 4000 < 25; omega⟩
  intro a
  match a with
  | ⟨0, _⟩ =>
    show win2_2.index _ (0 : Fin 2) * 4000 ≤ (i 0).val ∧ (i 0).val < win2_2.index _ (0 : Fin 2) * 4000 + 4000
    rw [e20]; show (i 0).val / 4000 * 4000 ≤ (i 0).val ∧ (i 0).val < (i 0).val / 4000 * 4000 + 4000; omega
  | ⟨1, _⟩ =>
    show win2_2.index _ (1 : Fin 2) * 64 ≤ (i 1).val ∧ (i 1).val < win2_2.index _ (1 : Fin 2) * 64 + 64
    rw [e21]; omega

/-- Region 2's output array after the region. -/
theorem final2 (c : Dev nD) : (dat2 V c).arrAt 2 cfg2.N = G2 V c :=
  (dat2 V c).arrAt_eq_of_cover 2 (G2 V c) (fun t _ => flushed2_eq V c t) (cover2)

/-! ## Region 3 -/

/-- What region 3 leaves at node `i 0`, column `i 1`: the aggregated entry, plus the node's second-layer row against
    row `i 1` of the last self weight, plus the bias. -/
def G3 (c : Dev nD) : S100000x64.Idx → EReal := fun i =>
  combRow (V c main_v62 (ix2 (⟨(i 0).val, (i 0).isLt⟩ : Fin 100000) (⟨(i 1).val, (i 1).isLt⟩ : Fin 64)))
    (fun k => V c main_v47 (ix2 (⟨(i 0).val, (i 0).isLt⟩ : Fin 100000) k)) (fun k => V c main_arg13 (ix2 (⟨(i 1).val, (i 1).isLt⟩ : Fin 64) k))
    (V c main_v63 (ix2 (0 : Fin 1) (⟨(i 1).val, (i 1).isLt⟩ : Fin 64)))

set_option maxHeartbeats 4000000 in
theorem idx_facts3 : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

set_option maxHeartbeats 4000000 in
/-- What point `t` writes back is block `t` of `G3`. -/
theorem flushed3_eq (c : Dev nD) (t : Fin cfg3.N) :
    (dat3 V c).flushed 4 t = ((cfg3.win 4).blk t).view.read (Elt Ideal) (G3 V c) := by
  show (cfg3.win 4).cut (grid3.coords t) ((dat3 V c).after 4 t) = _
  rw [after3_4]
  unfold out3_4
  rw [View.canon_unit_zero hz]
  simp only [View.ld_unit_zero (S := S4000x64) hz, View.ld_unit_zero (S := S4000x128) hz, View.ld_unit_zero (S := S64x128) hz, View.ld_unit_zero (S := S1x64) hz]
  obtain ⟨e00, e01, e10, e11, e20, e21, e30, e31, e40, e41⟩ := idx_facts3 t
  funext y
  show k3_pay1 (iblk3 V c 0 t) (iblk3 V c 1 t) (iblk3 V c 2 t) (iblk3 V c 3 t) y = G3 V c (((cfg3.win 4).blk t).view.emb y)
  refine (body3_at' (iblk3 V c 0 t) (iblk3 V c 1 t) (iblk3 V c 2 t) (iblk3 V c 3 t) y).trans ?_
  show _ = combRow _ _ _ _
  refine congrArg₂ (· + ·) (congrArg₂ (· + ·) ?_ (Finset.sum_congr rfl fun k _ => congrArg₂ (· * ·) ?_ ?_)) ?_
  · show V c main_v62 (((cfg3.win 0).blk t).view.emb (ix2 (y 0) (y 1))) = V c main_v62 _
    refine congrArg (V c main_v62) (funext fun a => Fin.ext ?_)
    match a with
    | ⟨0, _⟩ => show win3_0.index t (0 : Fin 2) * 4000 + 1 * (y 0).val = win3_4.index t (0 : Fin 2) * 4000 + 1 * (y 0).val; omega
    | ⟨1, _⟩ => show win3_0.index t (1 : Fin 2) * 64 + 1 * (y 1).val = win3_4.index t (1 : Fin 2) * 64 + 1 * (y 1).val; omega
  · show V c main_v47 (((cfg3.win 1).blk t).view.emb (ix2 (y 0) k)) = V c main_v47 _
    refine congrArg (V c main_v47) (funext fun a => Fin.ext ?_)
    match a with
    | ⟨0, _⟩ => show win3_1.index t (0 : Fin 2) * 4000 + 1 * (y 0).val = win3_4.index t (0 : Fin 2) * 4000 + 1 * (y 0).val; omega
    | ⟨1, _⟩ => show win3_1.index t (1 : Fin 2) * 128 + 1 * k.val = k.val; omega
  · show V c main_arg13 (((cfg3.win 2).blk t).view.emb (ix2 (y 1) k)) = V c main_arg13 _
    refine congrArg (V c main_arg13) (funext fun a => Fin.ext ?_)
    match a with
    | ⟨0, _⟩ => show win3_2.index t (0 : Fin 2) * 64 + 1 * (y 1).val = win3_4.index t (1 : Fin 2) * 64 + 1 * (y 1).val; omega
    | ⟨1, _⟩ => show win3_2.index t (1 : Fin 2) * 128 + 1 * k.val = k.val; omega
  · show V c main_v63 (((cfg3.win 3).blk t).view.emb (ix2 (0 : Fin 1) (y 1))) = V c main_v63 _
    refine congrArg (V c main_v63) (funext fun a => Fin.ext ?_)
    match a with
    | ⟨0, _⟩ => show win3_3.index t (0 : Fin 2) * 1 + 1 * 0 = 0; omega
    | ⟨1, _⟩ => show win3_3.index t (1 : Fin 2) * 64 + 1 * (y 1).val = win3_4.index t (1 : Fin 2) * 64 + 1 * (y 1).val; omega

theorem mem_blk3 (t : Fin cfg3.N) (i : S100000x64.Idx) :
    i ∈ ((cfg3.win 4).blk t).view.set ↔ ∀ a : Fin 2, win3_4.index t a * S4000x64.size a ≤ (i a).val ∧ (i a).val < win3_4.index t a * S4000x64.size a + S4000x64.size a := by
  show i ∈ ((View.whole main_v64).slice (win3_4.rect t)).set ↔ _
  rw [View.set_slice_whole, Rect.mem_set_unit]
  exact Iff.rfl

theorem cover3 (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  refine ⟨⟨(i 0).val / 4000, by show (i 0).val / 4000 < 25; omega⟩, flush3_4 _, ?_⟩
  rw [mem_blk3]
  obtain ⟨-, -, -, -, -, -, -, -, e40, e41⟩ := idx_facts3 ⟨(i 0).val / 4000, by show (i 0).val / 4000 < 25; omega⟩
  intro a
  match a with
  | ⟨0, _⟩ =>
    show win3_4.index _ (0 : Fin 2) * 4000 ≤ (i 0).val ∧ (i 0).val < win3_4.index _ (0 : Fin 2) * 4000 + 4000
    rw [e40]; show (i 0).val / 4000 * 4000 ≤ (i 0).val ∧ (i 0).val < (i 0).val / 4000 * 4000 + 4000; omega
  | ⟨1, _⟩ =>
    show win3_4.index _ (1 : Fin 2) * 64 ≤ (i 1).val ∧ (i 1).val < win3_4.index _ (1 : Fin 2) * 64 + 64
    rw [e41]; omega

/-- Region 3's output array after the region. -/
theorem final3 (c : Dev nD) : (dat3 V c).arrAt 4 cfg3.N = G3 V c :=
  (dat3 V c).arrAt_eq_of_cover 4 (G3 V c) (fun t _ => flushed3_eq V c t) (cover3)

end Cert.KernelIdeal.Blocks

end
-- ==== Proof.KernelChain.lean ====
/-
  The idealized kernel's arrays, boundary by boundary.

  Between the regions the host gathers each edge's source row, sums the gathered rows into the edge's destination
  node, and scales each node's sum by the reciprocal of its clipped in-degree; the degree itself is an integer count
  made once. The terms below say this for an arbitrary feature array; the lemmas say which buffer holds which term
  at which boundary, and that index words and reciprocal degrees, once made, are never written again.
-/
import proofs.«109273_j84954453114989_2_alg».proof.Proof.Gen.KernelIdeal.Frame
import proofs.«109273_j84954453114989_2_alg».proof.Proof.KernelBlocks
import Idealize.ShloMosaic.Lib.StableHlo.Run
import Idealize.ShloMosaic.PureOps.Ideal
import Idealize.ShloMosaic.PureOps.Ideal.Laws

set_option maxRecDepth 16384

noncomputable section

open scoped BigOperators

namespace Cert.KernelIdeal.Chain

open Cert.KernelIdeal Cert.KernelIdeal.Gen Cert.KernelIdeal.Blocks Cert.RowLayer
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)

/-! ## The host's terms -/

/-- The gather's index column: each source word, a negative one moved up by the number of nodes. -/
def srcCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The scatter's index column: each destination word. -/
def dstCol (d : IVec S1600000 32) : IVec S1600000x1 32 := broadcastInDim S1600000x1 ![0] bcast_S1600000_S1600000x1_0 d

/-- Each node's sum of its incoming edges' source rows, 128 columns. -/
def raw128 (feat : S100000x128.Idx → EReal) (s d : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32)) (dstCol d)
    (Host.gather gather_S100000x128_S1600000x1_S1600000x128_1_0_n_n_0_1_1128 feat (srcCol s))

/-- The same, 64 columns. -/
def raw64 (feat : S100000x64.Idx → EReal) (s d : IVec S1600000 32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32)) (dstCol d)
    (Host.gather gather_S100000x64_S1600000x1_S1600000x64_1_0_n_n_0_1_164 feat (srcCol s))

/-- Each node's in-degree, counted in 32-bit integers. -/
def degI (d : IVec S1600000 32) : IVec S100000 32 :=
  Host.scatter scatter_S100000_S1600000x1_S1600000_n_0_0_1 IntOp.addi (broadcastInDim S100000 ![] bcast_S_S100000 (constantI S_ 32 0#32))
    (dstCol d) (broadcastInDim S1600000 ![] bcast_S_S1600000 (constantI S_ 32 1#32))

/-- The reciprocal of each node's in-degree clipped below at one. -/
def invDeg (d : IVec S1600000 32) : FVec Ideal S100000 .f32 :=
  Host.divf (F := Ideal) (broadcastInDim S100000 ![] bcast_S_S100000 (constant (F := Ideal) S_ .f32 0x3F800000#32))
    (maximumf (sitofp .f32 (degI d)) (broadcastInDim S100000 ![] bcast_S_S100000 (constant (F := Ideal) S_ .f32 0x3F800000#32)))

/-- The mean aggregation, 128 columns: the summed rows times the reciprocal degree. -/
def mean128K (feat : S100000x128.Idx → EReal) (s d : IVec S1600000 32) : FVec Ideal S100000x128 .f32 :=
  mulf (raw128 feat s d) (broadcastInDim S100000x128 ![0, 1] bcast_S100000x1_S100000x128_0_1 (broadcastInDim S100000x1 ![0] bcast_S100000_S100000x1_0 (invDeg d)))

/-- The mean aggregation, 64 columns. -/
def mean64K (feat : S100000x64.Idx → EReal) (s d : IVec S1600000 32) : FVec Ideal S100000x64 .f32 :=
  mulf (raw64 feat s d) (broadcastInDim S100000x64 ![0, 1] bcast_S100000x1_S100000x64_0_1 (broadcastInDim S100000x1 ![0] bcast_S100000_S100000x1_0 (invDeg d)))

variable (m : (ℓ : Loc nD τ sig) → Buf (Elt Ideal) ℓ) (ρ : Dev nD → PrngReg)

/-- The source words, as the first stretch leaves them. -/
abbrev srcW (c : Dev nD) : IVec S1600000 32 := W1 m ρ c (Proc.devRef .tc main_v1)
/-- The destination words, as the first stretch leaves them. -/
abbrev dstW (c : Dev nD) : IVec S1600000 32 := W1 m ρ c (Proc.devRef .tc main_v3)

/-! ## Region 0's entry -/

set_option maxHeartbeats 8000000 in
theorem entry0_agg (c : Dev nD) :
    (V1 m ρ c main_v25 : S100000x128.Idx → EReal) = mean128K (m ((c : Thread nD τ).loc main_arg0)) (srcW m ρ c) (dstW m ρ c) := by
  show StableHlo.after hostOps0 (W0 m ρ c) (Proc.devRef .tc main_v25) = _
  unfold mean128K raw128 invDeg degI srcCol dstCol srcW dstW
  after_results_simp

/-! ## What is never written again -/

/-- The source words pass region 0 untouched. -/
theorem keep2_src (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)
/-- The destination words pass region 0 untouched. -/
theorem keep2_dst (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)
/-- The reciprocal degrees pass region 0 untouched. -/
theorem keep2_inv (c : Dev nD) : W2 m ρ c (Proc.devRef .tc main_v12) = W1 m ρ c (Proc.devRef .tc main_v12) :=
  calc W2 m ρ c (Proc.devRef .tc main_v12)
    _ = W1 m ρ c (Proc.devRef .tc main_v12) := W2_of_ne m ρ c main_v12 (by decide)
/-- The source words reach region 3's stretch untouched. -/
theorem keep5_src (c : Dev nD) : W5 m ρ c (Proc.devRef .tc main_v1) = W1 m ρ c (Proc.devRef .tc main_v1) :=
  calc W5 m ρ c (Proc.devRef .tc main_v1)
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)
/-- The destination words reach region 3's stretch untouched. -/
theorem keep5_dst (c : Dev nD) : W5 m ρ c (Proc.devRef .tc main_v3) = W1 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)
/-- The reciprocal degrees reach region 3's stretch untouched. -/
theorem keep5_inv (c : Dev nD) : W5 m ρ c (Proc.devRef .tc main_v12) = W1 m ρ c (Proc.devRef .tc main_v12) :=
  calc W5 m ρ c (Proc.devRef .tc main_v12)
    _ = W4 m ρ c (Proc.devRef .tc main_v12) := W5_of_ne m ρ c main_v12 (by decide)
    _ = W3 m ρ c (Proc.devRef .tc main_v12) := W4_of_ne m ρ c main_v12 (by decide)
    _ = W2 m ρ c (Proc.devRef .tc main_v12) := StableHlo.after_of_forall_not_mem (b := Proc.devRef .tc main_v12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v12) := W2_of_ne m ρ c main_v12 (by decide)

/-! ## The arguments, where each region finds them -/

/-- Argument 0 at region 0's entry is as launched. -/
theorem arg0_at1 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
/-- Argument 2 at region 0's entry is as launched. -/
theorem arg2_at1 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
/-- Argument 3 at region 0's entry is as launched. -/
theorem arg3_at1 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
/-- Argument 4 at region 0's entry is as launched. -/
theorem arg4_at1 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
/-- Argument 5 at region 0's entry is as launched. -/
theorem arg5_at1 (c : Dev nD) : W1 m ρ c (Proc.devRef .tc main_arg5) = m ((c : Thread nD τ).loc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
/-- Argument 6 at region 0's entry is as launched. -/
theorem arg6_at1 (c : Dev nD) : W1 m ρ c (Proc.devRef .tc main_arg6) = m ((c : Thread nD τ).loc main_arg6) :=
  calc W1 m ρ c (Proc.devRef .tc main_arg6)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
/-- Argument 9 at region 0's exit is as launched. -/
theorem arg9_at2 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl
/-- Argument 10 at region 0's exit is as launched. -/
theorem arg10_at2 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl
/-- Argument 11 at region 0's exit is as launched. -/
theorem arg11_at2 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl
/-- Argument 7 at region 1's entry is as launched. -/
theorem arg7_at3 (c : Dev nD) : W3 m ρ c (Proc.devRef .tc main_arg7) = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
/-- Argument 8 at region 1's entry is as launched. -/
theorem arg8_at3 (c : Dev nD) : W3 m ρ c (Proc.devRef .tc main_arg8) = m ((c : Thread nD τ).loc main_arg8) :=
  calc W3 m ρ c (Proc.devRef .tc main_arg8)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
/-- Argument 12 at region 2's entry is as launched. -/
theorem arg12_at4 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl
/-- Argument 14 at region 2's exit is as launched. -/
theorem arg14_at5 (c : Dev nD) : W5 m ρ c (Proc.devRef .tc main_arg14) = m ((c : Thread nD τ).loc main_arg14) :=
  calc W5 m ρ c (Proc.devRef .tc main_arg14)
    _ = W4 m ρ c (Proc.devRef .tc main_arg14) := W5_of_ne m ρ c main_arg14 (by decide)
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl
/-- Argument 13 at region 3's entry is as launched. -/
theorem arg13_at6 (c : Dev nD) : W6 m ρ c (Proc.devRef .tc main_arg13) = m ((c : Thread nD τ).loc main_arg13) :=
  calc W6 m ρ c (Proc.devRef .tc main_arg13)
    _ = W5 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg13) := W5_of_ne m ρ c main_arg13 (by decide)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

/-! ## The rest of region 0's entry, and its exit -/

theorem entry0_bias (c : Dev nD) : (V1 m ρ c main_v26 : S1x128.Idx → EReal) = shapeCast S1x128 (m ((c : Thread nD τ).loc main_arg4)) shapeCasts_S128_S1x128 := by
  show StableHlo.after hostOps0 (W0 m ρ c) (Proc.devRef .tc main_v26) = _
  after_results_simp
  first | done | rfl

theorem entry0_scale (c : Dev nD) : (V1 m ρ c main_v27 : S1x128.Idx → EReal) = shapeCast S1x128 (m ((c : Thread nD τ).loc main_arg5)) shapeCasts_S128_S1x128 := by
  show StableHlo.after hostOps0 (W0 m ρ c) (Proc.devRef .tc main_v27) = _
  after_results_simp
  first | done | rfl

theorem entry0_shift (c : Dev nD) : (V1 m ρ c main_v28 : S1x128.Idx → EReal) = shapeCast S1x128 (m ((c : Thread nD τ).loc main_arg6)) shapeCasts_S128_S1x128 := by
  show StableHlo.after hostOps0 (W0 m ρ c) (Proc.devRef .tc main_v28) = _
  after_results_simp
  first | done | rfl

set_option maxHeartbeats 8000000 in
/-- The reciprocal degrees, as the first stretch leaves them. -/
theorem inv_at1 (c : Dev nD) : (W1 m ρ c (Proc.devRef .tc main_v12) : S100000.Idx → EReal) = invDeg (dstW m ρ c) := by
  show StableHlo.after hostOps0 (W0 m ρ c) (Proc.devRef .tc main_v12) = _
  unfold invDeg degI dstCol dstW
  after_results_simp
  first | done | rfl

/-- Region 0's output array, in its buffer at region 0's exit. -/
theorem exit0 (c : Dev nD) : W2 m ρ c (Proc.devRef .tc main_v29) = G0 (V1 m ρ) c :=
  (W2_arr m ρ c 7).trans (final0 (V1 m ρ) c)

/-! ## Region 1's entry and exit -/

set_option maxHeartbeats 8000000 in
theorem entry1_agg (c : Dev nD) :
    (V3 m ρ c main_v43 : S100000x128.Idx → EReal)
      = mulf (raw128 (fun i => (W2 m ρ c (Proc.devRef .tc main_v29) i : EReal)) (W2 m ρ c (Proc.devRef .tc main_v1)) (W2 m ρ c (Proc.devRef .tc main_v3)))
          (broadcastInDim S100000x128 ![0, 1] bcast_S100000x1_S100000x128_0_1 (broadcastInDim S100000x1 ![0] bcast_S100000_S100000x1_0 (W2 m ρ c (Proc.devRef .tc main_v12)))) := by
  show StableHlo.after hostOps1 (W2 m ρ c) (Proc.devRef .tc main_v43) = _
  unfold raw128 srcCol dstCol
  after_results_simp
  first | done | rfl

theorem entry1_bias (c : Dev nD) : (V3 m ρ c main_v44 : S1x128.Idx → EReal) = shapeCast S1x128 (W2 m ρ c (Proc.devRef .tc main_arg9)) shapeCasts_S128_S1x128 := by
  show StableHlo.after hostOps1 (W2 m ρ c) (Proc.devRef .tc main_v44) = _
  after_results_simp
  first | done | rfl

theorem entry1_scale (c : Dev nD) : (V3 m ρ c main_v45 : S1x128.Idx → EReal) = shapeCast S1x128 (W2 m ρ c (Proc.devRef .tc main_arg10)) shapeCasts_S128_S1x128 := by
  show StableHlo.after hostOps1 (W2 m ρ c) (Proc.devRef .tc main_v45) = _
  after_results_simp
  first | done | rfl

theorem entry1_shift (c : Dev nD) : (V3 m ρ c main_v46 : S1x128.Idx → EReal) = shapeCast S1x128 (W2 m ρ c (Proc.devRef .tc main_arg11)) shapeCasts_S128_S1x128 := by
  show StableHlo.after hostOps1 (W2 m ρ c) (Proc.devRef .tc main_v46) = _
  after_results_simp
  first | done | rfl

/-- Region 0's output passes the second stretch untouched. -/
theorem entry1_self (c : Dev nD) : W3 m ρ c (Proc.devRef .tc main_v29) = W2 m ρ c (Proc.devRef .tc main_v29) :=
  StableHlo.after_of_forall_not_mem (b := Proc.devRef .tc main_v29) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Region 1's output array, in its buffer at region 1's exit. -/
theorem exit1 (c : Dev nD) : W4 m ρ c (Proc.devRef .tc main_v47) = G1 (V3 m ρ) c :=
  (W4_arr m ρ c 7).trans (final1 (V3 m ρ) c)

/-! ## Region 2 -/

/-- Region 2's output array, in its buffer at region 2's exit. -/
theorem exit2 (c : Dev nD) : W5 m ρ c (Proc.devRef .tc main_v48) = G2 (V4 m ρ) c :=
  (W5_arr m ρ c 2).trans (final2 (V4 m ρ) c)

/-- Region 1's output is an input of region 2, which leaves it as it found it. -/
theorem keep5_self (c : Dev nD) : W5 m ρ c (Proc.devRef .tc main_v47) = W4 m ρ c (Proc.devRef .tc main_v47) :=
  (W5_arr m ρ c 0).trans (((dat2 (V4 m ρ) c).arrAt_in 0 rfl _).trans (A_eq2 (V4 m ρ) c 0))

/-! ## Region 3's entry and exit -/

set_option maxHeartbeats 8000000 in
theorem entry3_agg (c : Dev nD) :
    (V6 m ρ c main_v62 : S100000x64.Idx → EReal)
      = mulf (raw64 (fun i => (W5 m ρ c (Proc.devRef .tc main_v48) i : EReal)) (W5 m ρ c (Proc.devRef .tc main_v1)) (W5 m ρ c (Proc.devRef .tc main_v3)))
          (broadcastInDim S100000x64 ![0, 1] bcast_S100000x1_S100000x64_0_1 (broadcastInDim S100000x1 ![0] bcast_S100000_S100000x1_0 (W5 m ρ c (Proc.devRef .tc main_v12)))) := by
  show StableHlo.after hostOps3 (W5 m ρ c) (Proc.devRef .tc main_v62) = _
  unfold raw64 srcCol dstCol
  after_results_simp
  first | done | rfl

theorem entry3_bias (c : Dev nD) : (V6 m ρ c main_v63 : S1x64.Idx → EReal) = shapeCast S1x64 (W5 m ρ c (Proc.devRef .tc main_arg14)) shapeCasts_S64_S1x64 := by
  show StableHlo.after hostOps3 (W5 m ρ c) (Proc.devRef .tc main_v63) = _
  after_results_simp
  first | done | rfl

/-- Region 1's output passes the last stretch untouched. -/
theorem entry3_self (c : Dev nD) : W6 m ρ c (Proc.devRef .tc main_v47) = W5 m ρ c (Proc.devRef .tc main_v47) :=
  StableHlo.after_of_forall_not_mem (b := Proc.devRef .tc main_v47) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The result array, at the end. -/
theorem exit3 (c : Dev nD) : W7 m ρ c (Proc.devRef .tc main_v64) = G3 (V6 m ρ) c :=
  (W7_arr m ρ c 4).trans (final3 (V6 m ρ) c)

end Cert.KernelIdeal.Chain

end
-- ==== Proof.KernelValue.lean ====
/-
  The idealized kernel's result as one function of its arguments.

  Two hidden layers, each the layer's row function of a node's mean-aggregated row and its own row, then a projection
  of every node's row by the last neighbour weight, its mean aggregation, and the node's own row by the last self
  weight plus the bias. The arrays below say this over the argument arrays; the theorems say that the array each
  region leaves is the corresponding one, and so that the result buffer ends holding the last.
-/
import proofs.«109273_j84954453114989_2_alg».proof.Proof.KernelChain
import Idealize.ShloMosaic.Lib.ValueLayout

set_option maxRecDepth 200000

noncomputable section

open scoped BigOperators

namespace Cert.KernelIdeal.Value

open Cert.KernelIdeal Cert.KernelIdeal.Gen Cert.KernelIdeal.Blocks Cert.KernelIdeal.Chain Cert.RowLayer
open Idealize.ShloMosaic Idealize.ShloMosaic.TcCoe Idealize.ShloMosaic.ValueIdx
open Idealize.SL Idealize.SL.Sem

/-- A hidden layer over whole arrays: at node `i 0`, column `i 1`, the layer's row function of the node's row of the
    aggregated array `A` and of the input array `X`. -/
def layerArr (A X : S100000x128.Idx → EReal) (Wl Wr : S128x128.Idx → EReal) (b g be : S128.Idx → EReal) : S100000x128.Idx → EReal := fun i =>
  lnrow (fun k => A (ix2 (⟨(i 0).val, (i 0).isLt⟩ : Fin 100000) k)) (fun k => X (ix2 (⟨(i 0).val, (i 0).isLt⟩ : Fin 100000) k))
    (fun j k => Wl (ix2 j k)) (fun j k => Wr (ix2 j k)) (fun j => b (ix1 j)) (fun j => g (ix1 j)) (fun j => be (ix1 j))
    (⟨(i 1).val, (i 1).isLt⟩ : Fin 128)

/-- Every node's row against every row of a 64×128 weight. -/
def projArr (H : S100000x128.Idx → EReal) (W : S64x128.Idx → EReal) : S100000x64.Idx → EReal := fun i =>
  dotRow (fun k => H (ix2 (⟨(i 0).val, (i 0).isLt⟩ : Fin 100000) k)) (fun k => W (ix2 (⟨(i 1).val, (i 1).isLt⟩ : Fin 64) k))

/-- The last layer over whole arrays: an aggregated entry, plus the node's row against a weight row, plus the bias. -/
def outArr (A : S100000x64.Idx → EReal) (H : S100000x128.Idx → EReal) (W : S64x128.Idx → EReal) (b : S64.Idx → EReal) : S100000x64.Idx → EReal := fun i =>
  combRow (A (ix2 (⟨(i 0).val, (i 0).isLt⟩ : Fin 100000) (⟨(i 1).val, (i 1).isLt⟩ : Fin 64)))
    (fun k => H (ix2 (⟨(i 0).val, (i 0).isLt⟩ : Fin 100000) k)) (fun k => W (ix2 (⟨(i 1).val, (i 1).isLt⟩ : Fin 64) k))
    (b (ix1 (⟨(i 1).val, (i 1).isLt⟩ : Fin 64)))

variable (m : (ℓ : Loc nD τ sig) → Buf (Elt Ideal) ℓ) (ρ : Dev nD → PrngReg)

/-- The first hidden layer's features. -/
def h0 (c : Dev nD) : S100000x128.Idx → EReal :=
  layerArr (mean128K (m ((c : Thread nD τ).loc main_arg0) : S100000x128.Idx → EReal) (srcW m ρ c) (dstW m ρ c)) (m ((c : Thread nD τ).loc main_arg0) : S100000x128.Idx → EReal)
    (m ((c : Thread nD τ).loc main_arg2) : S128x128.Idx → EReal) (m ((c : Thread nD τ).loc main_arg3) : S128x128.Idx → EReal) (m ((c : Thread nD τ).loc main_arg4) : S128.Idx → EReal)
    (m ((c : Thread nD τ).loc main_arg5) : S128.Idx → EReal) (m ((c : Thread nD τ).loc main_arg6) : S128.Idx → EReal)

/-- The second hidden layer's features. -/
def h1 (c : Dev nD) : S100000x128.Idx → EReal :=
  layerArr (mean128K (h0 m ρ c) (srcW m ρ c) (dstW m ρ c)) (h0 m ρ c)
    (m ((c : Thread nD τ).loc main_arg7) : S128x128.Idx → EReal) (m ((c : Thread nD τ).loc main_arg8) : S128x128.Idx → EReal) (m ((c : Thread nD τ).loc main_arg9) : S128.Idx → EReal)
    (m ((c : Thread nD τ).loc main_arg10) : S128.Idx → EReal) (m ((c : Thread nD τ).loc main_arg11) : S128.Idx → EReal)

/-- The result: the mean-aggregated projection, plus the self term, plus the bias. -/
def result (c : Dev nD) : S100000x64.Idx → EReal :=
  outArr (mean64K (projArr (h1 m ρ c) (m ((c : Thread nD τ).loc main_arg12) : S64x128.Idx → EReal)) (srcW m ρ c) (dstW m ρ c)) (h1 m ρ c)
    (m ((c : Thread nD τ).loc main_arg13) : S64x128.Idx → EReal) (m ((c : Thread nD τ).loc main_arg14) : S64.Idx → EReal)

theorem G0_eq (c : Dev nD) : G0 (V1 m ρ) c = h0 m ρ c := by
  funext i
  unfold G0 h0 layerArr
  refine lnrow_congr (fun k => ?_) (fun k => ?_) (fun j k => ?_) (fun j k => ?_) (fun j => ?_) (fun j => ?_) (fun j => ?_) rfl
  · exact congrFun (entry0_agg m ρ c) _
  · exact congrFun (arg0_at1 m ρ c) _
  · exact congrFun (arg2_at1 m ρ c) _
  · exact congrFun (arg3_at1 m ρ c) _
  · exact (congrFun (entry0_bias m ρ c) _).trans (shapeCast_a_1a_apply _ _ 0 j)
  · exact (congrFun (entry0_scale m ρ c) _).trans (shapeCast_a_1a_apply _ _ 0 j)
  · exact (congrFun (entry0_shift m ρ c) _).trans (shapeCast_a_1a_apply _ _ 0 j)

/-- What region 1 finds as its aggregated array. -/
theorem entry1_agg_eq (c : Dev nD) :
    (V3 m ρ c main_v43 : S100000x128.Idx → EReal) = mean128K (h0 m ρ c) (srcW m ρ c) (dstW m ρ c) := by
  rw [entry1_agg, exit0, keep2_src, keep2_dst, keep2_inv, inv_at1, G0_eq]
  rfl

theorem G1_eq (c : Dev nD) : G1 (V3 m ρ) c = h1 m ρ c := by
  funext i
  unfold G1 h1 layerArr
  refine lnrow_congr (fun k => ?_) (fun k => ?_) (fun j k => ?_) (fun j k => ?_) (fun j => ?_) (fun j => ?_) (fun j => ?_) rfl
  · exact congrFun (entry1_agg_eq m ρ c) _
  · exact congrFun ((entry1_self m ρ c).trans ((exit0 m ρ c).trans (G0_eq m ρ c))) _
  · exact congrFun (arg7_at3 m ρ c) _
  · exact congrFun (arg8_at3 m ρ c) _
  · exact (congrFun (entry1_bias m ρ c) _).trans ((shapeCast_a_1a_apply _ _ 0 j).trans (congrFun (arg9_at2 m ρ c) _))
  · exact (congrFun (entry1_scale m ρ c) _).trans ((shapeCast_a_1a_apply _ _ 0 j).trans (congrFun (arg10_at2 m ρ c) _))
  · exact (congrFun (entry1_shift m ρ c) _).trans ((shapeCast_a_1a_apply _ _ 0 j).trans (congrFun (arg11_at2 m ρ c) _))

theorem G2_eq (c : Dev nD) : G2 (V4 m ρ) c = projArr (h1 m ρ c) (m ((c : Thread nD τ).loc main_arg12) : S64x128.Idx → EReal) := by
  funext i
  unfold G2 projArr
  refine congrArg₂ dotRow (funext fun k => ?_) (funext fun k => ?_)
  · exact congrFun ((exit1 m ρ c).trans (G1_eq m ρ c)) _
  · exact congrFun (arg12_at4 m ρ c) _

/-- What region 3 finds as its aggregated array. -/
theorem entry3_agg_eq (c : Dev nD) :
    (V6 m ρ c main_v62 : S100000x64.Idx → EReal)
      = mean64K (projArr (h1 m ρ c) (m ((c : Thread nD τ).loc main_arg12) : S64x128.Idx → EReal)) (srcW m ρ c) (dstW m ρ c) := by
  rw [entry3_agg, exit2, keep5_src, keep5_dst, keep5_inv, inv_at1, G2_eq]
  rfl

theorem G3_eq (c : Dev nD) : G3 (V6 m ρ) c = result m ρ c := by
  funext i
  unfold G3 result outArr
  have e1 := congrFun (entry3_agg_eq m ρ c) (ix2 (⟨(i 0).val, (i 0).isLt⟩ : Fin 100000) (⟨(i 1).val, (i 1).isLt⟩ : Fin 64))
  have e2 : (fun k : Fin 128 => (V6 m ρ c main_v47 (ix2 (⟨(i 0).val, (i 0).isLt⟩ : Fin 100000) k) : EReal))
      = fun k => h1 m ρ c (ix2 (⟨(i 0).val, (i 0).isLt⟩ : Fin 100000) k) :=
    funext fun k => congrFun ((entry3_self m ρ c).trans ((keep5_self m ρ c).trans ((exit1 m ρ c).trans (G1_eq m ρ c)))) _
  have e3 : (fun k : Fin 128 => (V6 m ρ c main_arg13 (ix2 (⟨(i 1).val, (i 1).isLt⟩ : Fin 64) k) : EReal))
      = fun k => m ((c : Thread nD τ).loc main_arg13) (ix2 (⟨(i 1).val, (i 1).isLt⟩ : Fin 64) k) :=
    funext fun k => congrFun (arg13_at6 m ρ c) _
  have e4 : (V6 m ρ c main_v63 (ix2 (0 : Fin 1) (⟨(i 1).val, (i 1).isLt⟩ : Fin 64)) : EReal)
      = m ((c : Thread nD τ).loc main_arg14) (ix1 (⟨(i 1).val, (i 1).isLt⟩ : Fin 64)) :=
    (congrFun (entry3_bias m ρ c) _).trans ((shapeCast_a_1a_apply _ _ 0 _).trans (congrFun (arg14_at5 m ρ c) _))
  exact congr (congr (congr (congrArg combRow e1) e2) e3) e4

/-- The result buffer ends holding the result array. -/
theorem kernel_result (c : Dev nD) : W7 m ρ c (Proc.devRef .tc main_v64) = result m ρ c :=
  (exit3 m ρ c).trans (G3_eq m ρ c)

end Cert.KernelIdeal.Value

end
-- ==== Proof.LibScatterRows.lean ====
/-
  Rows of a table scattered and gathered through a column of signed index words.

  A rank-2 table with N rows is updated by M update rows; update row e lands on the table row named by
  the signed reading of the e-th index word, and is dropped when that word names no row. Column
  positions are kept. A gather reads, for result row e, the table row named by the e-th index word
  clamped into [0, N-1]. The lemmas here put those two facts in coordinates, so that a sum over the
  update elements landing on a table element becomes a sum over the EDGES whose word names that row,
  and they count, in 32-bit integers, the edges landing on a row when every update is the word 1.
-/
import Idealize.ShloMosaic.PureOps.Ideal
import Idealize.ShloMosaic.PureOps.ShapeOps
import Idealize.ShloMosaic.Lib.ValueIdx

noncomputable section

open scoped BigOperators

namespace Cert.ScatterRows

open Idealize.ShloMosaic Idealize.ShloMosaic.ValueIdx

variable {N M C w : Nat}

/-- The edges whose index word, read signed, names row `n`. -/
def edgesInto (idx : IVec ⟨2, ![M, 1]⟩ w) (n : Fin N) : Finset (Fin M) :=
  Finset.univ.filter fun e => (idx (ix2 e (0 : Fin 1))).toInt = (n.val : Int)

/-- The table row result row `e` of a row gather reads: the signed word, negative words read as row 0,
    words past the last row as the last row. -/
def sourceRow (hN : 0 < N) (idx : IVec ⟨2, ![M, 1]⟩ w) (e : Fin M) : Fin N :=
  ⟨min (idx (ix2 e (0 : Fin 1))).toInt.toNat (N - 1), by omega⟩

/-! ## Rows of a rank-2 table: the coordinates of the landing index -/

section Rows
variable (d : ScatterDims ⟨2, ![N, C]⟩ ⟨2, ![M, 1]⟩ ⟨2, ![M, C]⟩)

/-- On the row axis the window starts at the signed reading of the update row's index word. -/
theorem rows_start0 (h1 : d.updateWindowDims = [1]) (h2 : d.insertedWindowDims = [0]) (h3 : d.scatterDimsToOperandDims = [0])
    (h4 : d.indexVectorDim = 1) (idx : IVec ⟨2, ![M, 1]⟩ w) (j : (⟨2, ![M, C]⟩ : Shape).Idx) :
    d.start j idx 0 = (idx (ix2 (j 0) (0 : Fin 1))).toInt := by
  obtain ⟨uw, iw, sd, iv, wf⟩ := d
  simp only at h1 h2 h3 h4
  subst h1 h2 h3 h4
  unfold ScatterDims.start
  rw [dif_pos (List.mem_singleton.mpr rfl)]
  congr 2
  funext b
  refine Fin.ext ?_
  match b with
  | ⟨0, _⟩ => rfl
  | ⟨1, _⟩ => rfl

/-- On the column axis, which the index words do not name, the window starts at 0. -/
theorem rows_start1 (h3 : d.scatterDimsToOperandDims = [0])
    (idx : IVec ⟨2, ![M, 1]⟩ w) (j : (⟨2, ![M, C]⟩ : Shape).Idx) :
    d.start j idx 1 = 0 := by
  unfold ScatterDims.start
  rw [dif_neg (by rw [h3]; simp)]

/-- The row axis is inserted: its window coordinate is 0. -/
theorem rows_window0 (h2 : d.insertedWindowDims = [0]) (j : (⟨2, ![M, C]⟩ : Shape).Idx) :
    d.window j 0 = 0 := by
  unfold ScatterDims.window
  rw [dif_neg (by rw [ScatterDims.sKept, h2]; simp [Shape.kept])]

/-- The column axis keeps the update element's column. -/
theorem rows_window1 (h1 : d.updateWindowDims = [1]) (h2 : d.insertedWindowDims = [0]) (j : (⟨2, ![M, C]⟩ : Shape).Idx) :
    d.window j 1 = (j 1).val := by
  obtain ⟨uw, iw, sd, iv, wf⟩ := d
  simp only at h1 h2
  subst h1 h2
  unfold ScatterDims.window
  rw [dif_pos (by simp [ScatterDims.sKept, Shape.kept])]
  rfl

/-- Update element `j` lands on table element (n, c') exactly when the index word of its row reads `n`
    and its column is `c'`. -/
theorem rows_resultIdx (h1 : d.updateWindowDims = [1]) (h2 : d.insertedWindowDims = [0]) (h3 : d.scatterDimsToOperandDims = [0])
    (h4 : d.indexVectorDim = 1) (idx : IVec ⟨2, ![M, 1]⟩ w) (j : (⟨2, ![M, C]⟩ : Shape).Idx) (n : Fin N) (c' : Fin C) :
    d.resultIdx? j idx = some (ix2 n c') ↔ (idx (ix2 (j 0) (0 : Fin 1))).toInt = (n.val : Int) ∧ j 1 = c' := by
  have s0 := rows_start0 d h1 h2 h3 h4 idx j
  have s1 := rows_start1 d h3 idx j
  have w0 := rows_window0 d h2 j
  have w1 := rows_window1 d h1 h2 j
  have hn : n.val < N := n.isLt
  have hc : (j 1).val < C := idx2_lt1 j
  unfold ScatterDims.resultIdx?
  split
  · rename_i h
    rw [Option.some.injEq]
    constructor
    · intro hf
      have e0 := congrArg Fin.val (congrFun hf 0)
      have e1 := congrArg Fin.val (congrFun hf 1)
      have h0 := h 0
      simp only [s0, s1, w0, w1] at e0 e1 h0
      change _ = n.val at e0
      change _ = c'.val at e1
      exact ⟨by omega, Fin.ext (by omega)⟩
    · rintro ⟨ht, hj⟩
      funext a
      refine Fin.ext ?_
      match a with
      | ⟨0, _⟩ =>
        show (d.start j idx 0 + ↑(d.window j 0)).toNat = n.val
        rw [s0, w0]; omega
      | ⟨1, _⟩ =>
        show (d.start j idx 1 + ↑(d.window j 1)).toNat = c'.val
        rw [s1, w1, ← hj]; omega
  · rename_i h
    constructor
    · intro hf; cases hf
    · rintro ⟨ht, hj⟩
      exfalso; apply h
      intro a
      match a with
      | ⟨0, _⟩ =>
        show 0 ≤ d.start j idx 0 + ↑(d.window j 0) ∧ d.start j idx 0 + ↑(d.window j 0) < (N : Int)
        rw [s0, w0]; omega
      | ⟨1, _⟩ =>
        show 0 ≤ d.start j idx 1 + ↑(d.window j 1) ∧ d.start j idx 1 + ↑(d.window j 1) < (C : Int)
        rw [s1, w1]; omega

end Rows

/-- A sum over the update elements that land on table element (n, c) is the sum over the edges into row
    `n` of the update element (e, c). -/
theorem sum_landing_rows {α : Type} [AddCommMonoid α] (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (n : Fin N) (c : Fin C)
    (f : (⟨2, ![M, C]⟩ : Shape).Idx → α) [DecidablePred fun j => d.resultIdx? j idx = some (ix2 n c)] :
    ∑ j ∈ Finset.univ.filter (fun j => d.resultIdx? j idx = some (ix2 n c)), f j = ∑ e ∈ edgesInto idx n, f (ix2 e c) := by
  symm
  refine Finset.sum_bij (fun e _ => ix2 e c) ?_ ?_ ?_ ?_
  · intro e he
    rw [Finset.mem_filter]
    refine ⟨Finset.mem_univ _, ?_⟩
    rw [rows_resultIdx d h1 h2 h3 h4]
    exact ⟨(Finset.mem_filter.mp he).2, rfl⟩
  · intro e1 _ e2 _ h
    exact congrFun h 0
  · intro j hj
    rw [Finset.mem_filter, rows_resultIdx d h1 h2 h3 h4] at hj
    refine ⟨j 0, Finset.mem_filter.mpr ⟨Finset.mem_univ _, hj.2.1⟩, ?_⟩
    have hj' := eq_ix2 j
    rw [hj.2.2] at hj'
    exact hj'.symm
  · intro e _
    rfl

/-! ## Entries of a rank-1 table -/

section Entries
variable (d : ScatterDims ⟨1, ![N]⟩ ⟨2, ![M, 1]⟩ ⟨1, ![M]⟩)

/-- On the table's one axis the window starts at the signed reading of the update's index word. -/
theorem entries_start (h1 : d.updateWindowDims = []) (h2 : d.insertedWindowDims = [0]) (h3 : d.scatterDimsToOperandDims = [0])
    (h4 : d.indexVectorDim = 1) (idx : IVec ⟨2, ![M, 1]⟩ w) (j : (⟨1, ![M]⟩ : Shape).Idx) :
    d.start j idx 0 = (idx (ix2 (j 0) (0 : Fin 1))).toInt := by
  obtain ⟨uw, iw, sd, iv, wf⟩ := d
  simp only at h1 h2 h3 h4
  subst h1 h2 h3 h4
  unfold ScatterDims.start
  rw [dif_pos (List.mem_singleton.mpr rfl)]
  congr 2
  funext b
  refine Fin.ext ?_
  match b with
  | ⟨0, _⟩ => rfl
  | ⟨1, _⟩ => rfl

/-- The table's one axis is inserted: its window coordinate is 0. -/
theorem entries_window (h2 : d.insertedWindowDims = [0]) (j : (⟨1, ![M]⟩ : Shape).Idx) :
    d.window j 0 = 0 := by
  unfold ScatterDims.window
  rw [dif_neg (by rw [ScatterDims.sKept, h2]; simp [Shape.kept])]

/-- Update `j` lands on table entry `n` exactly when its index word reads `n`. -/
theorem entries_resultIdx (h1 : d.updateWindowDims = []) (h2 : d.insertedWindowDims = [0]) (h3 : d.scatterDimsToOperandDims = [0])
    (h4 : d.indexVectorDim = 1) (idx : IVec ⟨2, ![M, 1]⟩ w) (j : (⟨1, ![M]⟩ : Shape).Idx) (n : Fin N) :
    d.resultIdx? j idx = some (ix1 n) ↔ (idx (ix2 (j 0) (0 : Fin 1))).toInt = (n.val : Int) := by
  have s0 := entries_start d h1 h2 h3 h4 idx j
  have w0 := entries_window d h2 j
  have hn : n.val < N := n.isLt
  unfold ScatterDims.resultIdx?
  split
  · rename_i h
    rw [Option.some.injEq]
    constructor
    · intro hf
      have e0 := congrArg Fin.val (congrFun hf 0)
      have h0 := h 0
      simp only [s0, w0] at e0 h0
      change _ = n.val at e0
      omega
    · intro ht
      funext a
      refine Fin.ext ?_
      match a with
      | ⟨0, _⟩ =>
        show (d.start j idx 0 + ↑(d.window j 0)).toNat = n.val
        rw [s0, w0]; omega
  · rename_i h
    constructor
    · intro hf; cases hf
    · intro ht
      exfalso; apply h
      intro a
      match a with
      | ⟨0, _⟩ =>
        show 0 ≤ d.start j idx 0 + ↑(d.window j 0) ∧ d.start j idx 0 + ↑(d.window j 0) < (N : Int)
        rw [s0, w0]; omega

end Entries

/-- The same for a rank-1 table of N entries updated by M scalars. -/
theorem sum_landing_entries {α : Type} [AddCommMonoid α] (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (n : Fin N)
    (f : (⟨1, ![M]⟩ : Shape).Idx → α) [DecidablePred fun j => d.resultIdx? j idx = some (ix1 n)] :
    ∑ j ∈ Finset.univ.filter (fun j => d.resultIdx? j idx = some (ix1 n)), f j = ∑ e ∈ edgesInto idx n, f (ix1 e) := by
  symm
  refine Finset.sum_bij (fun e _ => ix1 e) ?_ ?_ ?_ ?_
  · intro e he
    rw [Finset.mem_filter]
    refine ⟨Finset.mem_univ _, ?_⟩
    rw [entries_resultIdx d h1 h2 h3 h4]
    exact (Finset.mem_filter.mp he).2
  · intro e1 _ e2 _ h
    exact congrFun h 0
  · intro j hj
    rw [Finset.mem_filter, entries_resultIdx d h1 h2 h3 h4] at hj
    exact ⟨j 0, Finset.mem_filter.mpr ⟨Finset.mem_univ _, hj.2⟩, (eq_ix1 j).symm⟩
  · intro e _
    rfl

/-! ## A row gather: the coordinates of the operand index -/

section Gather
variable (g : GatherDims ⟨2, ![N, C]⟩ ⟨2, ![M, 1]⟩ ⟨2, ![M, C]⟩)

/-- On the row axis the slice starts at the signed reading of the result row's index word, clamped into [0, N-1]. -/
theorem gather_start0 (h1 : g.offsetDims = [1]) (h5 : g.startIndexMap = [0]) (h6 : g.indexVectorDim = 1)
    (h7 : g.sliceSizes = ![1, C]) (idx : IVec ⟨2, ![M, 1]⟩ w) (j : (⟨2, ![M, C]⟩ : Shape).Idx) :
    g.start j idx 0 = min (idx (ix2 (j 0) (0 : Fin 1))).toInt.toNat (N - 1) := by
  obtain ⟨od, cd, ob, sb, sm, iv, ss, wf⟩ := g
  simp only at h1 h5 h6 h7
  subst h1 h5 h6 h7
  unfold GatherDims.start
  rw [dif_pos (List.mem_singleton.mpr rfl)]
  congr 1
  congr 3
  funext b
  refine Fin.ext ?_
  match b with
  | ⟨0, _⟩ => rfl
  | ⟨1, _⟩ => rfl

/-- On the column axis, which the index words do not name, the slice starts at 0. -/
theorem gather_start1 (h5 : g.startIndexMap = [0]) (idx : IVec ⟨2, ![M, 1]⟩ w) (j : (⟨2, ![M, C]⟩ : Shape).Idx) :
    g.start j idx 1 = 0 := by
  unfold GatherDims.start
  rw [dif_neg (by rw [h5]; simp)]

/-- The row axis is collapsed: its offset coordinate is 0. -/
theorem gather_off0 (h2 : g.collapsedSliceDims = [0]) (j : (⟨2, ![M, C]⟩ : Shape).Idx) :
    g.offCoord j 0 = 0 :=
  g.offCoord_eq_zero j 0 fun h => ((g.mem_sKept 0).mp h).1 (by rw [h2]; exact List.mem_singleton.mpr rfl)

/-- The column axis keeps the result element's column. -/
theorem gather_off1 (h1 : g.offsetDims = [1]) (h2 : g.collapsedSliceDims = [0]) (h3 : g.operandBatchingDims = [])
    (j : (⟨2, ![M, C]⟩ : Shape).Idx) :
    g.offCoord j 1 = (j 1).val := by
  obtain ⟨od, cd, ob, sb, sm, iv, ss, wf⟩ := g
  simp only at h1 h2 h3
  subst h1 h2 h3
  unfold GatherDims.offCoord
  rw [dif_pos (by simp [GatherDims.sKept, Shape.kept])]
  rfl

/-- There are no batching axes: every batching coordinate is 0. -/
theorem gather_batch (h3 : g.operandBatchingDims = []) (j : (⟨2, ![M, C]⟩ : Shape).Idx) (a : Fin 2) :
    g.batchCoord j a = 0 :=
  g.batchCoord_eq_zero j a (by rw [h3]; exact List.not_mem_nil)

end Gather

/-- A row gather reads table element (sourceRow e, c) for result element (e, c). -/
theorem gather_row (hN : 0 < N) (g : GatherDims ⟨2, ![N, C]⟩ ⟨2, ![M, 1]⟩ ⟨2, ![M, C]⟩)
    (h1 : g.offsetDims = [1]) (h2 : g.collapsedSliceDims = [0]) (h3 : g.operandBatchingDims = [])
    (h4 : g.startIndicesBatchingDims = []) (h5 : g.startIndexMap = [0]) (h6 : g.indexVectorDim = 1)
    (h7 : g.sliceSizes = ![1, C]) (idx : IVec ⟨2, ![M, 1]⟩ w) (e : Fin M) (c : Fin C) :
    g.operandIdx (ix2 e c) idx = ix2 (sourceRow hN idx e) c := by
  funext a
  refine Fin.ext ?_
  match a with
  | ⟨0, _⟩ =>
    show g.start (ix2 e c) idx 0 + g.batchCoord (ix2 e c) 0 + g.offCoord (ix2 e c) 0 = (sourceRow hN idx e).val
    rw [gather_start0 g h1 h5 h6 h7, gather_batch g h3, gather_off0 g h2]
    rfl
  | ⟨1, _⟩ =>
    show g.start (ix2 e c) idx 1 + g.batchCoord (ix2 e c) 1 + g.offCoord (ix2 e c) 1 = c.val
    rw [gather_start1 g h5, gather_batch g h3, gather_off1 g h1 h2 h3]
    show 0 + 0 + c.val = c.val
    omega

/-! ## Counting the edges into an entry with 32-bit words -/

/-- Counting the positions below `K` that satisfy `p` along the list 0, 1, …, K-1 gives the size of the set of
    those positions. -/
theorem countP_finRange (K : Nat) (p : Fin K → Prop) [DecidablePred p] :
    (List.finRange K).countP (fun k => decide (p k)) = (Finset.univ.filter p).card := by
  rw [Finset.card_def, Finset.filter_val, ← Multiset.countP_eq_card_filter, Fin.univ_def]
  simp

/-- The 32-bit word of a number below 2^31, added to the zero word, reads signed as that number. -/
theorem toInt_ofNat_small (k : Nat) (hk : k < 2 ^ 31) : (0#32 + BitVec.ofNat 32 k).toInt = (k : Int) := by
  rw [BitVec.zero_add, BitVec.toInt_eq_toNat_cond, BitVec.toNat_ofNat, Nat.mod_eq_of_lt (by omega)]
  rw [if_pos (by omega)]

/-- A left fold whose every step adds the word 1 to the value read by `rd` when the position satisfies `p`, and
    leaves that value alone otherwise, adds to it the number of positions of the list that satisfy `p`. -/
theorem foldl_count {K : Nat} {T : Type} (step : T → Fin K → T) (rd : T → BitVec 32) (p : Fin K → Prop) [DecidablePred p]
    (hstep : ∀ r k, rd (step r k) = rd r + if p k then 1#32 else 0#32) (l : List (Fin K)) (x : T) :
    rd (l.foldl step x) = rd x + BitVec.ofNat 32 (l.countP fun k => decide (p k)) := by
  induction l generalizing x with
  | nil => simp
  | cons k l ih =>
    rw [List.foldl_cons, ih, hstep, List.countP_cons]
    by_cases hk : p k
    · simp only [hk, decide_true, if_true]
      rw [BitVec.ofNat_add, BitVec.add_assoc, BitVec.add_comm (BitVec.ofNat 32 _) (BitVec.ofNat 32 1)]
    · simp [hk]

/-- Row-major numbering identifies the positions of the M scalar updates with the edges, so the positions
    whose index word reads `n` are as many as the edges into `n`. -/
theorem card_positions (idx : IVec ⟨2, ![M, 1]⟩ w) (n : Fin N) :
    (Finset.univ.filter fun k : Fin (⟨1, ![M]⟩ : Shape).numel =>
        (idx (ix2 (((⟨1, ![M]⟩ : Shape).rowMajor.symm k) 0) (0 : Fin 1))).toInt = (n.val : Int)).card
      = (edgesInto idx n).card := by
  refine Finset.card_bij (fun k _ => ((⟨1, ![M]⟩ : Shape).rowMajor.symm k) 0) ?_ ?_ ?_
  · intro k hk
    exact Finset.mem_filter.mpr ⟨Finset.mem_univ _, (Finset.mem_filter.mp hk).2⟩
  · intro k1 _ k2 _ h
    apply (⟨1, ![M]⟩ : Shape).rowMajor.symm.injective
    rw [eq_ix1 ((⟨1, ![M]⟩ : Shape).rowMajor.symm k1), eq_ix1 ((⟨1, ![M]⟩ : Shape).rowMajor.symm k2)]
    exact congrArg ix1 h
  · intro e he
    refine ⟨(⟨1, ![M]⟩ : Shape).rowMajor (ix1 e), ?_, ?_⟩
    · rw [Finset.mem_filter, Equiv.symm_apply_apply]
      exact ⟨Finset.mem_univ _, (Finset.mem_filter.mp he).2⟩
    · rw [Equiv.symm_apply_apply]
      rfl

/-- Scattering the 32-bit word 1 from every edge into a table of zero words, by the row-major fold of integer
    addition, leaves at entry `n` the number of edges into `n`: fewer than 2^31 edges, so the signed reading of
    the word is that number. -/
theorem count_ones (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (hM : M < 2 ^ 31) (idx : IVec ⟨2, ![M, 1]⟩ 32) (n : Fin N) :
    (Host.scatter d IntOp.addi (fun _ => (0#32 : BitVec 32)) idx (fun _ => (1#32 : BitVec 32)) (ix1 n)).toInt
      = ((edgesInto idx n).card : Int) := by
  unfold Host.scatter
  rw [foldl_count _ (fun r : (⟨1, ![N]⟩ : Shape).Idx → BitVec 32 => r (ix1 n))
    (fun k => (idx (ix2 (((⟨1, ![M]⟩ : Shape).rowMajor.symm k) 0) (0 : Fin 1))).toInt = (n.val : Int)) ?_
    (List.finRange (⟨1, ![M]⟩ : Shape).numel) (fun _ => (0#32 : BitVec 32))]
  · rw [countP_finRange, card_positions]
    refine toInt_ofNat_small _ (lt_of_le_of_lt ?_ hM)
    calc (edgesInto idx n).card ≤ (Finset.univ : Finset (Fin M)).card := Finset.card_filter_le _ _
      _ = M := by rw [Finset.card_univ, Fintype.card_fin]
  · intro r k
    have hp := entries_resultIdx d h1 h2 h3 h4 idx ((⟨1, ![M]⟩ : Shape).rowMajor.symm k) n
    beta_reduce
    by_cases hk : (idx (ix2 (((⟨1, ![M]⟩ : Shape).rowMajor.symm k) 0) (0 : Fin 1))).toInt = (n.val : Int)
    · rw [if_pos hk, hp.mpr hk]
      dsimp only
      rw [if_pos rfl]
      rfl
    · rw [if_neg hk, BitVec.add_zero]
      generalize d.resultIdx? ((⟨1, ![M]⟩ : Shape).rowMajor.symm k) idx = o at hp
      cases o with
      | none => rfl
      | some i =>
        dsimp only
        rw [if_neg]
        intro hin
        exact hk (hp.mp (by rw [hin]))

end Cert.ScatterRows

end
-- ==== Proof.KernelMean.lean ====
/-
  The kernel's mean aggregation at one element.

  At node `n` and column `k` the summed array holds the sum, over the edges whose destination word names `n`, of the
  feature at the edge's source row and column `k`; the reciprocal degree at `n` is one over the number of those edges,
  clipped below at one, the number having been counted in 32-bit integers (fewer than 2^31 edges, so the count is
  exact). The mean aggregation is their product.
-/
import proofs.«109273_j84954453114989_2_alg».proof.Proof.KernelChain
import proofs.«109273_j84954453114989_2_alg».proof.Proof.LibScatterRows

set_option maxRecDepth 16384

noncomputable section

open scoped BigOperators

namespace Cert.KernelIdeal.Mean

open Cert.KernelIdeal Cert.KernelIdeal.Chain Cert.RowLayer Cert.ScatterRows
open Idealize.ShloMosaic Idealize.ShloMosaic.ValueIdx

/-- There is at least one node. -/
theorem nodes_pos : 0 < 100000 := by norm_num

/-- The number of edges into node `n`, as an extended real. -/
def degR (d : IVec S1600000 32) (n : Fin 100000) : EReal := (((edgesInto (dstCol d) n).card : ℝ) : EReal)

/-- A float scatter with an `add` body, read at one element: the operand's element plus the sum of the updates
    that land there. -/
theorem scatterAdd_at {s si su : Shape} {w : Nat} (d : ScatterDims s si su) (x : s.Idx → EReal) (idx : IVec si w)
    (upd : su.Idx → EReal) (i : s.Idx) :
    Host.scatterAdd (F := Ideal) (φ := .f32) d x idx upd i
      = x i + ∑ j ∈ Finset.univ.filter (fun j => d.resultIdx? j idx = some i), upd j := rfl

/-- A gather read at one element: the operand at the operand index. -/
theorem gather_at {s si t : Shape} {w : Nat} (g : GatherDims s si t) (x : s.Idx → EReal) (idx : IVec si w) (j : t.Idx) :
    Host.gather g x idx j = x (g.operandIdx j idx) := rfl

/-- The summed array at (n, k): zero plus the sum, over the edges into `n`, of the feature at the edge's source row. -/
theorem raw128_at (feat : S100000x128.Idx → EReal) (s d : IVec S1600000 32) (n : Fin 100000) (k : Fin 128) :
    raw128 feat s d (ix2 n k) = 0 + ∑ e ∈ edgesInto (dstCol d) n, feat (ix2 (sourceRow (N := 100000) nodes_pos (srcCol s) e) k) := by
  refine (scatterAdd_at scatter_S100000x128_S1600000x1_S1600000x128_1_0_0_1 _ (dstCol d)
    (Host.gather gather_S100000x128_S1600000x1_S1600000x128_1_0_n_n_0_1_1128 feat (srcCol s)) (ix2 n k)).trans ?_
  refine congrArg₂ (· + ·) ?_
    ((sum_landing_rows (N := 100000) (C := 128) (M := 1600000) scatter_S100000x128_S1600000x1_S1600000x128_1_0_0_1 rfl rfl rfl rfl (dstCol d) n k
      (Host.gather gather_S100000x128_S1600000x1_S1600000x128_1_0_n_n_0_1_1128 feat (srcCol s))).trans
      (Finset.sum_congr rfl fun e _ => ?_))
  · exact Ideal.ofBits_zero_f32
  · exact (gather_at gather_S100000x128_S1600000x1_S1600000x128_1_0_n_n_0_1_1128 feat (srcCol s) (ix2 e k)).trans
      (congrArg feat (gather_row (N := 100000) (C := 128) (M := 1600000) nodes_pos
        gather_S100000x128_S1600000x1_S1600000x128_1_0_n_n_0_1_1128 rfl rfl rfl rfl rfl rfl rfl (srcCol s) e k))

/-- The same, 64 columns. -/
theorem raw64_at (feat : S100000x64.Idx → EReal) (s d : IVec S1600000 32) (n : Fin 100000) (k : Fin 64) :
    raw64 feat s d (ix2 n k) = 0 + ∑ e ∈ edgesInto (dstCol d) n, feat (ix2 (sourceRow (N := 100000) nodes_pos (srcCol s) e) k) := by
  refine (scatterAdd_at scatter_S100000x64_S1600000x1_S1600000x64_1_0_0_1 _ (dstCol d)
    (Host.gather gather_S100000x64_S1600000x1_S1600000x64_1_0_n_n_0_1_164 feat (srcCol s)) (ix2 n k)).trans ?_
  refine congrArg₂ (· + ·) ?_
    ((sum_landing_rows (N := 100000) (C := 64) (M := 1600000) scatter_S100000x64_S1600000x1_S1600000x64_1_0_0_1 rfl rfl rfl rfl (dstCol d) n k
      (Host.gather gather_S100000x64_S1600000x1_S1600000x64_1_0_n_n_0_1_164 feat (srcCol s))).trans
      (Finset.sum_congr rfl fun e _ => ?_))
  · exact Ideal.ofBits_zero_f32
  · exact (gather_at gather_S100000x64_S1600000x1_S1600000x64_1_0_n_n_0_1_164 feat (srcCol s) (ix2 e k)).trans
      (congrArg feat (gather_row (N := 100000) (C := 64) (M := 1600000) nodes_pos
        gather_S100000x64_S1600000x1_S1600000x64_1_0_n_n_0_1_164 rfl rfl rfl rfl rfl rfl rfl (srcCol s) e k))

/-- The integer count, read as a real, is the number of edges into the node. -/
theorem deg_at (d : IVec S1600000 32) (n : Fin 100000) :
    (sitofp (F := Ideal) .f32 (degI d) (ix1 n) : EReal) = degR d n := by
  have h : (degI d (ix1 n)).toInt = ((edgesInto (dstCol d) n).card : Int) :=
    count_ones (N := 100000) (M := 1600000) scatter_S100000_S1600000x1_S1600000_n_0_0_1 rfl rfl rfl rfl (by norm_num) (dstCol d) n
  have h2 : (((degI d (ix1 n)).toInt : ℝ) : EReal) = (((edgesInto (dstCol d) n).card : ℝ) : EReal) := by
    rw [h, Int.cast_natCast]
  exact h2

theorem invDeg_at (d : IVec S1600000 32) (n : Fin 100000) :
    invDeg d (ix1 n) = Ideal.div c1 (max (degR d n) c1) := by
  unfold invDeg
  show Ideal.div (Ideal.ofBits .f32 0x3F800000#32) (max (sitofp (F := Ideal) .f32 (degI d) (ix1 n)) (Ideal.ofBits .f32 0x3F800000#32)) = _
  rw [deg_at]

/-- A column of per-node values broadcast over the columns reads, at (n, k), the node's value. -/
theorem bcast2_at {C : Nat} (v : S100000.Idx → EReal) (h1 : S100000.BroadcastsInDim S100000x1 ![0])
    (h2 : S100000x1.BroadcastsInDim (⟨2, ![100000, C]⟩ : Shape) ![0, 1]) (n : Fin 100000) (k : Fin C) :
    broadcastInDim (⟨2, ![100000, C]⟩ : Shape) ![0, 1] h2 (broadcastInDim S100000x1 ![0] h1 v) (ix2 n k) = v (ix1 n) := by
  refine (broadcastInDim_apply _ h2 _ (ix2 n k) (ix2 n (0 : Fin 1)) fun a => ?_).trans
    (broadcastInDim_apply _ h1 v (ix2 n (0 : Fin 1)) (ix1 n) fun a => ?_)
  · match a with
    | ⟨0, _⟩ => rfl
    | ⟨1, _⟩ => rfl
  · match a with
    | ⟨0, _⟩ => rfl

/-- The mean aggregation at (n, k): the summed rows times the reciprocal clipped degree. -/
theorem mean128K_at (feat : S100000x128.Idx → EReal) (s d : IVec S1600000 32) (n : Fin 100000) (k : Fin 128) :
    mean128K feat s d (ix2 n k)
      = (0 + ∑ e ∈ edgesInto (dstCol d) n, feat (ix2 (sourceRow (N := 100000) nodes_pos (srcCol s) e) k)) * Ideal.div c1 (max (degR d n) c1) :=
  (mulf_apply (raw128 feat s d) _ (ix2 n k)).trans
    (congrArg₂ (· * ·) (raw128_at feat s d n k) ((bcast2_at (invDeg d) _ _ n k).trans (invDeg_at d n)))

/-- The same, 64 columns. -/
theorem mean64K_at (feat : S100000x64.Idx → EReal) (s d : IVec S1600000 32) (n : Fin 100000) (k : Fin 64) :
    mean64K feat s d (ix2 n k)
      = (0 + ∑ e ∈ edgesInto (dstCol d) n, feat (ix2 (sourceRow (N := 100000) nodes_pos (srcCol s) e) k)) * Ideal.div c1 (max (degR d n) c1) :=
  (mulf_apply (raw64 feat s d) _ (ix2 n k)).trans
    (congrArg₂ (· * ·) (raw64_at feat s d n k) ((bcast2_at (invDeg d) _ _ n k).trans (invDeg_at d n)))

end Cert.KernelIdeal.Mean

end
-- ==== Proof.RefLayers.lean ====
/-
  The reference read layer by layer, on the extended reals.

  The reference is one straight line of whole-array operations. Each hidden layer is, as whole arrays, a
  pre-activation (two products with transposed weights and a bias row broadcast down the nodes) followed by a
  normalisation (clip at zero, centre each row, scale by the reciprocal root of the row's variance plus a small
  constant, scale and shift by two rows broadcast down the nodes); the last layer is two products and a bias. Read
  at node `n` and column `j` the hidden layers are the layer's row function of row `n` of their two inputs.
-/
import proofs.«109273_j84954453114989_2_alg».proof.Proof.Gen.ReferenceIdeal.Read
import proofs.«109273_j84954453114989_2_alg».proof.Proof.RowLayer
import Idealize.ShloMosaic.Lib.ValueIdx
import Idealize.ShloMosaic.Lib.ValueLayout
import Idealize.ShloMosaic.Lib.Pipeline.Value
import Idealize.ShloMosaic.PureOps.Ideal.Laws

set_option maxRecDepth 100000

noncomputable section

open scoped BigOperators

namespace Cert.ReferenceIdeal.RefValue

open Cert.ReferenceIdeal Cert.ReferenceIdeal.Gen Cert.ReferenceIdeal.Read Idealize.ShloMosaic Idealize.ShloMosaic.ValueIdx Cert.RowLayer

/-! ## Layouts and products at an element -/

/-- The host product of a 100000×128 array with a 128×128 one at (n, j): the sum over the contracted column. -/
theorem dot128_at {φ₁ φ₂ : FTy} (l : FVec Ideal S100000x128 φ₁) (r : FVec Ideal S128x128 φ₂) (n : Fin 100000) (j : Fin 128) :
    Host.dotGeneral (F := Ideal) dot_S100000x128_S128x128_S100000x128_1_0_0_1_n_n none l r (ix2 n j) = ∑ k : Fin 128, l (ix2 n k) * r (ix2 k j) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 n j) ((ValueIdx.contrEquiv1 dot_S100000x128_S128x128_S100000x128_1_0_0_1_n_n 128 rfl rfl).symm k) = ix2 n k :=
    funext fun a => Fin.ext (by
      match a with
      | ⟨0, _⟩ => exact lhs_main_v24_0 _ _
      | ⟨1, _⟩ => exact (lhs_main_v24_1 _ _).trans hk)
  have er : dot_S100000x128_S128x128_S100000x128_1_0_0_1_n_n.rhsIdx (ix2 n j) ((ValueIdx.contrEquiv1 dot_S100000x128_S128x128_S100000x128_1_0_0_1_n_n 128 rfl rfl).symm k) = ix2 k j :=
    funext fun a => Fin.ext (by
      match a with
      | ⟨0, _⟩ => exact (rhs_main_v24_0 _ _).trans hk
      | ⟨1, _⟩ => exact rhs_main_v24_1 _ _)
  rw [el, er]

/-- The host product of a 100000×128 array with a 128×64 one at (n, j): the sum over the contracted column. -/
theorem dot64_at {φ₁ φ₂ : FTy} (l : FVec Ideal S100000x128 φ₁) (r : FVec Ideal S128x64 φ₂) (n : Fin 100000) (j : Fin 64) :
    Host.dotGeneral (F := Ideal) dot_S100000x128_S128x64_S100000x64_1_0_0_1_n_n none l r (ix2 n j) = ∑ k : Fin 128, l (ix2 n k) * r (ix2 k j) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx (ix2 n j) ((ValueIdx.contrEquiv1 dot_S100000x128_S128x64_S100000x64_1_0_0_1_n_n 128 rfl rfl).symm k) = ix2 n k :=
    funext fun a => Fin.ext (by
      match a with
      | ⟨0, _⟩ => exact lhs_main_v128_0 _ _
      | ⟨1, _⟩ => exact (lhs_main_v128_1 _ _).trans hk)
  have er : dot_S100000x128_S128x64_S100000x64_1_0_0_1_n_n.rhsIdx (ix2 n j) ((ValueIdx.contrEquiv1 dot_S100000x128_S128x64_S100000x64_1_0_0_1_n_n 128 rfl rfl).symm k) = ix2 k j :=
    funext fun a => Fin.ext (by
      match a with
      | ⟨0, _⟩ => exact (rhs_main_v128_0 _ _).trans hk
      | ⟨1, _⟩ => exact rhs_main_v128_1 _ _)
  rw [el, er]

/-- A 128×128 weight transposed reads, at (k, j), the weight at (j, k). -/
theorem tr128 {φ : FTy} (x : FVec Ideal S128x128 φ) (k j : Fin 128) :
    transpose S128x128 [1, 0] x transposes_S128x128_S128x128_1_0 (ix2 k j) = x (ix2 j k) :=
  transpose_ix2_apply x _ k j

/-- A 64×128 weight transposed reads, at (k, j), the weight at (j, k). -/
theorem tr64 {φ : FTy} (x : FVec Ideal S64x128 φ) (k : Fin 128) (j : Fin 64) :
    transpose S128x64 [1, 0] x transposes_S64x128_S128x64_1_0 (ix2 k j) = x (ix2 j k) :=
  transpose_ix2_apply x _ k j

/-- A row of 128 entries broadcast down the nodes reads, at (n, j), entry `j`. -/
theorem rowbc128_at (b : FVec Ideal S128 .f32) (n : Fin 100000) (j : Fin 128) :
    broadcastInDim S100000x128 ![0, 1] bcast_S1x128_S100000x128_0_1 (broadcastInDim S1x128 ![1] bcast_S128_S1x128_1 b) (ix2 n j) = b (ix1 j) := by
  refine (broadcastInDim_apply _ bcast_S1x128_S100000x128_0_1 _ (ix2 n j) (ix2 (0 : Fin 1) j) fun a => ?_).trans
    (broadcastInDim_apply _ bcast_S128_S1x128_1 b (ix2 (0 : Fin 1) j) (ix1 j) fun a => ?_)
  · match a with
    | ⟨0, _⟩ => rfl
    | ⟨1, _⟩ => rfl
  · match a with
    | ⟨0, _⟩ => rfl

/-- A row of 64 entries broadcast down the nodes reads, at (n, j), entry `j`. -/
theorem rowbc64_at (b : FVec Ideal S64 .f32) (n : Fin 100000) (j : Fin 64) :
    broadcastInDim S100000x64 ![0, 1] bcast_S1x64_S100000x64_0_1 (broadcastInDim S1x64 ![1] bcast_S64_S1x64_1 b) (ix2 n j) = b (ix1 j) := by
  refine (broadcastInDim_apply _ bcast_S1x64_S100000x64_0_1 _ (ix2 n j) (ix2 (0 : Fin 1) j) fun a => ?_).trans
    (broadcastInDim_apply _ bcast_S64_S1x64_1 b (ix2 (0 : Fin 1) j) (ix1 j) fun a => ?_)
  · match a with
    | ⟨0, _⟩ => rfl
    | ⟨1, _⟩ => rfl
  · match a with
    | ⟨0, _⟩ => rfl

/-- A column of per-node values broadcast along the 128 columns reads, at (n, j), the node's value. -/
theorem colbc_at (v : FVec Ideal S100000x1 .f32) (n : Fin 100000) (j : Fin 128) :
    broadcastInDim S100000x128 ![0, 1] bcast_S100000x1_S100000x128_0_1 v (ix2 n j) = v (ix2 n (0 : Fin 1)) := by
  refine broadcastInDim_apply _ bcast_S100000x1_S100000x128_0_1 v (ix2 n j) (ix2 n (0 : Fin 1)) fun a => ?_
  match a with
  | ⟨0, _⟩ => rfl
  | ⟨1, _⟩ => rfl

/-- Per-node values laid out as a column read, at (n, 0), the node's value. -/
theorem tocol_at (v : FVec Ideal S100000 .f32) (n : Fin 100000) :
    broadcastInDim S100000x1 ![0] bcast_S100000_S100000x1_0 v (ix2 n (0 : Fin 1)) = v (ix1 n) := by
  refine broadcastInDim_apply _ bcast_S100000_S100000x1_0 v (ix2 n (0 : Fin 1)) (ix1 n) fun a => ?_
  match a with
  | ⟨0, _⟩ => rfl

/-- A scalar constant broadcast into the column of per-node values reads, anywhere, the constant. -/
theorem scalarcol_at (w : BitVec 32) (i : S100000x1.Idx) :
    broadcastInDim S100000x1 ![] bcast_S_S100000x1 (constant (F := Ideal) S_ .f32 w) i = Ideal.ofBits .f32 w := rfl

theorem hostRsqrt_at {s : Shape} (v : FVec Ideal s .f32) (i : s.Idx) : Host.rsqrt v i = Ideal.rsqrt (v i) := rfl
theorem hostDivf_at {s : Shape} (a b : FVec Ideal s .f32) (i : s.Idx) : Host.divf a b i = Ideal.div (a i) (b i) := rfl

/-- A row's host sum from zero: the sum of the row's 128 entries. -/
theorem rowsum_at (z : FVec Ideal S100000x128 .f32) (n : Fin 100000) :
    Host.reduceAdd z (constant (F := Ideal) S_ .f32 0x00000000#32) reducesTo_S100000x128_S100000_d1 h_S_ (ix1 n) = ∑ k : Fin 128, z (ix2 n k) := by
  simp only [Host.reduceAdd, Ideal.hostReduceAdd_def]
  rw [Ideal.hostReduceAdd_single reducesTo_S100000x128_S100000_d1 (by decide)]
  have h0 : (constant (F := Ideal) S_ .f32 0x00000000#32) (Shape.Idx.first h_S_) = 0 := Ideal.ofBits_zero_f32
  rw [h0, zero_add]
  refine Finset.sum_congr rfl fun k _ => ?_
  exact congrArg z (funext fun a => Fin.ext (by match a with | ⟨0, _⟩ => rfl | ⟨1, _⟩ => rfl))

/-- A column of per-node values broadcast along the 128 columns. -/
def colB (v : FVec Ideal S100000x1 .f32) : FVec Ideal S100000x128 .f32 :=
  broadcastInDim S100000x128 ![0, 1] bcast_S100000x1_S100000x128_0_1 v

theorem colB_at (v : FVec Ideal S100000x1 .f32) (n : Fin 100000) (j : Fin 128) : colB v (ix2 n j) = v (ix2 n (0 : Fin 1)) :=
  colbc_at v n j

/-- A row of 128 entries broadcast down the nodes. -/
def rowB (b : FVec Ideal S128 .f32) : FVec Ideal S100000x128 .f32 :=
  broadcastInDim S100000x128 ![0, 1] bcast_S1x128_S100000x128_0_1 (broadcastInDim S1x128 ![1] bcast_S128_S1x128_1 b)

theorem rowB_at (b : FVec Ideal S128 .f32) (n : Fin 100000) (j : Fin 128) : rowB b (ix2 n j) = b (ix1 j) :=
  rowbc128_at b n j

/-- The small constant as a column. -/
def epsCol : FVec Ideal S100000x1 .f32 := broadcastInDim S100000x1 ![] bcast_S_S100000x1 (constant (F := Ideal) S_ .f32 0x3727C5AC#32)

theorem epsCol_at (i : S100000x1.Idx) : epsCol i = ceps := rfl

/-! ## A hidden layer as whole arrays -/

/-- The pre-activation: both products and the bias row. -/
def refPre (A X : FVec Ideal S100000x128 .f32) (Wl Wr : FVec Ideal S128x128 .f32) (b : FVec Ideal S128 .f32) : FVec Ideal S100000x128 .f32 :=
  addf (addf (Host.dotGeneral dot_S100000x128_S128x128_S100000x128_1_0_0_1_n_n none A (transpose S128x128 [1, 0] Wl transposes_S128x128_S128x128_1_0))
      (Host.dotGeneral dot_S100000x128_S128x128_S100000x128_1_0_0_1_n_n none X (transpose S128x128 [1, 0] Wr transposes_S128x128_S128x128_1_0)))
    (broadcastInDim S100000x128 ![0, 1] bcast_S1x128_S100000x128_0_1 (broadcastInDim S1x128 ![1] bcast_S128_S1x128_1 b))

theorem refPre_at (A X : FVec Ideal S100000x128 .f32) (Wl Wr : FVec Ideal S128x128 .f32) (b : FVec Ideal S128 .f32) (n : Fin 100000) (j : Fin 128) :
    refPre A X Wl Wr b (ix2 n j) = (∑ k : Fin 128, A (ix2 n k) * Wl (ix2 j k)) + (∑ k : Fin 128, X (ix2 n k) * Wr (ix2 j k)) + b (ix1 j) := by
  unfold refPre
  rw [addf_apply, addf_apply, dot128_at, dot128_at, rowbc128_at]
  refine congrArg₂ (· + ·) (congrArg₂ (· + ·) ?_ ?_) rfl
  · exact Finset.sum_congr rfl fun k _ => congrArg (A (ix2 n k) * ·) (tr128 Wl k j)
  · exact Finset.sum_congr rfl fun k _ => congrArg (X (ix2 n k) * ·) (tr128 Wr k j)

/-- The mean over the 128 columns of every node's row, as a column. -/
def refMeanCol (z : FVec Ideal S100000x128 .f32) : FVec Ideal S100000x1 .f32 :=
  Host.divf (broadcastInDim S100000x1 ![0] bcast_S100000_S100000x1_0
      (Host.reduceAdd z (constant (F := Ideal) S_ .f32 0x00000000#32) reducesTo_S100000x128_S100000_d1 h_S_))
    (broadcastInDim S100000x1 ![] bcast_S_S100000x1 (constant (F := Ideal) S_ .f32 0x43000000#32))

theorem refMeanCol_at (z : FVec Ideal S100000x128 .f32) (n : Fin 100000) :
    refMeanCol z (ix2 n (0 : Fin 1)) = mean128 (fun j => z (ix2 n j)) := by
  unfold refMeanCol mean128
  rw [hostDivf_at, scalarcol_at, tocol_at, rowsum_at]

/-- The clipped array. -/
def refClip (y : FVec Ideal S100000x128 .f32) : FVec Ideal S100000x128 .f32 :=
  maximumf y (broadcastInDim S100000x128 ![] bcast_S_S100000x128 (constant (F := Ideal) S_ .f32 0x00000000#32))

theorem refClip_at (y : FVec Ideal S100000x128 .f32) (i : S100000x128.Idx) : refClip y i = max (y i) 0 := by
  show max (y i) (Ideal.ofBits .f32 0x00000000#32) = _
  rw [Ideal.ofBits_zero_f32]

/-- The normalisation of an array of pre-activations, scaled by `g` and shifted by `be`. -/
def refNormed (y : FVec Ideal S100000x128 .f32) (g be : FVec Ideal S128 .f32) : FVec Ideal S100000x128 .f32 :=
  addf (mulf (mulf
        (subf (refClip y) (colB (refMeanCol (refClip y))))
        (colB (Host.rsqrt (addf
            (refMeanCol (mulf (subf (refClip y) (colB (refMeanCol (refClip y)))) (subf (refClip y) (colB (refMeanCol (refClip y))))))
            epsCol))))
      (rowB g))
    (rowB be)

theorem refNormed_at (y : FVec Ideal S100000x128 .f32) (g be : FVec Ideal S128 .f32) (n : Fin 100000) (j : Fin 128) :
    refNormed y g be (ix2 n j)
      = (max (y (ix2 n j)) 0 - mean128 (fun j' => max (y (ix2 n j')) 0))
          * Ideal.rsqrt (mean128 (fun j' => (max (y (ix2 n j')) 0 - mean128 (fun j'' => max (y (ix2 n j'')) 0))
              * (max (y (ix2 n j')) 0 - mean128 (fun j'' => max (y (ix2 n j'')) 0))) + ceps)
          * g (ix1 j) + be (ix1 j) := by
  unfold refNormed
  simp only [mulf_apply, subf_apply, addf_apply, hostRsqrt_at, colB_at, rowB_at, refMeanCol_at, refClip_at, epsCol_at]

/-- The first hidden layer, as whole arrays. -/
theorem v55_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 x5 x6 : (⟨S128, .f32⟩ : BufTy).Contents (Elt Ideal)) :
    val_main_v55 (F := Ideal) x0 x1 x2 x3 x4 x5 x6 = refNormed (refPre (val_main_v22 (F := Ideal) x0 x1) x0 x2 x3 x4) x5 x6 := rfl

/-- The first hidden layer at (n, j). -/
theorem layer0 (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 x5 x6 : (⟨S128, .f32⟩ : BufTy).Contents (Elt Ideal)) (n : Fin 100000) (j : Fin 128) :
    val_main_v55 (F := Ideal) x0 x1 x2 x3 x4 x5 x6 (ix2 n j)
      = lnrow (fun k => val_main_v22 (F := Ideal) x0 x1 (ix2 n k)) (fun k => x0 (ix2 n k)) (fun j k => x2 (ix2 j k)) (fun j k => x3 (ix2 j k))
          (fun j => x4 (ix1 j)) (fun j => x5 (ix1 j)) (fun j => x6 (ix1 j)) j := by
  rw [v55_eq, refNormed_at]
  simp only [refPre_at]
  rfl

/-- The second hidden layer, as whole arrays. -/
theorem v107_eq (x0 : (⟨S100000x128, .f32⟩ : BufTy).Contents (Elt Ideal)) (x1 : (⟨S2x1600000, .i32⟩ : BufTy).Contents (Elt Ideal)) (x2 x3 : (⟨S128x128, .f32⟩ : BufTy).Contents (Elt Ideal)) (x4 x5 x6 : (⟨S128, .f32⟩ : BufTy).Contents (Elt Ideal)) (x7 x8 : (⟨S128x128, .f32⟩ : BufTy).Contents (Elt Ideal)) (x9 x10 x11 : (⟨S128, .f32⟩ : BufTy).Contents (Elt Ideal)) :
    val_main_v107 (F := Ideal) x0 x1 x2 x3 x4 x5 x6 x7 x8 x9 x10 x11 = refNormed (refPre (val_main_v74 (F := Ideal) x0 x1 x2 x3 x4 x5 x6) (val_main_v55 (F := Ideal) x0 x1 x2 x3 x4 x5 x6) x7 x8 x9) x10 x11 := rfl

/-- The second hidden layer at (n, j). -/
theorem layer1 (x0 : (⟨S100000x128, .f32⟩ : BufTy).Contents (Elt Ideal)) (x1 : (⟨S2x1600000, .i32⟩ : BufTy).Contents (Elt Ideal)) (x2 x3 : (⟨S128x128, .f32⟩ : BufTy).Contents (Elt Ideal)) (x4 x5 x6 : (⟨S128, .f32⟩ : BufTy).Contents (Elt Ideal)) (x7 x8 : (⟨S128x128, .f32⟩ : BufTy).Contents (Elt Ideal)) (x9 x10 x11 : (⟨S128, .f32⟩ : BufTy).Contents (Elt Ideal)) (n : Fin 100000) (j : Fin 128) :
    val_main_v107 (F := Ideal) x0 x1 x2 x3 x4 x5 x6 x7 x8 x9 x10 x11 (ix2 n j)
      = lnrow (fun k => val_main_v74 (F := Ideal) x0 x1 x2 x3 x4 x5 x6 (ix2 n k)) (fun k => val_main_v55 (F := Ideal) x0 x1 x2 x3 x4 x5 x6 (ix2 n k)) (fun j k => x7 (ix2 j k)) (fun j k => x8 (ix2 j k))
          (fun j => x9 (ix1 j)) (fun j => x10 (ix1 j)) (fun j => x11 (ix1 j)) j := by
  rw [v107_eq, refNormed_at]
  simp only [refPre_at]
  rfl

/-! ## The last layer -/

/-- The last layer as whole arrays: the aggregated array and the hidden array each against a transposed weight, and the bias row. -/
def refOut (A H : FVec Ideal S100000x128 .f32) (Wl Wr : FVec Ideal S64x128 .f32) (b : FVec Ideal S64 .f32) : FVec Ideal S100000x64 .f32 :=
  addf (addf (Host.dotGeneral dot_S100000x128_S128x64_S100000x64_1_0_0_1_n_n none A (transpose S128x64 [1, 0] Wl transposes_S64x128_S128x64_1_0))
      (Host.dotGeneral dot_S100000x128_S128x64_S100000x64_1_0_0_1_n_n none H (transpose S128x64 [1, 0] Wr transposes_S64x128_S128x64_1_0)))
    (broadcastInDim S100000x64 ![0, 1] bcast_S1x64_S100000x64_0_1 (broadcastInDim S1x64 ![1] bcast_S64_S1x64_1 b))

theorem refOut_at (A H : FVec Ideal S100000x128 .f32) (Wl Wr : FVec Ideal S64x128 .f32) (b : FVec Ideal S64 .f32) (n : Fin 100000) (o : Fin 64) :
    refOut A H Wl Wr b (ix2 n o) = (∑ k : Fin 128, A (ix2 n k) * Wl (ix2 o k)) + (∑ k : Fin 128, H (ix2 n k) * Wr (ix2 o k)) + b (ix1 o) := by
  unfold refOut
  rw [addf_apply, addf_apply, dot64_at, dot64_at, rowbc64_at]
  refine congrArg₂ (· + ·) (congrArg₂ (· + ·) ?_ ?_) rfl
  · exact Finset.sum_congr rfl fun k _ => congrArg (A (ix2 n k) * ·) (tr64 Wl k o)
  · exact Finset.sum_congr rfl fun k _ => congrArg (H (ix2 n k) * ·) (tr64 Wr k o)

/-- The result, as whole arrays. -/
theorem v134_eq (x0 : (⟨S100000x128, .f32⟩ : BufTy).Contents (Elt Ideal)) (x1 : (⟨S2x1600000, .i32⟩ : BufTy).Contents (Elt Ideal)) (x2 x3 : (⟨S128x128, .f32⟩ : BufTy).Contents (Elt Ideal)) (x4 x5 x6 : (⟨S128, .f32⟩ : BufTy).Contents (Elt Ideal)) (x7 x8 : (⟨S128x128, .f32⟩ : BufTy).Contents (Elt Ideal)) (x9 x10 x11 : (⟨S128, .f32⟩ : BufTy).Contents (Elt Ideal)) (x12 x13 : (⟨S64x128, .f32⟩ : BufTy).Contents (Elt Ideal)) (x14 : (⟨S64, .f32⟩ : BufTy).Contents (Elt Ideal)) :
    val_main_v134 (F := Ideal) x0 x1 x2 x3 x4 x5 x6 x7 x8 x9 x10 x11 x12 x13 x14 = refOut (val_main_v126 (F := Ideal) x0 x1 x2 x3 x4 x5 x6 x7 x8 x9 x10 x11) (val_main_v107 (F := Ideal) x0 x1 x2 x3 x4 x5 x6 x7 x8 x9 x10 x11) x12 x13 x14 := rfl

end Cert.ReferenceIdeal.RefValue

end
-- ==== Proof.RefMean.lean ====
/-
  The reference program's mean aggregation at one element.

  Each layer of the reference program gathers every edge's source row of a feature array, sums the gathered rows
  into the edge's destination node, and divides each node's sum by its in-degree clipped below at one; the
  in-degree is itself a sum of ones over the node's incoming edges. The three layers compute this from the same
  two index columns, so one whole-array function of the feature array says all three. At node `n` and column
  `k` it is the sum, over the edges whose destination word names `n`, of the feature at the edge's source row and
  column `k`, divided by the larger of the number of those edges and one.
-/
import proofs.«109273_j84954453114989_2_alg».proof.Proof.Gen.ReferenceIdeal.Read
import proofs.«109273_j84954453114989_2_alg».proof.Proof.LibScatterRows
import proofs.«109273_j84954453114989_2_alg».proof.Proof.RowLayer

set_option maxRecDepth 16384

noncomputable section

open scoped BigOperators

namespace Cert.ReferenceIdeal.RefMean

open Cert.ReferenceIdeal Cert.ReferenceIdeal.Read Cert.ScatterRows Cert.RowLayer
open Idealize.ShloMosaic Idealize.ShloMosaic.ValueIdx

/-- The mean aggregation of a feature array along the edges `x1` holds: the gathered source rows summed into the
    destination nodes, divided by the clipped in-degrees. -/
def refMean128 (feat : FVec Ideal S100000x128 .f32) (x1 : (⟨S2x1600000, .i32⟩ : BufTy).Contents (Elt Ideal)) :
    FVec Ideal S100000x128 .f32 :=
  Host.divf
    (Host.scatterAdd scatter_S100000x128_S1600000x1_S1600000x128_1_0_0_1 (val_main_v11 (F := Ideal)) (val_main_v12 (F := Ideal) x1)
      (Host.gather gather_S100000x128_S1600000x1_S1600000x128_1_0_n_n_0_1_1128 feat (val_main_v9 (F := Ideal) x1)))
    (val_main_v21 (F := Ideal) x1)

/-- The first layer's mean aggregation is that of the input features. -/
theorem v22_eq (x0 : (⟨S100000x128, .f32⟩ : BufTy).Contents (Elt Ideal)) (x1 : (⟨S2x1600000, .i32⟩ : BufTy).Contents (Elt Ideal)) :
    val_main_v22 (F := Ideal) x0 x1 = refMean128 x0 x1 := rfl

/-- The second layer's mean aggregation is that of the first layer's output. -/
theorem v74_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 x5 x6 : (⟨S128, .f32⟩ : BufTy).Contents (Elt Ideal)) :
    val_main_v74 (F := Ideal) x0 x1 x2 x3 x4 x5 x6 = refMean128 (val_main_v55 (F := Ideal) x0 x1 x2 x3 x4 x5 x6) x1 := rfl

/-- The third layer's mean aggregation is that of the second layer's output. -/
theorem v126_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 x5 x6 : (⟨S128, .f32⟩ : BufTy).Contents (Elt Ideal))
    (x7 x8 : (⟨S128x128, .f32⟩ : BufTy).Contents (Elt Ideal)) (x9 x10 x11 : (⟨S128, .f32⟩ : BufTy).Contents (Elt Ideal)) :
    val_main_v126 (F := Ideal) x0 x1 x2 x3 x4 x5 x6 x7 x8 x9 x10 x11
      = refMean128 (val_main_v107 (F := Ideal) x0 x1 x2 x3 x4 x5 x6 x7 x8 x9 x10 x11) x1 := rfl

/-! ## One-step readings, over arbitrary shapes -/

/-- A float scatter with an `add` body, read at one element: the operand's element plus the sum of the updates
    that land there. -/
theorem scatterAdd_at {s si su : Shape} {w : Nat} (d : ScatterDims s si su) (x : s.Idx → EReal) (idx : IVec si w)
    (upd : su.Idx → EReal) (i : s.Idx) :
    Host.scatterAdd (F := Ideal) (φ := .f32) d x idx upd i
      = x i + ∑ j ∈ Finset.univ.filter (fun j => d.resultIdx? j idx = some i), upd j := rfl

/-- A gather read at one element: the operand at the operand index. -/
theorem gather_at {s si t : Shape} {w : Nat} (g : GatherDims s si t) (x : s.Idx → EReal) (idx : IVec si w) (j : t.Idx) :
    Host.gather g x idx j = x (g.operandIdx j idx) := rfl

/-- A quotient of arrays read at one element. -/
theorem hostDivf_at {s : Shape} (a b : FVec Ideal s .f32) (i : s.Idx) : Host.divf a b i = Ideal.div (a i) (b i) := rfl

/-- Zero plus a sum of ones over a finite set is the number of its elements. -/
theorem sum_ones {ι : Type} (S : Finset ι) : (0 : EReal) + ∑ _e ∈ S, c1 = ((S.card : ℝ) : EReal) := by
  rw [zero_add, Finset.sum_const, c1_eq, ← EReal.coe_nsmul, nsmul_one]

/-- A column of per-node values broadcast over the columns reads, at (n, k), the node's value. -/
theorem bcast2_at {C : Nat} (v : S100000.Idx → EReal) (h1 : S100000.BroadcastsInDim S100000x1 ![0])
    (h2 : S100000x1.BroadcastsInDim (⟨2, ![100000, C]⟩ : Shape) ![0, 1]) (n : Fin 100000) (k : Fin C) :
    broadcastInDim (⟨2, ![100000, C]⟩ : Shape) ![0, 1] h2 (broadcastInDim S100000x1 ![0] h1 v) (ix2 n k) = v (ix1 n) := by
  refine (broadcastInDim_apply _ h2 _ (ix2 n k) (ix2 n (0 : Fin 1)) fun a => ?_).trans
    (broadcastInDim_apply _ h1 v (ix2 n (0 : Fin 1)) (ix1 n) fun a => ?_)
  · match a with
    | ⟨0, _⟩ => rfl
    | ⟨1, _⟩ => rfl
  · match a with
    | ⟨0, _⟩ => rfl

/-- The mean aggregation at (n, k): the sum, over the edges into `n`, of the feature at the edge's source row,
    divided by the number of those edges clipped below at one. -/
theorem refMean128_at (feat : FVec Ideal S100000x128 .f32) (x1 : (⟨S2x1600000, .i32⟩ : BufTy).Contents (Elt Ideal))
    (n : Fin 100000) (k : Fin 128) :
    refMean128 feat x1 (ix2 n k)
      = Ideal.div (0 + ∑ e ∈ edgesInto (val_main_v12 (F := Ideal) x1) n,
            feat (ix2 (sourceRow (N := 100000) (by norm_num) (val_main_v9 (F := Ideal) x1) e) k))
          (max (((edgesInto (val_main_v12 (F := Ideal) x1) n).card : ℝ) : EReal) c1) := by
  refine (hostDivf_at _ _ (ix2 n k)).trans (congrArg₂ Ideal.div ?_ ?_)
  · refine (scatterAdd_at scatter_S100000x128_S1600000x1_S1600000x128_1_0_0_1 _ (val_main_v12 (F := Ideal) x1)
      (Host.gather gather_S100000x128_S1600000x1_S1600000x128_1_0_n_n_0_1_1128 feat (val_main_v9 (F := Ideal) x1)) (ix2 n k)).trans ?_
    refine congrArg₂ (· + ·) ?_
      ((sum_landing_rows (N := 100000) (C := 128) (M := 1600000) scatter_S100000x128_S1600000x1_S1600000x128_1_0_0_1 rfl rfl rfl rfl (val_main_v12 (F := Ideal) x1) n k
        (Host.gather gather_S100000x128_S1600000x1_S1600000x128_1_0_n_n_0_1_1128 feat (val_main_v9 (F := Ideal) x1))).trans
        (Finset.sum_congr rfl fun e _ => ?_))
    · exact Ideal.ofBits_zero_f32
    · exact (gather_at gather_S100000x128_S1600000x1_S1600000x128_1_0_n_n_0_1_1128 feat (val_main_v9 (F := Ideal) x1) (ix2 e k)).trans
        (congrArg feat (gather_row (N := 100000) (C := 128) (M := 1600000) (by norm_num)
          gather_S100000x128_S1600000x1_S1600000x128_1_0_n_n_0_1_1128 rfl rfl rfl rfl rfl rfl rfl (val_main_v9 (F := Ideal) x1) e k))
  · refine (bcast2_at (val_main_v19 (F := Ideal) x1) _ _ n k).trans ?_
    refine (maximumf_apply (val_main_v17 (F := Ideal) x1) (val_main_v18 (F := Ideal)) (ix1 n)).trans
      (congrArg₂ max ?_ rfl)
    refine (scatterAdd_at scatter_S100000_S1600000x1_S1600000_n_0_0_1 _ (val_main_v12 (F := Ideal) x1) (val_main_v14 (F := Ideal)) (ix1 n)).trans ?_
    refine (congrArg₂ (· + ·) Ideal.ofBits_zero_f32
      ((sum_landing_entries (N := 100000) (M := 1600000) scatter_S100000_S1600000x1_S1600000_n_0_0_1 rfl rfl rfl rfl (val_main_v12 (F := Ideal) x1) n
        (val_main_v14 (F := Ideal))).trans (Finset.sum_congr rfl fun e _ => ?_))).trans (sum_ones _)
    rfl

end Cert.ReferenceIdeal.RefMean

end
-- ==== Proof.IndexWords.lean ====
/-
  The two index columns the kernel's first host stretch builds are the reference's.

  Both programs cut the edge list into its two rows, flatten each to a vector of 1600000 words, and turn a vector into
  a one-column matrix; the source words are first wrapped (a negative word has the node count added). The kernel's
  columns are written here as functions of the words its first stretch leaves; the reference's are its own values of
  the edge list. Reading what the stretch leaves in the two word buffers gives the same two expressions in the edge
  list, operation for operation.
-/
import proofs.«109273_j84954453114989_2_alg».proof.Proof.KernelChain
import proofs.«109273_j84954453114989_2_alg».proof.Proof.Gen.ReferenceIdeal.Read

set_option maxRecDepth 16384

noncomputable section

namespace Cert.IndexWords

open Idealize.ShloMosaic Idealize.ShloMosaic.TcCoe Idealize.ShloMosaic.Tactic
open Idealize.SL Idealize.SL.Sem

variable (m : (ℓ : Loc Cert.KernelIdeal.nD Cert.KernelIdeal.τ Cert.KernelIdeal.sig) → Buf (Elt Ideal) ℓ)
  (ρ : Dev Cert.KernelIdeal.nD → PrngReg)

set_option maxHeartbeats 8000000 in
/-- The destination column: the edge list's second row, flattened, as one column. -/
theorem dst_words (c : Dev Cert.KernelIdeal.nD) :
    Cert.KernelIdeal.Chain.dstCol (Cert.KernelIdeal.Chain.dstW m ρ c)
      = Cert.ReferenceIdeal.Read.val_main_v12 (F := Ideal)
          (m ((c : Thread Cert.KernelIdeal.nD Cert.KernelIdeal.τ).loc Cert.KernelIdeal.main_arg1)) := by
  show Cert.KernelIdeal.Chain.dstCol (StableHlo.after Cert.KernelIdeal.Gen.hostOps0 (Cert.KernelIdeal.Gen.W0 m ρ c)
      (Proc.devRef .tc Cert.KernelIdeal.main_v3)) = _
  unfold Cert.KernelIdeal.Chain.dstCol
  after_results_simp
  first | done | rfl

set_option maxHeartbeats 8000000 in
/-- The source column: the edge list's first row, flattened, each negative word wrapped by the node count, as one
    column. -/
theorem src_words (c : Dev Cert.KernelIdeal.nD) :
    Cert.KernelIdeal.Chain.srcCol (Cert.KernelIdeal.Chain.srcW m ρ c)
      = Cert.ReferenceIdeal.Read.val_main_v9 (F := Ideal)
          (m ((c : Thread Cert.KernelIdeal.nD Cert.KernelIdeal.τ).loc Cert.KernelIdeal.main_arg1)) := by
  show Cert.KernelIdeal.Chain.srcCol (StableHlo.after Cert.KernelIdeal.Gen.hostOps0 (Cert.KernelIdeal.Gen.W0 m ρ c)
      (Proc.devRef .tc Cert.KernelIdeal.main_v1)) = _
  unfold Cert.KernelIdeal.Chain.srcCol
  after_results_simp
  first | done | rfl

end Cert.IndexWords

end
-- ==== Proof.Network.lean ====
/-
  The network over an abstract graph, in the two orders the two programs compute it.

  A graph is given by, for each node, the finite set of its incoming edges, and for each edge its source node. The
  mean of a feature over a node's incoming edges divides the sum by the number of those edges clipped below at one;
  multiplying by the reciprocal instead gives the same extended real. A hidden layer applies the row function to a
  node's mean row and own row. The last layer may average the hidden rows and then apply the neighbour weight, or
  apply the weight to every node's row first and average the results: for real inputs both are the same finite sum.
-/
import proofs.«109273_j84954453114989_2_alg».proof.Proof.RowLayer

noncomputable section

open scoped BigOperators

namespace Cert.Network

open Idealize.ShloMosaic Cert.RowLayer

variable {ι : Type} {N : Nat} (E : Fin N → Finset ι) (ρ : ι → Fin N)

/-- A node's in-degree clipped below at one. -/
def dn (n : Fin N) : EReal := max (((E n).card : ℝ) : EReal) c1

/-- The mean over a node's incoming edges, by division. -/
def aggDiv {C : Nat} (feat : Fin N → Fin C → EReal) (n : Fin N) (c : Fin C) : EReal :=
  Ideal.div (0 + ∑ e ∈ E n, feat (ρ e) c) (dn E n)

/-- The mean over a node's incoming edges, by the reciprocal. -/
def aggMul {C : Nat} (feat : Fin N → Fin C → EReal) (n : Fin N) (c : Fin C) : EReal :=
  (0 + ∑ e ∈ E n, feat (ρ e) c) * Ideal.div c1 (dn E n)

/-- The clipped degree is a nonzero real. -/
theorem dn_real (n : Fin N) : ∃ r : ℝ, dn E n = (r : EReal) ∧ r ≠ 0 := by
  -- the maximum of two reals is a real, and this one is at least 1
  refine ⟨max ((E n).card : ℝ) 1, ?_, ?_⟩
  · rw [dn, c1_eq, coe_max]
  · exact (lt_of_lt_of_le one_pos (le_max_right _ _)).ne'

/-- The two means are one extended real, whatever the features. -/
theorem aggMul_eq {C : Nat} (feat : Fin N → Fin C → EReal) (n : Fin N) (c : Fin C) :
    aggMul E ρ feat n c = aggDiv E ρ feat n c := by
  exact mul_recip _ _ (dn_real E n)

/-- The mean of real features is real. -/
theorem aggDiv_real {C : Nat} (feat : Fin N → Fin C → EReal) (hf : ∀ r c, IsR (feat r c)) (n : Fin N) (c : Fin C) :
    IsR (aggDiv E ρ feat n c) := by
  rw [← aggMul_eq]
  exact mean_real (E n) (fun e => feat (ρ e) c) (dn E n) (fun e => hf (ρ e) c) (dn_real E n)

/-- A hidden layer: the row function of a node's mean row and its own row. -/
def hidden (X : Fin N → Fin 128 → EReal) (Wl Wr : Fin 128 → Fin 128 → EReal) (b g be : Fin 128 → EReal) : Fin N → Fin 128 → EReal :=
  fun n j => lnrow (aggDiv E ρ X n) (X n) Wl Wr b g be j

/-- A hidden layer of real inputs is real. -/
theorem hidden_real (X : Fin N → Fin 128 → EReal) (Wl Wr : Fin 128 → Fin 128 → EReal) (b g be : Fin 128 → EReal)
    (hX : ∀ r k, IsR (X r k)) (hWl : ∀ j k, IsR (Wl j k)) (hWr : ∀ j k, IsR (Wr j k))
    (hb : ∀ j, IsR (b j)) (hg : ∀ j, IsR (g j)) (hbe : ∀ j, IsR (be j)) (n : Fin N) (j : Fin 128) :
    IsR (hidden E ρ X Wl Wr b g be n j) := by
  exact lnrow_real (aggDiv E ρ X n) (X n) Wl Wr b g be (fun k => aggDiv_real E ρ X hX n k) (fun k => hX n k)
    hWl hWr hb hg hbe j

/-- The last layer, averaging first. -/
def outDiv (H : Fin N → Fin 128 → EReal) (Wl Wr : Fin 64 → Fin 128 → EReal) (b : Fin 64 → EReal) (n : Fin N) (o : Fin 64) : EReal :=
  (∑ k, aggDiv E ρ H n k * Wl o k) + (∑ k, H n k * Wr o k) + b o

/-- The last layer, applying the neighbour weight first. -/
def outMul (H : Fin N → Fin 128 → EReal) (Wl Wr : Fin 64 → Fin 128 → EReal) (b : Fin 64 → EReal) (n : Fin N) (o : Fin 64) : EReal :=
  aggMul E ρ (fun r o' => ∑ k, H r k * Wl o' k) n o + (∑ k, H n k * Wr o k) + b o

/-- For real hidden rows and a real neighbour weight the two orders of the last layer agree. -/
theorem out_eq (H : Fin N → Fin 128 → EReal) (Wl Wr : Fin 64 → Fin 128 → EReal) (b : Fin 64 → EReal)
    (hH : ∀ r k, IsR (H r k)) (hWl : ∀ o k, IsR (Wl o k)) (n : Fin N) (o : Fin 64) :
    outMul E ρ H Wl Wr b n o = outDiv E ρ H Wl Wr b n o := by
  -- the neighbour terms agree: a mean of weighted sums is the weighted sum of the means
  have key : aggMul E ρ (fun r o' => ∑ k, H r k * Wl o' k) n o = ∑ k, aggDiv E ρ H n k * Wl o k :=
    mean_then_map (E n) ρ H (Wl o) (dn E n) hH (hWl o) (dn_real E n)
  -- the other two summands are the same on both sides
  rw [outMul, outDiv, key]

end Cert.Network

end
-- ==== Proof.FiniteInputs.lean ====
/-
  The certificate's precondition, read back: every float argument is a real number at every index.

  The precondition program computes, for each of the fourteen float arguments `x`, the test `|x| < +∞` at every
  index, takes the conjunction over all indices, and takes the conjunction of the fourteen results; the claim's
  hypothesis says that this one bit is 1. A conjunction of bits is 1 only when both are, a conjunction over all
  indices is 1 only when the bit at each index is, and on the extended reals `max x (-x) < ⊤` fails at both
  infinities: `max ⊤ ⊥ = ⊤` and `max ⊥ ⊤ = ⊤`. So each element is the coercion of a real.
-/
import proofs.«109273_j84954453114989_2_alg».proof.Defs
import proofs.«109273_j84954453114989_2_alg».proof.Proof.RowLayer
import Idealize.ShloMosaic.Lib.ReduceAll
import Idealize.ShloMosaic.Lib.ValueIdx

noncomputable section

namespace Cert.FiniteInputs

open Idealize.ShloMosaic Idealize.SL.Sem
open Cert.RowLayer (IsR)

/-- The shape with no axes has one index. -/
instance : Subsingleton Cert.Pre_finite_inputs.S_.Idx := ⟨fun a b => funext fun d => d.elim0⟩

/-- The word `0x7F800000` (all-ones exponent, zero fraction, sign clear) denotes `+∞`. -/
theorem ofBits_inf : Ideal.ofBits .f32 0x7F800000#32 = ⊤ := by
  simp [Ideal.ofBits, Ideal.ieee]

/-- An extended real whose absolute value `max x (-x)` is below `+∞` is a real number: at `⊤` and at `⊥` the
    maximum is `⊤`. -/
theorem isR_of_abs_lt_top (x : EReal) (h : Ideal.cmp .olt (max x (-x)) ⊤ = 1#1) : IsR x := by
  induction x using EReal.rec with
  | bot => simp [Ideal.cmp] at h
  | coe r => exact ⟨r, rfl⟩
  | top => simp [Ideal.cmp] at h

/-- One argument's test: if the conjunction over all indices of `|x i| < +∞` is 1, every `x i` is real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x) (broadcastInDim s ![] hb (constant Cert.Pre_finite_inputs.S_ .f32 0x7F800000#32)))
          (constantI Cert.Pre_finite_inputs.S_ 1 1#1) hr hu j = 1#1)
    (i : s.Idx) : IsR (x i) := by
  have hi := Host.reduce_andi_all _ _ hr hu j e i
  apply isR_of_abs_lt_top
  rw [← ofBits_inf]
  exact hi

/-- The precondition decoded: on every device, each of the fourteen float arguments is real at every index. -/
theorem args_real (m : (ℓ : Loc Cert.KernelIdeal.nD Cert.KernelIdeal.τ Cert.KernelIdeal.sig) → Buf (Elt Ideal) ℓ)
    [hPre_finite_inputs : Cert.Pre_finite_inputs.Facts] (h : Cert.Pre_KernelIdeal m) (c : Dev Cert.KernelIdeal.nD) :
    (∀ i, IsR (m ((c.tc : Thread Cert.KernelIdeal.nD Cert.KernelIdeal.τ).loc Cert.KernelIdeal.main_arg0) i))
      ∧ (∀ i, IsR (m ((c.tc : Thread Cert.KernelIdeal.nD Cert.KernelIdeal.τ).loc Cert.KernelIdeal.main_arg2) i))
      ∧ (∀ i, IsR (m ((c.tc : Thread Cert.KernelIdeal.nD Cert.KernelIdeal.τ).loc Cert.KernelIdeal.main_arg3) i))
      ∧ (∀ i, IsR (m ((c.tc : Thread Cert.KernelIdeal.nD Cert.KernelIdeal.τ).loc Cert.KernelIdeal.main_arg4) i))
      ∧ (∀ i, IsR (m ((c.tc : Thread Cert.KernelIdeal.nD Cert.KernelIdeal.τ).loc Cert.KernelIdeal.main_arg5) i))
      ∧ (∀ i, IsR (m ((c.tc : Thread Cert.KernelIdeal.nD Cert.KernelIdeal.τ).loc Cert.KernelIdeal.main_arg6) i))
      ∧ (∀ i, IsR (m ((c.tc : Thread Cert.KernelIdeal.nD Cert.KernelIdeal.τ).loc Cert.KernelIdeal.main_arg7) i))
      ∧ (∀ i, IsR (m ((c.tc : Thread Cert.KernelIdeal.nD Cert.KernelIdeal.τ).loc Cert.KernelIdeal.main_arg8) i))
      ∧ (∀ i, IsR (m ((c.tc : Thread Cert.KernelIdeal.nD Cert.KernelIdeal.τ).loc Cert.KernelIdeal.main_arg9) i))
      ∧ (∀ i, IsR (m ((c.tc : Thread Cert.KernelIdeal.nD Cert.KernelIdeal.τ).loc Cert.KernelIdeal.main_arg10) i))
      ∧ (∀ i, IsR (m ((c.tc : Thread Cert.KernelIdeal.nD Cert.KernelIdeal.τ).loc Cert.KernelIdeal.main_arg11) i))
      ∧ (∀ i, IsR (m ((c.tc : Thread Cert.KernelIdeal.nD Cert.KernelIdeal.τ).loc Cert.KernelIdeal.main_arg12) i))
      ∧ (∀ i, IsR (m ((c.tc : Thread Cert.KernelIdeal.nD Cert.KernelIdeal.τ).loc Cert.KernelIdeal.main_arg13) i))
      ∧ (∀ i, IsR (m ((c.tc : Thread Cert.KernelIdeal.nD Cert.KernelIdeal.τ).loc Cert.KernelIdeal.main_arg14) i)) := by
  -- the one result bit, on this device
  have e := congrFun (h c) ValueIdx.ix0
  -- the program's chain of `let`s, in view
  dsimp only [Cert.Pre_finite_inputs.fn, Cert.Pre_finite_inputs.fn_part1, Cert.Pre_finite_inputs.fn_part2,
    Cert.Pre_finite_inputs.fn_part3, Cert.Pre_finite_inputs.fn_part4] at e
  -- a conjunction of bits is 1 only when each is: fourteen tests, nested to the left
  simp only [andi, IntOp.andi_eq_one] at e
  obtain ⟨⟨⟨⟨⟨⟨⟨⟨⟨⟨⟨⟨⟨e0, e2⟩, e3⟩, e4⟩, e5⟩, e6⟩, e7⟩, e8⟩, e9⟩, e10⟩, e11⟩, e12⟩, e13⟩, e14⟩ := e
  -- each test is a conjunction over all indices of `|x i| < +∞`
  exact ⟨all_real _ _ _ _ _ e0, all_real _ _ _ _ _ e2, all_real _ _ _ _ _ e3, all_real _ _ _ _ _ e4,
    all_real _ _ _ _ _ e5, all_real _ _ _ _ _ e6, all_real _ _ _ _ _ e7, all_real _ _ _ _ _ e8,
    all_real _ _ _ _ _ e9, all_real _ _ _ _ _ e10, all_real _ _ _ _ _ e11, all_real _ _ _ _ _ e12,
    all_real _ _ _ _ _ e13, all_real _ _ _ _ _ e14⟩

end Cert.FiniteInputs

end
-- ==== Proof.Bridge.lean ====
/-
  The two programs compute one function.

  Both programs' index columns are the same arrays, so both aggregate over the same sets of incoming edges from the
  same source rows. Read at an element, each program's hidden layers are the row function of a node's mean row and
  own row; the kernel's mean multiplies by a reciprocal where the reference's divides, one extended real either way.
  In the last layer the kernel applies the neighbour weight before averaging and the reference after; the hidden
  rows are real because every float argument is finite, and for real rows the two orders are one finite sum.
-/
import proofs.«109273_j84954453114989_2_alg».proof.Proof.KernelValue
import proofs.«109273_j84954453114989_2_alg».proof.Proof.KernelMean
import proofs.«109273_j84954453114989_2_alg».proof.Proof.RefLayers
import proofs.«109273_j84954453114989_2_alg».proof.Proof.RefMean
import proofs.«109273_j84954453114989_2_alg».proof.Proof.IndexWords
import proofs.«109273_j84954453114989_2_alg».proof.Proof.Network
import proofs.«109273_j84954453114989_2_alg».proof.Proof.FiniteInputs

set_option maxRecDepth 16384

noncomputable section

open scoped BigOperators

namespace Cert.Bridge

open Cert.RowLayer Cert.ScatterRows Cert.Network Cert.IndexWords
open Cert.KernelIdeal.Chain Cert.KernelIdeal.Mean Cert.KernelIdeal.Value Cert.KernelIdeal.Blocks
open Cert.ReferenceIdeal.RefValue Cert.ReferenceIdeal.RefMean
open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The edges into node `n`. -/
def E (n : Fin 100000) : Finset (Fin 1600000) :=
  edgesInto (Cert.ReferenceIdeal.Read.val_main_v12 (F := Ideal) (m ((c : Thread Cert.KernelIdeal.nD Cert.KernelIdeal.τ).loc Cert.KernelIdeal.main_arg1))) n

/-- The source node of edge `e`. -/
def src (e : Fin 1600000) : Fin 100000 :=
  sourceRow (N := 100000) (by norm_num) (Cert.ReferenceIdeal.Read.val_main_v9 (F := Ideal) (m ((c : Thread Cert.KernelIdeal.nD Cert.KernelIdeal.τ).loc Cert.KernelIdeal.main_arg1))) e

/-- The input features by node and column. -/
def Xf : Fin 100000 → Fin 128 → EReal := fun r k => (m ((c : Thread Cert.KernelIdeal.nD Cert.KernelIdeal.τ).loc Cert.KernelIdeal.main_arg0)) (ix2 r k)
/-- A 128×128 weight argument by row and column. -/
def W2 : Fin 128 → Fin 128 → EReal := fun j k => (m ((c : Thread Cert.KernelIdeal.nD Cert.KernelIdeal.τ).loc Cert.KernelIdeal.main_arg2)) (ix2 j k)
def W3 : Fin 128 → Fin 128 → EReal := fun j k => (m ((c : Thread Cert.KernelIdeal.nD Cert.KernelIdeal.τ).loc Cert.KernelIdeal.main_arg3)) (ix2 j k)
def W7 : Fin 128 → Fin 128 → EReal := fun j k => (m ((c : Thread Cert.KernelIdeal.nD Cert.KernelIdeal.τ).loc Cert.KernelIdeal.main_arg7)) (ix2 j k)
def W8 : Fin 128 → Fin 128 → EReal := fun j k => (m ((c : Thread Cert.KernelIdeal.nD Cert.KernelIdeal.τ).loc Cert.KernelIdeal.main_arg8)) (ix2 j k)
/-- A 64×128 weight argument by row and column. -/
def W12 : Fin 64 → Fin 128 → EReal := fun j k => (m ((c : Thread Cert.KernelIdeal.nD Cert.KernelIdeal.τ).loc Cert.KernelIdeal.main_arg12)) (ix2 j k)
def W13 : Fin 64 → Fin 128 → EReal := fun j k => (m ((c : Thread Cert.KernelIdeal.nD Cert.KernelIdeal.τ).loc Cert.KernelIdeal.main_arg13)) (ix2 j k)
/-- A row argument by column. -/
def v4 : Fin 128 → EReal := fun j => (m ((c : Thread Cert.KernelIdeal.nD Cert.KernelIdeal.τ).loc Cert.KernelIdeal.main_arg4)) (ix1 j)
def v5 : Fin 128 → EReal := fun j => (m ((c : Thread Cert.KernelIdeal.nD Cert.KernelIdeal.τ).loc Cert.KernelIdeal.main_arg5)) (ix1 j)
def v6 : Fin 128 → EReal := fun j => (m ((c : Thread Cert.KernelIdeal.nD Cert.KernelIdeal.τ).loc Cert.KernelIdeal.main_arg6)) (ix1 j)
def v9 : Fin 128 → EReal := fun j => (m ((c : Thread Cert.KernelIdeal.nD Cert.KernelIdeal.τ).loc Cert.KernelIdeal.main_arg9)) (ix1 j)
def v10 : Fin 128 → EReal := fun j => (m ((c : Thread Cert.KernelIdeal.nD Cert.KernelIdeal.τ).loc Cert.KernelIdeal.main_arg10)) (ix1 j)
def v11 : Fin 128 → EReal := fun j => (m ((c : Thread Cert.KernelIdeal.nD Cert.KernelIdeal.τ).loc Cert.KernelIdeal.main_arg11)) (ix1 j)
def v14 : Fin 64 → EReal := fun j => (m ((c : Thread Cert.KernelIdeal.nD Cert.KernelIdeal.τ).loc Cert.KernelIdeal.main_arg14)) (ix1 j)

/-! ## The kernel's side -/

/-- The kernel's 128-column mean aggregation of any features is the mean over the graph. -/
theorem kmean (feat : Cert.KernelIdeal.S100000x128.Idx → EReal) (n : Fin 100000) (k : Fin 128) :
    mean128K feat (srcW m ρ c) (dstW m ρ c) (ix2 n k) = aggDiv (E m c) (src m c) (fun r c' => feat (ix2 r c')) n k := by
  rw [mean128K_at]
  unfold degR
  rw [dst_words m ρ c, src_words m ρ c]
  exact aggMul_eq (E m c) (src m c) (fun r c' => feat (ix2 r c')) n k

theorem kh0 (n : Fin 100000) (j : Fin 128) :
    h0 m ρ c (ix2 n j) = Network.hidden (E m c) (src m c) (Xf m c) (W2 m c) (W3 m c) (v4 m c) (v5 m c) (v6 m c) n j := by
  unfold h0 layerArr Network.hidden
  exact lnrow_congr (fun k => kmean m ρ c _ n k) (fun _ => rfl) (fun _ _ => rfl) (fun _ _ => rfl) (fun _ => rfl) (fun _ => rfl) (fun _ => rfl) rfl

theorem kh1 (n : Fin 100000) (j : Fin 128) :
    h1 m ρ c (ix2 n j) = Network.hidden (E m c) (src m c) (fun r k => h0 m ρ c (ix2 r k)) (W7 m c) (W8 m c) (v9 m c) (v10 m c) (v11 m c) n j := by
  unfold h1 layerArr Network.hidden
  exact lnrow_congr (fun k => kmean m ρ c _ n k) (fun _ => rfl) (fun _ _ => rfl) (fun _ _ => rfl) (fun _ => rfl) (fun _ => rfl) (fun _ => rfl) rfl

theorem kres (n : Fin 100000) (o : Fin 64) :
    result m ρ c (ix2 n o) = outMul (E m c) (src m c) (fun r k => h1 m ρ c (ix2 r k)) (W12 m c) (W13 m c) (v14 m c) n o := by
  unfold result outArr
  show combRow (mean64K _ _ _ (ix2 n o)) _ _ _ = _
  rw [mean64K_at]
  unfold degR
  rw [dst_words m ρ c, src_words m ρ c]
  rfl

/-! ## The reference's side -/

theorem rmean (feat : FVec Ideal Cert.ReferenceIdeal.S100000x128 .f32) (n : Fin 100000) (k : Fin 128) :
    refMean128 feat (m ((c : Thread Cert.KernelIdeal.nD Cert.KernelIdeal.τ).loc Cert.KernelIdeal.main_arg1)) (ix2 n k) = aggDiv (E m c) (src m c) (fun r c' => feat (ix2 r c')) n k :=
  refMean128_at feat _ n k

theorem rh0 (n : Fin 100000) (j : Fin 128) :
    Cert.ReferenceIdeal.Read.val_main_v55 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (ix2 n j) = Network.hidden (E m c) (src m c) (Xf m c) (W2 m c) (W3 m c) (v4 m c) (v5 m c) (v6 m c) n j := by
  rw [layer0]
  unfold Network.hidden
  refine lnrow_congr (fun k => ?_) (fun _ => rfl) (fun _ _ => rfl) (fun _ _ => rfl) (fun _ => rfl) (fun _ => rfl) (fun _ => rfl) rfl
  rw [v22_eq]
  exact rmean m c _ n k

theorem rh1 (n : Fin 100000) (j : Fin 128) :
    Cert.ReferenceIdeal.Read.val_main_v107 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (ix2 n j)
      = Network.hidden (E m c) (src m c) (fun r k => Cert.ReferenceIdeal.Read.val_main_v55 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (ix2 r k)) (W7 m c) (W8 m c) (v9 m c) (v10 m c) (v11 m c) n j := by
  rw [layer1]
  unfold Network.hidden
  refine lnrow_congr (fun k => ?_) (fun _ => rfl) (fun _ _ => rfl) (fun _ _ => rfl) (fun _ => rfl) (fun _ => rfl) (fun _ => rfl) rfl
  rw [v74_eq]
  exact rmean m c _ n k

theorem rres (n : Fin 100000) (o : Fin 64) :
    Cert.ReferenceIdeal.Read.val_main_v134 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (ix2 n o)
      = outDiv (E m c) (src m c) (fun r k => Cert.ReferenceIdeal.Read.val_main_v107 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (ix2 r k)) (W12 m c) (W13 m c) (v14 m c) n o := by
  rw [v134_eq, refOut_at]
  unfold outDiv
  refine congrArg₂ (· + ·) (congrArg₂ (· + ·) (Finset.sum_congr rfl fun k _ => congrArg (fun x : EReal => x * W12 m c o k) ?_) rfl) rfl
  rw [v126_eq]
  exact rmean m c _ n k

/-! ## The two sides meet -/

theorem h0_eq (n : Fin 100000) (j : Fin 128) : h0 m ρ c (ix2 n j) = Cert.ReferenceIdeal.Read.val_main_v55 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (ix2 n j) :=
  (kh0 m ρ c n j).trans (rh0 m c n j).symm

theorem h1_eq (n : Fin 100000) (j : Fin 128) : h1 m ρ c (ix2 n j) = Cert.ReferenceIdeal.Read.val_main_v107 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (ix2 n j) := by
  refine (kh1 m ρ c n j).trans ?_
  have e : (fun (r : Fin 100000) (k : Fin 128) => h0 m ρ c (ix2 r k)) = fun r k => Cert.ReferenceIdeal.Read.val_main_v55 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (ix2 r k) :=
    funext fun r => funext fun k => h0_eq m ρ c r k
  rw [e]
  exact (rh1 m c n j).symm

variable [hPre_finite_inputs : Cert.Pre_finite_inputs.Facts]

/-- The first hidden layer's features are real when the float arguments are finite. -/
theorem h0_real (hpre : Cert.Pre_KernelIdeal m) (r : Fin 100000) (k : Fin 128) : IsR (h0 m ρ c (ix2 r k)) := by
  have ha := Cert.FiniteInputs.args_real m hpre c
  rw [kh0]
  exact hidden_real (E m c) (src m c) (Xf m c) (W2 m c) (W3 m c) (v4 m c) (v5 m c) (v6 m c)
    (fun r k => ha.1 _) (fun j k => ha.2.1 _) (fun j k => ha.2.2.1 _) (fun j => ha.2.2.2.1 _) (fun j => ha.2.2.2.2.1 _) (fun j => ha.2.2.2.2.2.1 _) r k

/-- The second hidden layer's features are real when the float arguments are finite. -/
theorem h1_real (hpre : Cert.Pre_KernelIdeal m) (r : Fin 100000) (k : Fin 128) : IsR (h1 m ρ c (ix2 r k)) := by
  have ha := Cert.FiniteInputs.args_real m hpre c
  rw [kh1]
  exact hidden_real (E m c) (src m c) (fun r k => h0 m ρ c (ix2 r k)) (W7 m c) (W8 m c) (v9 m c) (v10 m c) (v11 m c)
    (fun r k => h0_real m ρ c hpre r k) (fun j k => ha.2.2.2.2.2.2.1 _) (fun j k => ha.2.2.2.2.2.2.2.1 _) (fun j => ha.2.2.2.2.2.2.2.2.1 _)
    (fun j => ha.2.2.2.2.2.2.2.2.2.1 _) (fun j => ha.2.2.2.2.2.2.2.2.2.2.1 _) r k

/-- The kernel's result is the reference's, element by element. -/
theorem result_at (hpre : Cert.Pre_KernelIdeal m) (n : Fin 100000) (o : Fin 64) :
    result m ρ c (ix2 n o) = Cert.ReferenceIdeal.Read.val_main_v134 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (ix2 n o) := by
  have ha := Cert.FiniteInputs.args_real m hpre c
  refine (kres m ρ c n o).trans ?_
  refine (out_eq (E m c) (src m c) (fun r k => h1 m ρ c (ix2 r k)) (W12 m c) (W13 m c) (v14 m c)
    (fun r k => h1_real m ρ c hpre r k) (fun o k => ha.2.2.2.2.2.2.2.2.2.2.2.1 _) n o).trans ?_
  have e : (fun (r : Fin 100000) (k : Fin 128) => h1 m ρ c (ix2 r k)) = fun r k => Cert.ReferenceIdeal.Read.val_main_v107 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (ix2 r k) :=
    funext fun r => funext fun k => h1_eq m ρ c r k
  rw [e]
  exact (rres m c n o).symm

/-- The kernel's result array is the reference's. -/
theorem result_eq (hpre : Cert.Pre_KernelIdeal m) :
    result m ρ c = Cert.ReferenceIdeal.Read.val_main_v134 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) := by
  funext i
  exact (congrArg (result m ρ c) (eq_ix2 i)).trans ((result_at m ρ c hpre (i 0) (i 1)).trans
    (congrArg (Cert.ReferenceIdeal.Read.val_main_v134 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14))) (eq_ix2 i)).symm)

end Cert.Bridge

end
-- ==== Proof.lean ====
/-
  The certificate's claim: a three-layer mean-aggregation graph network, computed by four tiled kernels with the
  aggregation between them, equals its plain reference on the extended reals when every float input is finite.

  The three frames are the generated runs. The idealization rewrote nothing, so that conjunct is trivial. For the
  value conjunct both programs are read down to one function of the arguments: each hidden layer is, at a node, the
  same row function (two products with weight rows, a bias, a clip at zero, a normalisation of the row) of the
  node's mean-aggregated row and its own row; the kernel counts in-degrees once in integers and multiplies by the
  reciprocal where the reference divides by a float count, which is the same extended real; and in the last layer
  the kernel applies the neighbour weight to every node's row before averaging over incoming edges while the
  reference averages first — for real rows, which finite inputs give, the two are the same finite sum in two orders.
-/
import proofs.«109273_j84954453114989_2_alg».proof.Defs
import proofs.«109273_j84954453114989_2_alg».proof.Proof.Gen.Kernel
import proofs.«109273_j84954453114989_2_alg».proof.Proof.Gen.Kernel.Skeleton
import proofs.«109273_j84954453114989_2_alg».proof.Proof.Gen.Kernel.Launch
import proofs.«109273_j84954453114989_2_alg».proof.Proof.Gen.Kernel.Points
import proofs.«109273_j84954453114989_2_alg».proof.Proof.Gen.Kernel.Frame
import proofs.«109273_j84954453114989_2_alg».proof.Proof.Gen.KernelIdeal
import proofs.«109273_j84954453114989_2_alg».proof.Proof.Gen.KernelIdeal.Skeleton
import proofs.«109273_j84954453114989_2_alg».proof.Proof.Gen.KernelIdeal.Launch
import proofs.«109273_j84954453114989_2_alg».proof.Proof.Gen.KernelIdeal.Points
import proofs.«109273_j84954453114989_2_alg».proof.Proof.Gen.KernelIdeal.Frame
import proofs.«109273_j84954453114989_2_alg».proof.Proof.Gen.ReferenceIdeal
import proofs.«109273_j84954453114989_2_alg».proof.Proof.Gen.Pre_finite_inputs
import proofs.«109273_j84954453114989_2_alg».proof.Proof.Gen.ReferenceIdeal.Read
import proofs.«109273_j84954453114989_2_alg».proof.Proof.KernelRun
import proofs.«109273_j84954453114989_2_alg».proof.Proof.Bridge
import Idealize.ShloMosaic.Adequacy
import Idealize.ShloMosaic.Init

set_option maxRecDepth 16384

noncomputable section

namespace Cert.Proof

open Idealize.ShloMosaic Idealize.SL.Sem

/-- The word-level kernel's frame: the generated run. -/
theorem frame_kernel : Cert.frame_Kernel := fun m ρ _ => Cert.Kernel.Gen.frame m ρ

/-- The idealized kernel's frame: the generated run. -/
theorem frame_kernelIdeal : Cert.frame_KernelIdeal := fun m ρ _ => Cert.KernelIdeal.Gen.frame m ρ

/-- The reference's frame: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the same result array: the kernel's run ends at its result function of the
    arguments, the reference's at its own, and for finite arguments the two functions are one. -/
theorem algebraic : Cert.algebraic_KernelIdeal_ReferenceIdeal := by
  intro m ρ m' ρ' hpre hagree
  refine ⟨fun c => Cert.KernelIdeal.Value.result m ρ c, ?_, ?_⟩
  · exact (θ_run Cert.KernelIdeal.defs _ _).mono
      (fun r h c => ⟨(h c).1.trans (Cert.KernelIdeal.Value.kernel_result m ρ c), (h c).2⟩)
      (Cert.KernelIdeal.RunValue.run_result m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14⟩ := hagree c
    rw [Cert.ReferenceIdeal.Read.val_main_v134_eq, a0, a1, a2, a3, a4, a5, a6, a7, a8, a9, a10, a11, a12, a13, a14]
    exact (Cert.Bridge.result_eq m ρ c hpre).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
